-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S256x246 : Shape := ⟨2, ![256, 246]⟩
abbrev S246 : Shape := ⟨1, ![246]⟩
abbrev S246x246 : Shape := ⟨2, ![246, 246]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x246 : S_.BroadcastsInDim S256x246 (![] : Fin 0 → Fin S256x246.rank)
  reducesTo_S256x246_S_d0_1 : S256x246.ReducesTo [0, 1] S_
  bcast_S_S246 : S_.BroadcastsInDim S246 (![] : Fin 0 → Fin S246.rank)
  reducesTo_S246_S_d0 : S246.ReducesTo [0] S_
  bcast_S_S246x246 : S_.BroadcastsInDim S246x246 (![] : Fin 0 → Fin S246x246.rank)
  reducesTo_S246x246_S_d0_1 : S246x246.ReducesTo [0, 1] S_

variable [Facts]

def fn_part2 {F : FTy → Type} [FloatOps F] (main_arg8 : FVec F S246x246 .f32) (main_arg9 : FVec F S246 .f32) (main_v33 : IVec S_ 1) : IVec S_ 1 :=
  let main_v34 : FVec F S246x246 .f32 := Host.absf main_arg8
  let main_cst_12 : FVec F S_ .f32 := constant S_ .f32 0x7F800000#32
  let main_v35 : FVec F S246x246 .f32 := broadcastInDim S246x246 ![] bcast_S_S246x246 main_cst_12
  let main_v36 : IVec S246x246 1 := cmpf .olt main_v34 main_v35
  let main_c_13 : IVec S_ 1 := constantI S_ 1 1#1
  let main_v37 : IVec S_ 1 := (fun x v => Host.reduce IntOp.andi x v reducesTo_S246x246_S_d0_1 h_S_) main_v36 main_c_13
  let main_v38 : IVec S_ 1 := andi main_v33 main_v37
  let main_v39 : FVec F S246 .f32 := Host.absf main_arg9
  let main_cst_14 : FVec F S_ .f32 := constant S_ .f32 0x7F800000#32
  let main_v40 : FVec F S246 .f32 := broadcastInDim S246 ![] bcast_S_S246 main_cst_14
  let main_v41 : IVec S246 1 := cmpf .olt main_v39 main_v40
  let main_c_15 : IVec S_ 1 := constantI S_ 1 1#1
  let main_v42 : IVec S_ 1 := (fun x v => Host.reduce IntOp.andi x v reducesTo_S246_S_d0 h_S_) main_v41 main_c_15
  let main_v43 : IVec S_ 1 := andi main_v38 main_v42
  main_v43

def fn_part1 {F : FTy → Type} [FloatOps F] (main_arg5 : FVec F S246 .f32) (main_arg6 : FVec F S246x246 .f32) (main_arg7 : FVec F S246 .f32) (main_arg8 : FVec F S246x246 .f32) (main_arg9 : FVec F S246 .f32) (main_v13 : IVec S_ 1) (main_v16 : IVec S246x246 1) : IVec S_ 1 :=
  let main_c_5 : IVec S_ 1 := constantI S_ 1 1#1
  let main_v17 : IVec S_ 1 := (fun x v => Host.reduce IntOp.andi x v reducesTo_S246x246_S_d0_1 h_S_) main_v16 main_c_5
  let main_v18 : IVec S_ 1 := andi main_v13 main_v17
  let main_v19 : FVec F S246 .f32 := Host.absf main_arg5
  let main_cst_6 : FVec F S_ .f32 := constant S_ .f32 0x7F800000#32
  let main_v20 : FVec F S246 .f32 := broadcastInDim S246 ![] bcast_S_S246 main_cst_6
  let main_v21 : IVec S246 1 := cmpf .olt main_v19 main_v20
  let main_c_7 : IVec S_ 1 := constantI S_ 1 1#1
  let main_v22 : IVec S_ 1 := (fun x v => Host.reduce IntOp.andi x v reducesTo_S246_S_d0 h_S_) main_v21 main_c_7
  let main_v23 : IVec S_ 1 := andi main_v18 main_v22
  let main_v24 : FVec F S246x246 .f32 := Host.absf main_arg6
  let main_cst_8 : FVec F S_ .f32 := constant S_ .f32 0x7F800000#32
  let main_v25 : FVec F S246x246 .f32 := broadcastInDim S246x246 ![] bcast_S_S246x246 main_cst_8
  let main_v26 : IVec S246x246 1 := cmpf .olt main_v24 main_v25
  let main_c_9 : IVec S_ 1 := constantI S_ 1 1#1
  let main_v27 : IVec S_ 1 := (fun x v => Host.reduce IntOp.andi x v reducesTo_S246x246_S_d0_1 h_S_) main_v26 main_c_9
  let main_v28 : IVec S_ 1 := andi main_v23 main_v27
  let main_v29 : FVec F S246 .f32 := Host.absf main_arg7
  let main_cst_10 : FVec F S_ .f32 := constant S_ .f32 0x7F800000#32
  let main_v30 : FVec F S246 .f32 := broadcastInDim S246 ![] bcast_S_S246 main_cst_10
  let main_v31 : IVec S246 1 := cmpf .olt main_v29 main_v30
  let main_c_11 : IVec S_ 1 := constantI S_ 1 1#1
  let main_v32 : IVec S_ 1 := (fun x v => Host.reduce IntOp.andi x v reducesTo_S246_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x320000 32) (main_arg2 : FVec F S256x246 .f32) (main_arg3 : FVec F S246 .f32) (main_arg4 : FVec F S246x246 .f32) (main_arg5 : FVec F S246 .f32) (main_arg6 : FVec F S246x246 .f32) (main_arg7 : FVec F S246 .f32) (main_arg8 : FVec F S246x246 .f32) (main_arg9 : FVec F S246 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x246 .f32 := Host.absf main_arg2
  let main_cst_0 : FVec F S_ .f32 := constant S_ .f32 0x7F800000#32
  let main_v5 : FVec F S256x246 .f32 := broadcastInDim S256x246 ![] bcast_S_S256x246 main_cst_0
  let main_v6 : IVec S256x246 1 := cmpf .olt main_v4 main_v5
  let main_c_1 : IVec S_ 1 := constantI S_ 1 1#1
  let main_v7 : IVec S_ 1 := (fun x v => Host.reduce IntOp.andi x v reducesTo_S256x246_S_d0_1 h_S_) main_v6 main_c_1
  let main_v8 : IVec S_ 1 := andi main_v3 main_v7
  let main_v9 : FVec F S246 .f32 := Host.absf main_arg3
  let main_cst_2 : FVec F S_ .f32 := constant S_ .f32 0x7F800000#32
  let main_v10 : FVec F S246 .f32 := broadcastInDim S246 ![] bcast_S_S246 main_cst_2
  let main_v11 : IVec S246 1 := cmpf .olt main_v9 main_v10
  let main_c_3 : IVec S_ 1 := constantI S_ 1 1#1
  let main_v12 : IVec S_ 1 := (fun x v => Host.reduce IntOp.andi x v reducesTo_S246_S_d0 h_S_) main_v11 main_c_3
  let main_v13 : IVec S_ 1 := andi main_v8 main_v12
  let main_v14 : FVec F S246x246 .f32 := Host.absf main_arg4
  let main_cst_4 : FVec F S_ .f32 := constant S_ .f32 0x7F800000#32
  let main_v15 : FVec F S246x246 .f32 := broadcastInDim S246x246 ![] bcast_S_S246x246 main_cst_4
  let main_v16 : IVec S246x246 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x320000 : Shape := ⟨2, ![2, 320000]⟩
abbrev S256x246 : Shape := ⟨2, ![256, 246]⟩
abbrev S246 : Shape := ⟨1, ![246]⟩
abbrev S246x246 : Shape := ⟨2, ![246, 246]⟩
abbrev S1x320000 : Shape := ⟨2, ![1, 320000]⟩
abbrev S320000 : Shape := ⟨1, ![320000]⟩
abbrev S50000 : Shape := ⟨1, ![50000]⟩
abbrev S370000 : Shape := ⟨1, ![370000]⟩
abbrev S_ : Shape := ⟨0, ![]⟩
abbrev S370000x1 : Shape := ⟨2, ![370000, 1]⟩
abbrev S50000x246 : Shape := ⟨2, ![50000, 246]⟩
abbrev S2000x256 : Shape := ⟨2, ![2000, 256]⟩
abbrev S2000x246 : Shape := ⟨2, ![2000, 246]⟩
abbrev S370000x246 : Shape := ⟨2, ![370000, 246]⟩
abbrev S1x246 : Shape := ⟨2, ![1, 246]⟩
abbrev S2000 : Shape := ⟨1, ![2000]⟩
abbrev S2000x1 : Shape := ⟨2, ![2000, 1]⟩

abbrev nBuf : Space → Nat
  | .hbm => 125
  | .vmem => 40
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S256x246, .f32⟩
  | .hbm, ⟨3, _⟩ => ⟨S246, .f32⟩
  | .hbm, ⟨4, _⟩ => ⟨S246x246, .f32⟩
  | .hbm, ⟨5, _⟩ => ⟨S246, .f32⟩
  | .hbm, ⟨6, _⟩ => ⟨S246x246, .f32⟩
  | .hbm, ⟨7, _⟩ => ⟨S246, .f32⟩
  | .hbm, ⟨8, _⟩ => ⟨S246x246, .f32⟩
  | .hbm, ⟨9, _⟩ => ⟨S246, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S50000, .i32⟩
  | .hbm, ⟨15, _⟩ => ⟨S370000, .i32⟩
  | .hbm, ⟨16, _⟩ => ⟨S370000, .i32⟩
  | .hbm, ⟨17, _⟩ => ⟨S_, .f32⟩
  | .hbm, ⟨18, _⟩ => ⟨S370000, .f32⟩
  | .hbm, ⟨19, _⟩ => ⟨S_, .f32⟩
  | .hbm, ⟨20, _⟩ => ⟨S50000, .f32⟩
  | .hbm, ⟨21, _⟩ => ⟨S370000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S370000, .i32⟩
  | .hbm, ⟨36, _⟩ => ⟨S370000, .i1⟩
  | .hbm, ⟨37, _⟩ => ⟨S_, .i32⟩
  | .hbm, ⟨38, _⟩ => ⟨S370000, .i32⟩
  | .hbm, ⟨39, _⟩ => ⟨S370000, .i32⟩
  | .hbm, ⟨40, _⟩ => ⟨S370000, .i32⟩
  | .hbm, ⟨41, _⟩ => ⟨S370000x1, .i32⟩
  | .hbm, ⟨42, _⟩ => ⟨S370000, .f32⟩
  | .hbm, ⟨43, _⟩ => ⟨S_, .i32⟩
  | .hbm, ⟨44, _⟩ => ⟨S370000, .i32⟩
  | .hbm, ⟨45, _⟩ => ⟨S370000, .i1⟩
  | .hbm, ⟨46, _⟩ => ⟨S_, .i32⟩
  | .hbm, ⟨47, _⟩ => ⟨S370000, .i32⟩
  | .hbm, ⟨48, _⟩ => ⟨S370000, .i32⟩
  | .hbm, ⟨49, _⟩ => ⟨S370000, .i32⟩
  | .hbm, ⟨50, _⟩ => ⟨S370000x1, .i32⟩
  | .hbm, ⟨51, _⟩ => ⟨S370000, .f32⟩
  | .hbm, ⟨52, _⟩ => ⟨S370000, .f32⟩
  | .hbm, ⟨53, _⟩ => ⟨S50000x246, .f32⟩
  | .hbm, ⟨54, _⟩ => ⟨S_, .i32⟩
  | .hbm, ⟨55, _⟩ => ⟨S370000, .i32⟩
  | .hbm, ⟨56, _⟩ => ⟨S370000, .i1⟩
  | .hbm, ⟨57, _⟩ => ⟨S_, .i32⟩
  | .hbm, ⟨58, _⟩ => ⟨S370000, .i32⟩
  | .hbm, ⟨59, _⟩ => ⟨S370000, .i32⟩
  | .hbm, ⟨60, _⟩ => ⟨S370000, .i32⟩
  | .hbm, ⟨61, _⟩ => ⟨S370000x1, .i32⟩
  | .hbm, ⟨62, _⟩ => ⟨S370000x246, .f32⟩
  | .hbm, ⟨63, _⟩ => ⟨S370000x1, .f32⟩
  | .hbm, ⟨64, _⟩ => ⟨S370000x246, .f32⟩
  | .hbm, ⟨65, _⟩ => ⟨S370000x246, .f32⟩
  | .hbm, ⟨66, _⟩ => ⟨S_, .f32⟩
  | .hbm, ⟨67, _⟩ => ⟨S50000x246, .f32⟩
  | .hbm, ⟨68, _⟩ => ⟨S370000x1, .i32⟩
  | .hbm, ⟨69, _⟩ => ⟨S50000x246, .f32⟩
  | .hbm, ⟨70, _⟩ => ⟨S50000x246, .f32⟩
  | .hbm, ⟨71, _⟩ => ⟨S50000x246, .f32⟩
  | .hbm, ⟨72, _⟩ => ⟨S_, .i32⟩
  | .hbm, ⟨73, _⟩ => ⟨S370000, .i32⟩
  | .hbm, ⟨74, _⟩ => ⟨S370000, .i1⟩
  | .hbm, ⟨75, _⟩ => ⟨S_, .i32⟩
  | .hbm, ⟨76, _⟩ => ⟨S370000, .i32⟩
  | .hbm, ⟨77, _⟩ => ⟨S370000, .i32⟩
  | .hbm, ⟨78, _⟩ => ⟨S370000, .i32⟩
  | .hbm, ⟨79, _⟩ => ⟨S370000x1, .i32⟩
  | .hbm, ⟨80, _⟩ => ⟨S370000x246, .f32⟩
  | .hbm, ⟨81, _⟩ => ⟨S370000x1, .f32⟩
  | .hbm, ⟨82, _⟩ => ⟨S370000x246, .f32⟩
  | .hbm, ⟨83, _⟩ => ⟨S370000x246, .f32⟩
  | .hbm, ⟨84, _⟩ => ⟨S_, .f32⟩
  | .hbm, ⟨85, _⟩ => ⟨S50000x246, .f32⟩
  | .hbm, ⟨86, _⟩ => ⟨S370000x1, .i32⟩
  | .hbm, ⟨87, _⟩ => ⟨S50000x246, .f32⟩
  | .hbm, ⟨88, _⟩ => ⟨S50000x246, .f32⟩
  | .hbm, ⟨89, _⟩ => ⟨S50000x246, .f32⟩
  | .hbm, ⟨90, _⟩ => ⟨S_, .i32⟩
  | .hbm, ⟨91, _⟩ => ⟨S370000, .i32⟩
  | .hbm, ⟨92, _⟩ => ⟨S370000, .i1⟩
  | .hbm, ⟨93, _⟩ => ⟨S_, .i32⟩
  | .hbm, ⟨94, _⟩ => ⟨S370000, .i32⟩
  | .hbm, ⟨95, _⟩ => ⟨S370000, .i32⟩
  | .hbm, ⟨96, _⟩ => ⟨S370000, .i32⟩
  | .hbm, ⟨97, _⟩ => ⟨S370000x1, .i32⟩
  | .hbm, ⟨98, _⟩ => ⟨S370000x246, .f32⟩
  | .hbm, ⟨99, _⟩ => ⟨S370000x1, .f32⟩
  | .hbm, ⟨100, _⟩ => ⟨S370000x246, .f32⟩
  | .hbm, ⟨101, _⟩ => ⟨S370000x246, .f32⟩
  | .hbm, ⟨102, _⟩ => ⟨S_, .f32⟩
  | .hbm, ⟨103, _⟩ => ⟨S50000x246, .f32⟩
  | .hbm, ⟨104, _⟩ => ⟨S370000x1, .i32⟩
  | .hbm, ⟨105, _⟩ => ⟨S50000x246, .f32⟩
  | .hbm, ⟨106, _⟩ => ⟨S50000x246, .f32⟩
  | .hbm, ⟨107, _⟩ => ⟨S50000x246, .f32⟩
  | .hbm, ⟨108, _⟩ => ⟨S_, .i32⟩
  | .hbm, ⟨109, _⟩ => ⟨S370000, .i32⟩
  | .hbm, ⟨110, _⟩ => ⟨S370000, .i1⟩
  | .hbm, ⟨111, _⟩ => ⟨S_, .i32⟩
  | .hbm, ⟨112, _⟩ => ⟨S370000, .i32⟩
  | .hbm, ⟨113, _⟩ => ⟨S370000, .i32⟩
  | .hbm, ⟨114, _⟩ => ⟨S370000, .i32⟩
  | .hbm, ⟨115, _⟩ => ⟨S370000x1, .i32⟩
  | .hbm, ⟨116, _⟩ => ⟨S370000x246, .f32⟩
  | .hbm, ⟨117, _⟩ => ⟨S370000x1, .f32⟩
  | .hbm, ⟨118, _⟩ => ⟨S370000x246, .f32⟩
  | .hbm, ⟨119, _⟩ => ⟨S370000x246, .f32⟩
  | .hbm, ⟨120, _⟩ => ⟨S_, .f32⟩
  | .hbm, ⟨121, _⟩ => ⟨S50000x246, .f32⟩
  | .hbm, ⟨122, _⟩ => ⟨S370000x1, .i32⟩
  | .hbm, ⟨123, _⟩ => ⟨S50000x246, .f32⟩
  | .hbm, ⟨124, _⟩ => ⟨S50000x246, .f32⟩
  | .local _ .vmem, ⟨0, _⟩ => ⟨S2000x256, .f32⟩
  | .local _ .vmem, ⟨1, _⟩ => ⟨S2000x256, .f32⟩
  | .local _ .vmem, ⟨2, _⟩ => ⟨S256x246, .f32⟩
  | .local _ .vmem, ⟨3, _⟩ => ⟨S2000x246, .f32⟩
  | .local _ .vmem, ⟨4, _⟩ => ⟨S2000x246, .f32⟩
  | .local _ .vmem, ⟨5, _⟩ => ⟨S2000x246, .f32⟩
  | .local _ .vmem, ⟨6, _⟩ => ⟨S2000x246, .f32⟩
  | .local _ .vmem, ⟨7, _⟩ => ⟨S246, .f32⟩
  | .local _ .vmem, ⟨8, _⟩ => ⟨S2000x246, .f32⟩
  | .local _ .vmem, ⟨9, _⟩ => ⟨S2000x246, .f32⟩
  | .local _ .vmem, ⟨10, _⟩ => ⟨S2000x246, .f32⟩
  | .local _ .vmem, ⟨11, _⟩ => ⟨S2000x246, .f32⟩
  | .local _ .vmem, ⟨12, _⟩ => ⟨S246x246, .f32⟩
  | .local _ .vmem, ⟨13, _⟩ => ⟨S2000x246, .f32⟩
  | .local _ .vmem, ⟨14, _⟩ => ⟨S2000x246, .f32⟩
  | .local _ .vmem, ⟨15, _⟩ => ⟨S2000x246, .f32⟩
  | .local _ .vmem, ⟨16, _⟩ => ⟨S2000x246, .f32⟩
  | .local _ .vmem, ⟨17, _⟩ => ⟨S246, .f32⟩
  | .local _ .vmem, ⟨18, _⟩ => ⟨S2000x246, .f32⟩
  | .local _ .vmem, ⟨19, _⟩ => ⟨S2000x246, .f32⟩
  | .local _ .vmem, ⟨20, _⟩ => ⟨S2000x246, .f32⟩
  | .local _ .vmem, ⟨21, _⟩ => ⟨S2000x246, .f32⟩
  | .local _ .vmem, ⟨22, _⟩ => ⟨S246x246, .f32⟩
  | .local _ .vmem, ⟨23, _⟩ => ⟨S2000x246, .f32⟩
  | .local _ .vmem, ⟨24, _⟩ => ⟨S2000x246, .f32⟩
  | .local _ .vmem, ⟨25, _⟩ => ⟨S2000x246, .f32⟩
  | .local _ .vmem, ⟨26, _⟩ => ⟨S2000x246, .f32⟩
  | .local _ .vmem, ⟨27, _⟩ => ⟨S246, .f32⟩
  | .local _ .vmem, ⟨28, _⟩ => ⟨S2000x246, .f32⟩
  | .local _ .vmem, ⟨29, _⟩ => ⟨S2000x246, .f32⟩
  | .local _ .vmem, ⟨30, _⟩ => ⟨S2000x246, .f32⟩
  | .local _ .vmem, ⟨31, _⟩ => ⟨S2000x246, .f32⟩
  | .local _ .vmem, ⟨32, _⟩ => ⟨S246x246, .f32⟩
  | .local _ .vmem, ⟨33, _⟩ => ⟨S2000x246, .f32⟩
  | .local _ .vmem, ⟨34, _⟩ => ⟨S2000x246, .f32⟩
  | .local _ .vmem, ⟨35, _⟩ => ⟨S2000x246, .f32⟩
  | .local _ .vmem, ⟨36, _⟩ => ⟨S2000x246, .f32⟩
  | .local _ .vmem, ⟨37, _⟩ => ⟨S246, .f32⟩
  | .local _ .vmem, ⟨38, _⟩ => ⟨S2000x246, .f32⟩
  | .local _ .vmem, ⟨39, _⟩ => ⟨S2000x246, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_18 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x246 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x246 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x246 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S246 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x246 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x246 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S246x246 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x246 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x246 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S246 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x246 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x246 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S246x246 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x246 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x246 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S246 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x246 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x246 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S246x246 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x246 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x246 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S246 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x246 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S50000_S370000_d0 : Shape.Concatenates [S320000, S50000] S370000 0
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x246_S256x246_0_0 : ∀ a, (![0, 0] : Fin 2 → Nat) a + S256x246.size a ≤ S256x246.size a
  h_S256x246 : 0 < S256x246.numel
  inb_S2000x246_S2000x246_0_0 : ∀ a, (![0, 0] : Fin 2 → Nat) a + S2000x246.size a ≤ S2000x246.size a
  h_S2000x246 : 0 < S2000x246.numel
  bcast_S370000x1_S370000x246_0_1 : S370000x1.BroadcastsInDim S370000x246 (![0, 1] : Fin 2 → Fin S370000x246.rank)
  bcast_S_S50000x246 : S_.BroadcastsInDim S50000x246 (![] : Fin 0 → Fin S50000x246.rank)
  shapeCasts_S2000x246_S2000x246 : S2000x246.ShapeCasts S2000x246
  inb_S246_S246_0 : ∀ a, (![0] : Fin 1 → Nat) a + S246.size a ≤ S246.size a
  h_S246 : 0 < S246.numel
  shapeCasts_S246_S1x246 : S246.ShapeCasts S1x246
  broadcasts_S1x246_S2000x246 : S1x246.Broadcasts S2000x246
  inb_S246x246_S246x246_0_0 : ∀ a, (![0, 0] : Fin 2 → Nat) a + S246x246.size a ≤ S246x246.size a
  h_S246x246 : 0 < S246x246.numel
  reduces_S2000x246_S2000 : S2000x246.Reduces [1] S2000
  shapeCasts_S2000_S2000x1 : S2000.ShapeCasts S2000x1
  broadcasts_S2000x1_S2000x246 : S2000x1.Broadcasts S2000x246
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  dot_S2000x256_S256x246_S2000x246_1_0_0_1_n_n_wf : DotDims.WF S2000x256 S256x246 S2000x246 [1] [0] [0] [1] [] []
  gather_S50000x246_S370000x1_S370000x246_1_0_n_n_0_1_1246_wf : GatherDims.WF S50000x246 S370000x1 S370000x246 [1] [0] [] [0] [] 1 ![1, 246]
  scatter_S50000x246_S370000x1_S370000x246_1_0_0_1_wf : ScatterDims.WF S50000x246 S370000x1 S370000x246 [1] [0] [0] 1
  dot_S2000x246_S246x246_S2000x246_1_0_0_1_n_n_wf : DotDims.WF S2000x246 S246x246 S2000x246 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x246.size a ≤ S256x246.size a
  hwx0_1 : ∀ i : grid0.Coords, EltTy.bits .f32 = 32 ∨ (Rect.block (s := S256x246) S256x246.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x246.size a ≤ S50000x246.size a
  hwx0_2 : ∀ i : grid0.Coords, EltTy.bits .f32 = 32 ∨ (Rect.block (s := S50000x246) S2000x246.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x246.size a ≤ S50000x246.size a
  hwx1_0 : ∀ i : grid1.Coords, EltTy.bits .f32 = 32 ∨ (Rect.block (s := S50000x246) S2000x246.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S246.size a ≤ S246.size a
  hwx1_1 : ∀ i : grid1.Coords, EltTy.bits .f32 = 32 ∨ (Rect.block (s := S246) S246.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x246.size a ≤ S50000x246.size a
  hwx1_2 : ∀ i : grid1.Coords, EltTy.bits .f32 = 32 ∨ (Rect.block (s := S50000x246) S2000x246.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x246.size a ≤ S50000x246.size a
  hwx2_0 : ∀ i : grid2.Coords, EltTy.bits .f32 = 32 ∨ (Rect.block (s := S50000x246) S2000x246.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S246x246.size a ≤ S246x246.size a
  hwx2_1 : ∀ i : grid2.Coords, EltTy.bits .f32 = 32 ∨ (Rect.block (s := S246x246) S246x246.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x246.size a ≤ S50000x246.size a
  hwx2_2 : ∀ i : grid2.Coords, EltTy.bits .f32 = 32 ∨ (Rect.block (s := S50000x246) S2000x246.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x246.size a ≤ S50000x246.size a
  hwx3_0 : ∀ i : grid3.Coords, EltTy.bits .f32 = 32 ∨ (Rect.block (s := S50000x246) S2000x246.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S246.size a ≤ S246.size a
  hwx3_1 : ∀ i : grid3.Coords, EltTy.bits .f32 = 32 ∨ (Rect.block (s := S246) S246.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x246.size a ≤ S50000x246.size a
  hwx3_2 : ∀ i : grid3.Coords, EltTy.bits .f32 = 32 ∨ (Rect.block (s := S50000x246) S2000x246.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x246.size a ≤ S50000x246.size a
  hwx4_0 : ∀ i : grid4.Coords, EltTy.bits .f32 = 32 ∨ (Rect.block (s := S50000x246) S2000x246.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S246x246.size a ≤ S246x246.size a
  hwx4_1 : ∀ i : grid4.Coords, EltTy.bits .f32 = 32 ∨ (Rect.block (s := S246x246) S246x246.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x246.size a ≤ S50000x246.size a
  hwx4_2 : ∀ i : grid4.Coords, EltTy.bits .f32 = 32 ∨ (Rect.block (s := S50000x246) S2000x246.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x246.size a ≤ S50000x246.size a
  hwx5_0 : ∀ i : grid5.Coords, EltTy.bits .f32 = 32 ∨ (Rect.block (s := S50000x246) S2000x246.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S246.size a ≤ S246.size a
  hwx5_1 : ∀ i : grid5.Coords, EltTy.bits .f32 = 32 ∨ (Rect.block (s := S246) S246.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x246.size a ≤ S50000x246.size a
  hwx5_2 : ∀ i : grid5.Coords, EltTy.bits .f32 = 32 ∨ (Rect.block (s := S50000x246) S2000x246.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x246.size a ≤ S50000x246.size a
  hwx6_0 : ∀ i : grid6.Coords, EltTy.bits .f32 = 32 ∨ (Rect.block (s := S50000x246) S2000x246.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S246x246.size a ≤ S246x246.size a
  hwx6_1 : ∀ i : grid6.Coords, EltTy.bits .f32 = 32 ∨ (Rect.block (s := S246x246) S246x246.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x246.size a ≤ S50000x246.size a
  hwx6_2 : ∀ i : grid6.Coords, EltTy.bits .f32 = 32 ∨ (Rect.block (s := S50000x246) S2000x246.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x246.size a ≤ S50000x246.size a
  hwx7_0 : ∀ i : grid7.Coords, EltTy.bits .f32 = 32 ∨ (Rect.block (s := S50000x246) S2000x246.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S246.size a ≤ S246.size a
  hwx7_1 : ∀ i : grid7.Coords, EltTy.bits .f32 = 32 ∨ (Rect.block (s := S246) S246.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x246.size a ≤ S50000x246.size a
  hwx7_2 : ∀ i : grid7.Coords, EltTy.bits .f32 = 32 ∨ (Rect.block (s := S50000x246) S2000x246.size (cc7_transform_2 i) (hinb7_2 i)).WholeWords (EltTy.packing .f32)

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def dot_S2000x256_S256x246_S2000x246_1_0_0_1_n_n : DotDims S2000x256 S256x246 S2000x246 where
  lhsContracting := [1]
  rhsContracting := [0]
  lhsNonContracting := [0]
  rhsNonContracting := [1]
  lhsBatch := []
  rhsBatch := []
  wf := dot_S2000x256_S256x246_S2000x246_1_0_0_1_n_n_wf
def gather_S50000x246_S370000x1_S370000x246_1_0_n_n_0_1_1246 : GatherDims S50000x246 S370000x1 S370000x246 where
  offsetDims := [1]
  collapsedSliceDims := [0]
  operandBatchingDims := []
  startIndicesBatchingDims := []
  startIndexMap := [0]
  indexVectorDim := 1
  sliceSizes := ![1, 246]
  wf := gather_S50000x246_S370000x1_S370000x246_1_0_n_n_0_1_1246_wf
def scatter_S50000x246_S370000x1_S370000x246_1_0_0_1 : ScatterDims S50000x246 S370000x1 S370000x246 where
  updateWindowDims := [1]
  insertedWindowDims := [0]
  scatterDimsToOperandDims := [0]
  indexVectorDim := 1
  wf := scatter_S50000x246_S370000x1_S370000x246_1_0_0_1_wf
def dot_S2000x246_S246x246_S2000x246_1_0_0_1_n_n : DotDims S2000x246 S246x246 S2000x246 where
  lhsContracting := [1]
  rhsContracting := [0]
  lhsNonContracting := [0]
  rhsNonContracting := [1]
  lhsBatch := []
  rhsBatch := []
  wf := dot_S2000x246_S246x246_S2000x246_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x246.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x246.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x246.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S246.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x246.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x246.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S246x246.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x246.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x246.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S246.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x246.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x246.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S246x246.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x246.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x246.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S246.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S2000x246.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S2000x246.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S246x246.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S2000x246.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v90) S2000x246.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S246.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v91) S2000x246.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S256x246 : Shape := ⟨2, ![256, 246]⟩
abbrev S246 : Shape := ⟨1, ![246]⟩
abbrev S246x246 : Shape := ⟨2, ![246, 246]⟩
abbrev S1x320000 : Shape := ⟨2, ![1, 320000]⟩
abbrev S320000 : Shape := ⟨1, ![320000]⟩
abbrev S50000 : Shape := ⟨1, ![50000]⟩
abbrev S370000 : Shape := ⟨1, ![370000]⟩
abbrev S_ : Shape := ⟨0, ![]⟩
abbrev S370000x1 : Shape := ⟨2, ![370000, 1]⟩
abbrev S50000x246 : Shape := ⟨2, ![50000, 246]⟩
abbrev S370000x246 : Shape := ⟨2, ![370000, 246]⟩
abbrev S1x246 : Shape := ⟨2, ![1, 246]⟩
abbrev S50000x1 : Shape := ⟨2, ![50000, 1]⟩

abbrev nBuf : Space → Nat
  | .hbm => 157
  | .vmem => 0
  | .smem => 0
  | _ => 0

abbrev hbmTy0_0 (i : Nat) : BufTy := match i % 128 with
  | 0 => ⟨S50000x256, .f32⟩
  | 1 => ⟨S2x320000, .i32⟩
  | 2 => ⟨S256x246, .f32⟩
  | 3 => ⟨S246, .f32⟩
  | 4 => ⟨S246x246, .f32⟩
  | 5 => ⟨S246, .f32⟩
  | 6 => ⟨S246x246, .f32⟩
  | 7 => ⟨S246, .f32⟩
  | 8 => ⟨S246x246, .f32⟩
  | 9 => ⟨S246, .f32⟩
  | 10 => ⟨S1x320000, .i32⟩
  | 11 => ⟨S320000, .i32⟩
  | 12 => ⟨S1x320000, .i32⟩
  | 13 => ⟨S320000, .i32⟩
  | 14 => ⟨S50000, .i32⟩
  | 15 => ⟨S370000, .i32⟩
  | 16 => ⟨S370000, .i32⟩
  | 17 => ⟨S_, .f32⟩
  | 18 => ⟨S370000, .f32⟩
  | 19 => ⟨S_, .f32⟩
  | 20 => ⟨S50000, .f32⟩
  | 21 => ⟨S370000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S370000, .i32⟩
  | 36 => ⟨S370000, .i1⟩
  | 37 => ⟨S_, .i32⟩
  | 38 => ⟨S370000, .i32⟩
  | 39 => ⟨S370000, .i32⟩
  | 40 => ⟨S370000, .i32⟩
  | 41 => ⟨S370000x1, .i32⟩
  | 42 => ⟨S370000, .f32⟩
  | 43 => ⟨S_, .i32⟩
  | 44 => ⟨S370000, .i32⟩
  | 45 => ⟨S370000, .i1⟩
  | 46 => ⟨S_, .i32⟩
  | 47 => ⟨S370000, .i32⟩
  | 48 => ⟨S370000, .i32⟩
  | 49 => ⟨S370000, .i32⟩
  | 50 => ⟨S370000x1, .i32⟩
  | 51 => ⟨S370000, .f32⟩
  | 52 => ⟨S370000, .f32⟩
  | 53 => ⟨S50000x246, .f32⟩
  | 54 => ⟨S_, .i32⟩
  | 55 => ⟨S370000, .i32⟩
  | 56 => ⟨S370000, .i1⟩
  | 57 => ⟨S_, .i32⟩
  | 58 => ⟨S370000, .i32⟩
  | 59 => ⟨S370000, .i32⟩
  | 60 => ⟨S370000, .i32⟩
  | 61 => ⟨S370000x1, .i32⟩
  | 62 => ⟨S370000x246, .f32⟩
  | 63 => ⟨S370000x1, .f32⟩
  | 64 => ⟨S370000x246, .f32⟩
  | 65 => ⟨S370000x246, .f32⟩
  | 66 => ⟨S_, .f32⟩
  | 67 => ⟨S50000x246, .f32⟩
  | 68 => ⟨S370000x1, .i32⟩
  | 69 => ⟨S50000x246, .f32⟩
  | 70 => ⟨S1x246, .f32⟩
  | 71 => ⟨S50000x246, .f32⟩
  | 72 => ⟨S50000x246, .f32⟩
  | 73 => ⟨S_, .f32⟩
  | 74 => ⟨S50000x246, .f32⟩
  | 75 => ⟨S50000x246, .f32⟩
  | 76 => ⟨S50000x246, .f32⟩
  | 77 => ⟨S_, .i32⟩
  | 78 => ⟨S370000, .i32⟩
  | 79 => ⟨S370000, .i1⟩
  | 80 => ⟨S_, .i32⟩
  | 81 => ⟨S370000, .i32⟩
  | 82 => ⟨S370000, .i32⟩
  | 83 => ⟨S370000, .i32⟩
  | 84 => ⟨S370000x1, .i32⟩
  | 85 => ⟨S370000x246, .f32⟩
  | 86 => ⟨S370000x1, .f32⟩
  | 87 => ⟨S370000x246, .f32⟩
  | 88 => ⟨S370000x246, .f32⟩
  | 89 => ⟨S_, .f32⟩
  | 90 => ⟨S50000x246, .f32⟩
  | 91 => ⟨S370000x1, .i32⟩
  | 92 => ⟨S50000x246, .f32⟩
  | 93 => ⟨S1x246, .f32⟩
  | 94 => ⟨S50000x246, .f32⟩
  | 95 => ⟨S50000x246, .f32⟩
  | 96 => ⟨S_, .f32⟩
  | 97 => ⟨S50000x246, .f32⟩
  | 98 => ⟨S50000x246, .f32⟩
  | 99 => ⟨S50000x246, .f32⟩
  | 100 => ⟨S_, .i32⟩
  | 101 => ⟨S370000, .i32⟩
  | 102 => ⟨S370000, .i1⟩
  | 103 => ⟨S_, .i32⟩
  | 104 => ⟨S370000, .i32⟩
  | 105 => ⟨S370000, .i32⟩
  | 106 => ⟨S370000, .i32⟩
  | 107 => ⟨S370000x1, .i32⟩
  | 108 => ⟨S370000x246, .f32⟩
  | 109 => ⟨S370000x1, .f32⟩
  | 110 => ⟨S370000x246, .f32⟩
  | 111 => ⟨S370000x246, .f32⟩
  | 112 => ⟨S_, .f32⟩
  | 113 => ⟨S50000x246, .f32⟩
  | 114 => ⟨S370000x1, .i32⟩
  | 115 => ⟨S50000x246, .f32⟩
  | 116 => ⟨S1x246, .f32⟩
  | 117 => ⟨S50000x246, .f32⟩
  | 118 => ⟨S50000x246, .f32⟩
  | 119 => ⟨S_, .f32⟩
  | 120 => ⟨S50000x246, .f32⟩
  | 121 => ⟨S50000x246, .f32⟩
  | 122 => ⟨S50000x246, .f32⟩
  | 123 => ⟨S_, .i32⟩
  | 124 => ⟨S370000, .i32⟩
  | 125 => ⟨S370000, .i1⟩
  | 126 => ⟨S_, .i32⟩
  | 127 => ⟨S370000, .i32⟩
  | _ => ⟨S50000x256, .f32⟩

abbrev hbmTy0_1 (i : Nat) : BufTy := match i % 128 with
  | 0 => ⟨S370000, .i32⟩
  | 1 => ⟨S370000, .i32⟩
  | 2 => ⟨S370000x1, .i32⟩
  | 3 => ⟨S370000x246, .f32⟩
  | 4 => ⟨S370000x1, .f32⟩
  | 5 => ⟨S370000x246, .f32⟩
  | 6 => ⟨S370000x246, .f32⟩
  | 7 => ⟨S_, .f32⟩
  | 8 => ⟨S50000x246, .f32⟩
  | 9 => ⟨S370000x1, .i32⟩
  | 10 => ⟨S50000x246, .f32⟩
  | 11 => ⟨S1x246, .f32⟩
  | 12 => ⟨S50000x246, .f32⟩
  | 13 => ⟨S50000x246, .f32⟩
  | 14 => ⟨S_, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x246, .f32⟩
  | 21 => ⟨S50000x246, .f32⟩
  | 22 => ⟨S50000x246, .f32⟩
  | 23 => ⟨S_, .f32⟩
  | 24 => ⟨S50000, .f32⟩
  | 25 => ⟨S50000x1, .f32⟩
  | 26 => ⟨S50000x1, .f32⟩
  | 27 => ⟨S50000x246, .f32⟩
  | 28 => ⟨S50000x246, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call4_cst : Ref sig .tc := ⟨.hbm, 142, rfl⟩
abbrev main_call4_v0 : Ref sig .tc := ⟨.hbm, 143, rfl⟩
abbrev main_call4_cst_0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_v6 : Ref sig .tc := ⟨.hbm, 150, rfl⟩
abbrev main_call4_cst_1 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_v103 : Ref sig .tc := ⟨.hbm, 156, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S50000_S370000_d0 : Shape.Concatenates [S320000, S50000] S370000 0
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  bcast_S370000x1_S370000x246_0_1 : S370000x1.BroadcastsInDim S370000x246 (![0, 1] : Fin 2 → Fin S370000x246.rank)
  bcast_S_S50000x246 : S_.BroadcastsInDim S50000x246 (![] : Fin 0 → Fin S50000x246.rank)
  bcast_S246_S1x246_1 : S246.BroadcastsInDim S1x246 (![1] : Fin 1 → Fin S1x246.rank)
  bcast_S1x246_S50000x246_0_1 : S1x246.BroadcastsInDim S50000x246 (![0, 1] : Fin 2 → Fin S50000x246.rank)
  reducesTo_S50000x246_S50000_d1 : S50000x246.ReducesTo [1] S50000
  h_S_ : 0 < S_.numel
  bcast_S50000_S50000x1_0 : S50000.BroadcastsInDim S50000x1 (![0] : Fin 1 → Fin S50000x1.rank)
  bcast_S50000x1_S50000x246_0_1 : S50000x1.BroadcastsInDim S50000x246 (![0, 1] : Fin 2 → Fin S50000x246.rank)
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  dot_S50000x256_S256x246_S50000x246_1_0_0_1_n_n_wf : DotDims.WF S50000x256 S256x246 S50000x246 [1] [0] [0] [1] [] []
  gather_S50000x246_S370000x1_S370000x246_1_0_n_n_0_1_1246_wf : GatherDims.WF S50000x246 S370000x1 S370000x246 [1] [0] [] [0] [] 1 ![1, 246]
  scatter_S50000x246_S370000x1_S370000x246_1_0_0_1_wf : ScatterDims.WF S50000x246 S370000x1 S370000x246 [1] [0] [0] 1
  dot_S50000x246_S246x246_S50000x246_1_0_0_1_n_n_wf : DotDims.WF S50000x246 S246x246 S50000x246 [1] [0] [0] [1] [] []

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def dot_S50000x256_S256x246_S50000x246_1_0_0_1_n_n : DotDims S50000x256 S256x246 S50000x246 where
  lhsContracting := [1]
  rhsContracting := [0]
  lhsNonContracting := [0]
  rhsNonContracting := [1]
  lhsBatch := []
  rhsBatch := []
  wf := dot_S50000x256_S256x246_S50000x246_1_0_0_1_n_n_wf
def gather_S50000x246_S370000x1_S370000x246_1_0_n_n_0_1_1246 : GatherDims S50000x246 S370000x1 S370000x246 where
  offsetDims := [1]
  collapsedSliceDims := [0]
  operandBatchingDims := []
  startIndicesBatchingDims := []
  startIndexMap := [0]
  indexVectorDim := 1
  sliceSizes := ![1, 246]
  wf := gather_S50000x246_S370000x1_S370000x246_1_0_n_n_0_1_1246_wf
def scatter_S50000x246_S370000x1_S370000x246_1_0_0_1 : ScatterDims S50000x246 S370000x1 S370000x246 where
  updateWindowDims := [1]
  insertedWindowDims := [0]
  scatterDimsToOperandDims := [0]
  indexVectorDim := 1
  wf := scatter_S50000x246_S370000x1_S370000x246_1_0_0_1_wf
def dot_S50000x246_S246x246_S50000x246_1_0_0_1_n_n : DotDims S50000x246 S246x246 S50000x246 where
  lhsContracting := [1]
  rhsContracting := [0]
  lhsNonContracting := [0]
  rhsNonContracting := [1]
  lhsBatch := []
  rhsBatch := []
  wf := dot_S50000x246_S246x246_S50000x246_1_0_0_1_n_n_wf

class Facts : Prop extends Facts₀ where

variable [Facts]
-- ==== Proof.KernelRun.lean ====
/-
  The idealized kernel's whole run with its result named.

  The program is eight device regions among stretches of host lines.  Every weakly fair execution ends, nothing faults,
  and in the final state every unscoped buffer holds the last boundary's contents: the fold of the host stretches and of
  the regions' write-backs over the launch memory.  Read at the result buffer this names the program's result; read at
  the arguments it gives them back unchanged.
-/
import proofs.«149639_j46462956208473_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last boundary's
    contents and the ten arguments as launched. -/
theorem run_result : θ_run defs (onTc (τ := τ) (main (F := F))) ⟨m, fun _ => 0, ρ⟩ (fun r => ∀ c : Dev nD,
      r.2.mem ((c.tc : Thread nD τ).loc main_v91) = W15 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v91 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.RunValue

end
-- ==== Proof.Spec.lean ====
/-
  The network both programs compute, layer by layer, at the ideal values.

  A graph-convolution layer multiplies the node features by a weight matrix, gathers the product's rows at the source
  node of every edge, scales each gathered row by the edge's normalisation weight, adds the scaled rows into the row of
  the edge's target node, and adds a bias row.  The first three layers end in max(·, 0); the last ends in the row-wise
  log-softmax: with M the row's maximum, y − M − log ∑ exp (y − M).
-/
import proofs.«149639_j46462956208473_1_alg».proof.ReferenceIdeal
import proofs.«149639_j46462956208473_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- Node features [50000, 256] times the first weight matrix [256, 246]. -/
def dense1 (x : FVec Ideal S50000x256 .f32) (w : FVec Ideal S256x246 .f32) :
    FVec Ideal S50000x246 .f32 :=
  Host.dotGeneral (F := Ideal) dot_S50000x256_S256x246_S50000x246_1_0_0_1_n_n none x w

/-- Hidden features [50000, 246] times a weight matrix [246, 246]. -/
def dense (h : FVec Ideal S50000x246 .f32) (w : FVec Ideal S246x246 .f32) :
    FVec Ideal S50000x246 .f32 :=
  Host.dotGeneral (F := Ideal) dot_S50000x246_S246x246_S50000x246_1_0_0_1_n_n none h w

/-- The neighbourhood sum: row `e` of the gathered features is row `src e` of `h` (a negative source number first
    wrapped by the number of nodes), times the weight `nrm e`; the rows are added into row `dst e` of a zero array. -/
def aggregate (h : FVec Ideal S50000x246 .f32)
    (src dst : IVec S370000 32) (nrm : FVec Ideal S370000 .f32) :
    FVec Ideal S50000x246 .f32 :=
  Host.scatterAdd (F := Ideal) scatter_S50000x246_S370000x1_S370000x246_1_0_0_1
    (broadcastInDim S50000x246 ![] bcast_S_S50000x246 (constant (F := Ideal) S_ .f32 0x00000000#32))
    (broadcastInDim S370000x1 ![0] bcast_S370000_S370000x1_0 dst)
    (mulf
      (Host.gather gather_S50000x246_S370000x1_S370000x246_1_0_n_n_0_1_1246 h
        (broadcastInDim S370000x1 ![0] bcast_S370000_S370000x1_0
          (select (cmpi .slt src (broadcastInDim S370000 ![] bcast_S_S370000 (constantI S_ 32 0#32)))
            (addi src (broadcastInDim S370000 ![] bcast_S_S370000 (constantI S_ 32 50000#32))) src)))
      (broadcastInDim S370000x246 ![0, 1] bcast_S370000x1_S370000x246_0_1
        (broadcastInDim S370000x1 ![0] bcast_S370000_S370000x1_0 nrm)))

/-- A bias vector added to every row. -/
def biased (a : FVec Ideal S50000x246 .f32) (b : FVec Ideal S246 .f32) :
    FVec Ideal S50000x246 .f32 :=
  addf a (broadcastInDim S50000x246 ![0, 1] bcast_S1x246_S50000x246_0_1 (broadcastInDim S1x246 ![1] bcast_S246_S1x246_1 b))

/-- max(·, 0), entry by entry. -/
def relu (y : FVec Ideal S50000x246 .f32) : FVec Ideal S50000x246 .f32 :=
  maximumf y (broadcastInDim S50000x246 ![] bcast_S_S50000x246 (constant (F := Ideal) S_ .f32 0x00000000#32))

/-- The row-wise shift by the row maximum (the maximum folded from −∞ and once more compared with −∞). -/
def shifted (y : FVec Ideal S50000x246 .f32) : FVec Ideal S50000x246 .f32 :=
  subf y (broadcastInDim S50000x246 ![0, 1] bcast_S50000x1_S50000x246_0_1 (broadcastInDim S50000x1 ![0] bcast_S50000_S50000x1_0
    (maximumf (broadcastInDim S50000 ![] bcast_S_S50000 (constant (F := Ideal) S_ .f32 0xFF800000#32))
      (Host.reduce FloatOps.maximumf y (constant (F := Ideal) S_ .f32 0xFF800000#32) reducesTo_S50000x246_S50000_d1 h_S_))))

/-- The row-wise log-softmax: the shifted row minus the logarithm of the sum of its exponentials. -/
def logSoftmax (y : FVec Ideal S50000x246 .f32) : FVec Ideal S50000x246 .f32 :=
  subf (shifted y) (broadcastInDim S50000x246 ![0, 1] bcast_S50000x1_S50000x246_0_1 (Host.log (broadcastInDim S50000x1 ![0] bcast_S50000_S50000x1_0
    (Host.reduceAdd (Host.exp (shifted y)) (constant (F := Ideal) S_ .f32 0x00000000#32) reducesTo_S50000x246_S50000_d1 h_S_))))

end Cert.Spec

end
-- ==== Proof.Graph.lean ====
/-
  The edge data and the whole four-layer network, at the ideal values.

  From the [2, 320000] edge list: the source and the target node of every edge, with one self-loop per node appended
  (370000 edges in all); every node's degree, the number of edges that end in it; its inverse square root where the
  degree is positive (zero elsewhere); and every edge's weight, the product of that quantity at its two end nodes
  (a negative node number first wrapped by the number of nodes).  The network is four graph-convolution layers over
  these data, the first three ending in max(·, 0), the last in the row-wise log-softmax.
-/
import proofs.«149639_j46462956208473_1_alg».proof.Proof.Spec

noncomputable section

namespace Cert.Spec

open Idealize.ShloMosaic Cert.ReferenceIdeal Cert.ReferenceIdeal.Facts₀ Cert.ReferenceIdeal.Facts

/-- The source node of every edge, then the nodes 0 … 49999 themselves (the self-loops). -/
def srcs (e : IVec S2x320000 32) : IVec S370000 32 :=
  concatenate S370000 0 [⟨S320000, (shapeCast _ (extractStridedSlice S1x320000 ![0, 0] e slices_S2x320000_S1x320000_0_0) shapeCasts_S1x320000_S320000)⟩, ⟨S50000, (iotaInDim S50000 32 0)⟩] concatenates_S320000_S50000_S370000_d0

/-- The target node of every edge, then the nodes 0 … 49999 themselves. -/
def dsts (e : IVec S2x320000 32) : IVec S370000 32 :=
  concatenate S370000 0 [⟨S320000, (shapeCast _ (extractStridedSlice S1x320000 ![1, 0] e slices_S2x320000_S1x320000_1_0) shapeCasts_S1x320000_S320000)⟩, ⟨S50000, (iotaInDim S50000 32 0)⟩] concatenates_S320000_S50000_S370000_d0

/-- A node number as an index: a negative one is first moved up by the number of nodes. -/
def wrapped (v : IVec S370000 32) : IVec S370000 32 :=
  select (cmpi .slt v (broadcastInDim S370000 ![] bcast_S_S370000 (constantI S_ 32 0#32)))
    (addi v (broadcastInDim S370000 ![] bcast_S_S370000 (constantI S_ 32 50000#32))) v

/-- Every node's degree: one added at the target of every edge, from zero. -/
def degree (e : IVec S2x320000 32) : FVec Ideal S50000 .f32 :=
  Host.scatterAdd (F := Ideal) scatter_S50000_S370000x1_S370000_n_0_0_1
    (broadcastInDim S50000 ![] bcast_S_S50000 (constant (F := Ideal) S_ .f32 0x00000000#32))
    (broadcastInDim S370000x1 ![0] bcast_S370000_S370000x1_0 (dsts e))
    (broadcastInDim S370000 ![] bcast_S_S370000 (constant (F := Ideal) S_ .f32 0x3F800000#32))

/-- Where a node's degree is positive. -/
def positive (e : IVec S2x320000 32) : IVec S50000 1 :=
  cmpf .ogt (degree e) (broadcastInDim S50000 ![] bcast_S_S50000 (constant (F := Ideal) S_ .f32 0x00000000#32))

/-- 1 / √(max(degree, 1)). -/
def invSqrt (e : IVec S2x320000 32) : FVec Ideal S50000 .f32 :=
  Host.rsqrt (maximumf (degree e) (broadcastInDim S50000 ![] bcast_S_S50000 (constant (F := Ideal) S_ .f32 0x3F800000#32)))

/-- The zero scalar. -/
def zero : FVec Ideal S_ .f32 := constant (F := Ideal) S_ .f32 0x00000000#32

/-- 1 / √(max(degree, 1)) where the degree is positive, zero elsewhere. -/
def invSqrtDegree (e : IVec S2x320000 32) : FVec Ideal S50000 .f32 :=
  select (positive e) (invSqrt e) (broadcastInDim S50000 ![] bcast_S_S50000 (id zero))

/-- Every edge's weight: the product of the inverse square-root degrees of its source and its target. -/
def wts (e : IVec S2x320000 32) : FVec Ideal S370000 .f32 :=
  mulf
    (Host.gather gather_S50000_S370000x1_S370000_n_0_n_n_0_1_1 (invSqrtDegree e)
      (broadcastInDim S370000x1 ![0] bcast_S370000_S370000x1_0 (wrapped (srcs e))))
    (Host.gather gather_S50000_S370000x1_S370000_n_0_n_n_0_1_1 (invSqrtDegree e)
      (broadcastInDim S370000x1 ![0] bcast_S370000_S370000x1_0 (wrapped (dsts e))))

/-- One graph-convolution layer after its matrix product `h`: neighbourhood sum over the edge data of `e`, plus the bias. -/
def conv (h : FVec Ideal S50000x246 .f32) (e : IVec S2x320000 32)
    (b : FVec Ideal S246 .f32) : FVec Ideal S50000x246 .f32 :=
  biased (aggregate h (srcs e) (dsts e) (wts e)) b

/-- The network: three layers ending in max(·, 0), a fourth ending in the row-wise log-softmax. -/
def net (x : FVec Ideal S50000x256 .f32) (e : IVec S2x320000 32)
    (w1 : FVec Ideal S256x246 .f32) (b1 : FVec Ideal S246 .f32)
    (w2 : FVec Ideal S246x246 .f32) (b2 : FVec Ideal S246 .f32)
    (w3 : FVec Ideal S246x246 .f32) (b3 : FVec Ideal S246 .f32)
    (w4 : FVec Ideal S246x246 .f32) (b4 : FVec Ideal S246 .f32) :
    FVec Ideal S50000x246 .f32 :=
  logSoftmax (conv (dense (relu (conv (dense (relu (conv (dense (relu (conv (dense1 x w1) e b1)) w2) e b2)) w3) e b3)) w4) e b4)

end Cert.Spec

end
-- ==== Proof.LibTypedRef.lean ====
/-
  A value written into the buffer of a typed reference and read back through the same reference is the value.

  A typed reference names a buffer together with the type of the tensor value it holds and an equation saying that the
  buffer's own type is that type.  Contents pass between the value's type and the buffer's type by transport along that
  equation, in either direction.  The two transports are inverse to each other: to the buffer and back gives the value,
  and from the buffer and back gives the buffer's contents.  Both are proved for an arbitrary reference by making the
  equation the reflexive one, so neither statement asks what any particular reference's type is.

  Use: a stretch of host operations printed through typed references (the operations of an outlined function) leaves,
  once each operation's result has been rewritten to its function's value, every intermediate value wrapped in such a
  pair of transports.  Rewriting with the first lemma removes the pairs one by one, whichever proofs the two references
  carry, without the type of any reference being computed.
-/
import Idealize.ShloMosaic.Lib.StableHlo

namespace Cert.TypedRef

open Idealize.ShloMosaic Idealize.ShloMosaic.StableHlo

variable {sig : RefSig} {Val : EltTy → Type} {T : BufTy}

/-- Contents at the value's type, moved to the type of the reference's buffer and back, are unchanged. -/
theorem ofBuf_toBuf (x : TRef sig T) (w : T.Contents Val) : x.ofBuf (x.toBuf w) = w := by
  obtain ⟨r, h, _, _⟩ := x
  subst h
  rfl

/-- Contents of the reference's buffer, moved to the value's type and back, are unchanged. -/
theorem toBuf_ofBuf (x : TRef sig T) (w : x.ref.ty.Contents Val) : x.toBuf (x.ofBuf w) = w := by
  obtain ⟨r, h, _, _⟩ := x
  subst h
  rfl

end Cert.TypedRef
-- ==== Proof.Carried.lean ====
/-
  What the program carries across its boundaries.

  The ten argument arrays are never written.  The edges' source and target node numbers (with one self-loop per node
  appended) and the edges' weights are computed by the host lines before the first device region and never written
  again.  So at every later boundary of the program — after a host stretch, after a device region — each of these
  thirteen buffers still holds what it held when the first region was entered.
-/
import proofs.«149639_j46462956208473_1_alg».proof.Proof.Gen.KernelIdeal.Frame
import proofs.«149639_j46462956208473_1_alg».proof.Proof.Graph
import proofs.«149639_j46462956208473_1_alg».proof.Proof.LibTypedRef

set_option maxRecDepth 16384

noncomputable section

namespace Cert.KernelIdeal.Carried

open Cert.KernelIdeal Cert.KernelIdeal.Gen
open Idealize.ShloMosaic Idealize.ShloMosaic.TcCoe Idealize.SL.Sem
open Idealize.ShloMosaic.Pipeline (Dat)

/-- A buffer that no operation of a literal stretch of host lines writes keeps its contents. -/
macro "kept_host" l:ident : tactic => `(tactic| (
  refine Idealize.ShloMosaic.StableHlo.after_of_forall_not_mem _ _ (List.forall_iff_forall_mem.mp ?_)
  simp only [$l:ident, List.flatten_cons, List.flatten_nil, List.append_nil, List.cons_append, List.nil_append, List.Forall,
    Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes,
    Idealize.ShloMosaic.StableHlo.binaryIndexed_writes, Finset.mem_singleton]
  repeat' apply And.intro
  all_goals exact Idealize.ShloMosaic.StableHlo.devRef_ne_of_ne (by decide)))

variable (m : (ℓ : Loc nD τ sig) → Buf (Elt Ideal) ℓ) (ρ : Dev nD → PrngReg) (c : Dev nD)

/-- The thirteen carried buffers at the contents `W`: the arguments as launched; the edges' source nodes, target nodes
    and weights as functions of the edge list alone. -/
structure Kept (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  s : W (Proc.devRef .tc main_v5) = Cert.Spec.srcs (m ((c : Thread nD τ).loc main_arg1))
  d : W (Proc.devRef .tc main_v6) = Cert.Spec.dsts (m ((c : Thread nD τ).loc main_arg1))
  n : W (Proc.devRef .tc main_v31) = Cert.Spec.wts (m ((c : Thread nD τ).loc main_arg1))

/-- From the thirteen facts at one boundary to the thirteen at the next: each is the step's "unchanged" after the old fact. -/
macro "carry" h:ident : term =>
  `(⟨Eq.trans ?_ (Kept.a0 $h), Eq.trans ?_ (Kept.a1 $h), Eq.trans ?_ (Kept.a2 $h), Eq.trans ?_ (Kept.a3 $h), Eq.trans ?_ (Kept.a4 $h),
     Eq.trans ?_ (Kept.a5 $h), Eq.trans ?_ (Kept.a6 $h), Eq.trans ?_ (Kept.a7 $h), Eq.trans ?_ (Kept.a8 $h), Eq.trans ?_ (Kept.a9 $h),
     Eq.trans ?_ (Kept.s $h), Eq.trans ?_ (Kept.d $h), Eq.trans ?_ (Kept.n $h)⟩)

/-! ## Before the first region: the edge data are computed, the arguments untouched -/

/-- A buffer none of the three opening host stretches writes holds its launch contents when the first region is entered. -/
theorem pre_chain {b : Ref sig .tc}
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = W0 m ρ c (Proc.devRef .tc b) := h2.trans (h1.trans h0)

/-- The source nodes, as the first host stretch leaves them. -/
theorem srcs_at_1 : W1 m ρ c (Proc.devRef .tc main_v5) = Cert.Spec.srcs (m ((c : Thread nD τ).loc main_arg1)) := by
  show StableHlo.after hostOps0 (W0 m ρ c) (Proc.devRef .tc main_v5) = _
  after_results_simp
  rfl

/-- The target nodes, as the first host stretch leaves them. -/
theorem dsts_at_1 : W1 m ρ c (Proc.devRef .tc main_v6) = Cert.Spec.dsts (m ((c : Thread nD τ).loc main_arg1)) := by
  show StableHlo.after hostOps0 (W0 m ρ c) (Proc.devRef .tc main_v6) = _
  after_results_simp
  rfl

/-- Every node's degree, as the first host stretch leaves it compared with zero. -/
theorem positive_at_1 : W1 m ρ c (Proc.devRef .tc main_v12) = Cert.Spec.positive (m ((c : Thread nD τ).loc main_arg1)) := by
  show StableHlo.after hostOps0 (W0 m ρ c) (Proc.devRef .tc main_v12) = _
  after_results_simp
  rfl

/-- 1 / √(max(degree, 1)), as the first host stretch leaves it. -/
theorem invSqrt_at_1 : W1 m ρ c (Proc.devRef .tc main_v15) = Cert.Spec.invSqrt (m ((c : Thread nD τ).loc main_arg1)) := by
  show StableHlo.after hostOps0 (W0 m ρ c) (Proc.devRef .tc main_v15) = _
  after_results_simp
  rfl

/-- The zero scalar the selection falls back to. -/
theorem zero_at_1 : W1 m ρ c (Proc.devRef .tc main_cst_3) = Cert.Spec.zero := by
  show StableHlo.after hostOps0 (W0 m ρ c) (Proc.devRef .tc main_cst_3) = _
  after_results_simp
  try rfl

/-- The selection "the second operand where the first is one, the splat of the third elsewhere", over any three
    operands: the three operations of the middle stretch. -/
theorem select_stage (U : Valuation τ sig (Elt Ideal)) (p : IVec S50000 1) (q : FVec Ideal S50000 .f32) (z : FVec Ideal S_ .f32)
    (h12 : U (Proc.devRef .tc main_v12) = p) (h15 : U (Proc.devRef .tc main_v15) = q)
    (h3 : U (Proc.devRef .tc main_cst_3) = z) :
    StableHlo.after hostOps0_1 U (Proc.devRef .tc main_v16)
      = select p q (broadcastInDim S50000 ![] Cert.KernelIdeal.Facts₀.bcast_S_S50000 (id z)) := by
  after_results_simp
  simp only [Cert.TypedRef.ofBuf_toBuf]
  rw [h12, h15, h3]
  rfl

/-- The inverse square-root degree, zero where the degree is zero, after the middle stretch. -/
theorem invSqrtDegree_at_2 :
    W2 m ρ c (Proc.devRef .tc main_v16) = Cert.Spec.invSqrtDegree (m ((c : Thread nD τ).loc main_arg1)) :=
  (select_stage (W1 m ρ c) _ _ _ (positive_at_1 m ρ c) (invSqrt_at_1 m ρ c) (zero_at_1 m ρ c)).trans rfl

/-- The last opening stretch: both end nodes' values gathered along the edges and multiplied. -/
theorem wts_stage (U : Valuation τ sig (Elt Ideal)) (e : IVec Cert.ReferenceIdeal.S2x320000 32)
    (h5 : U (Proc.devRef .tc main_v5) = Cert.Spec.srcs e) (h6 : U (Proc.devRef .tc main_v6) = Cert.Spec.dsts e)
    (h16 : U (Proc.devRef .tc main_v16) = Cert.Spec.invSqrtDegree e) :
    StableHlo.after hostOps0_2 U (Proc.devRef .tc main_v31) = Cert.Spec.wts e := by
  after_results_simp
  rw [h5, h6, h16]
  rfl

/-- The edge weights, as the three opening host stretches leave them. -/
theorem wts_at_3 : W3 m ρ c (Proc.devRef .tc main_v31) = Cert.Spec.wts (m ((c : Thread nD τ).loc main_arg1)) :=
  wts_stage (W2 m ρ c) _
    ((by kept_host hostOps0_1 : W2 m ρ c (Proc.devRef .tc main_v5) = W1 m ρ c (Proc.devRef .tc main_v5)).trans (srcs_at_1 m ρ c))
    ((by kept_host hostOps0_1 : W2 m ρ c (Proc.devRef .tc main_v6) = W1 m ρ c (Proc.devRef .tc main_v6)).trans (dsts_at_1 m ρ c))
    (invSqrtDegree_at_2 m ρ c)

/-- When the first region is entered. -/
theorem kept3 : Kept m c (W3 m ρ c) where
  a0 := (pre_chain m ρ c (by kept_host hostOps0) (by kept_host hostOps0_1) (by kept_host hostOps0_2)).trans rfl
  a1 := (pre_chain m ρ c (by kept_host hostOps0) (by kept_host hostOps0_1) (by kept_host hostOps0_2)).trans rfl
  a2 := (pre_chain m ρ c (by kept_host hostOps0) (by kept_host hostOps0_1) (by kept_host hostOps0_2)).trans rfl
  a3 := (pre_chain m ρ c (by kept_host hostOps0) (by kept_host hostOps0_1) (by kept_host hostOps0_2)).trans rfl
  a4 := (pre_chain m ρ c (by kept_host hostOps0) (by kept_host hostOps0_1) (by kept_host hostOps0_2)).trans rfl
  a5 := (pre_chain m ρ c (by kept_host hostOps0) (by kept_host hostOps0_1) (by kept_host hostOps0_2)).trans rfl
  a6 := (pre_chain m ρ c (by kept_host hostOps0) (by kept_host hostOps0_1) (by kept_host hostOps0_2)).trans rfl
  a7 := (pre_chain m ρ c (by kept_host hostOps0) (by kept_host hostOps0_1) (by kept_host hostOps0_2)).trans rfl
  a8 := (pre_chain m ρ c (by kept_host hostOps0) (by kept_host hostOps0_1) (by kept_host hostOps0_2)).trans rfl
  a9 := (pre_chain m ρ c (by kept_host hostOps0) (by kept_host hostOps0_1) (by kept_host hostOps0_2)).trans rfl
  s := (by kept_host hostOps0_2 : W3 m ρ c (Proc.devRef .tc main_v5) = W2 m ρ c (Proc.devRef .tc main_v5)).trans
    ((by kept_host hostOps0_1 : W2 m ρ c (Proc.devRef .tc main_v5) = W1 m ρ c (Proc.devRef .tc main_v5)).trans (srcs_at_1 m ρ c))
  d := (by kept_host hostOps0_2 : W3 m ρ c (Proc.devRef .tc main_v6) = W2 m ρ c (Proc.devRef .tc main_v6)).trans
    ((by kept_host hostOps0_1 : W2 m ρ c (Proc.devRef .tc main_v6) = W1 m ρ c (Proc.devRef .tc main_v6)).trans (dsts_at_1 m ρ c))
  n := wts_at_3 m ρ c

/-! ## From boundary to boundary -/

/-- Region 0 writes its output array only: an input array ends as entered, every other buffer is untouched. -/
theorem kept4 (h : Kept m c (W3 m ρ c)) : Kept m c (W4 m ρ c) := by
  refine carry h
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

/-- The host stretch `hostOps1` writes none of the thirteen. -/
theorem kept5 (h : Kept m c (W4 m ρ c)) : Kept m c (W5 m ρ c) := by
  refine carry h <;> kept_host hostOps1

/-- Region 1 writes its output array only: an input array ends as entered, every other buffer is untouched. -/
theorem kept6 (h : Kept m c (W5 m ρ c)) : Kept m c (W6 m ρ c) := by
  refine carry h
  all_goals first
    | exact W6_of_ne m ρ c _ (by decide)
    | exact (W6_arr m ρ c 0).trans (((dat1 (V5 m ρ) c).arrAt_in 0 rfl _).trans (A_eq1 (V5 m ρ) c 0))
    | exact (W6_arr m ρ c 1).trans (((dat1 (V5 m ρ) c).arrAt_in 1 rfl _).trans (A_eq1 (V5 m ρ) c 1))

/-- Region 2 writes its output array only: an input array ends as entered, every other buffer is untouched. -/
theorem kept7 (h : Kept m c (W6 m ρ c)) : Kept m c (W7 m ρ c) := by
  refine carry h
  all_goals first
    | exact W7_of_ne m ρ c _ (by decide)
    | exact (W7_arr m ρ c 0).trans (((dat2 (V6 m ρ) c).arrAt_in 0 rfl _).trans (A_eq2 (V6 m ρ) c 0))
    | exact (W7_arr m ρ c 1).trans (((dat2 (V6 m ρ) c).arrAt_in 1 rfl _).trans (A_eq2 (V6 m ρ) c 1))

/-- The host stretch `hostOps3` writes none of the thirteen. -/
theorem kept8 (h : Kept m c (W7 m ρ c)) : Kept m c (W8 m ρ c) := by
  refine carry h <;> kept_host hostOps3

/-- Region 3 writes its output array only: an input array ends as entered, every other buffer is untouched. -/
theorem kept9 (h : Kept m c (W8 m ρ c)) : Kept m c (W9 m ρ c) := by
  refine carry h
  all_goals first
    | exact W9_of_ne m ρ c _ (by decide)
    | exact (W9_arr m ρ c 0).trans (((dat3 (V8 m ρ) c).arrAt_in 0 rfl _).trans (A_eq3 (V8 m ρ) c 0))
    | exact (W9_arr m ρ c 1).trans (((dat3 (V8 m ρ) c).arrAt_in 1 rfl _).trans (A_eq3 (V8 m ρ) c 1))

/-- Region 4 writes its output array only: an input array ends as entered, every other buffer is untouched. -/
theorem kept10 (h : Kept m c (W9 m ρ c)) : Kept m c (W10 m ρ c) := by
  refine carry h
  all_goals first
    | exact W10_of_ne m ρ c _ (by decide)
    | exact (W10_arr m ρ c 0).trans (((dat4 (V9 m ρ) c).arrAt_in 0 rfl _).trans (A_eq4 (V9 m ρ) c 0))
    | exact (W10_arr m ρ c 1).trans (((dat4 (V9 m ρ) c).arrAt_in 1 rfl _).trans (A_eq4 (V9 m ρ) c 1))

/-- The host stretch `hostOps5` writes none of the thirteen. -/
theorem kept11 (h : Kept m c (W10 m ρ c)) : Kept m c (W11 m ρ c) := by
  refine carry h <;> kept_host hostOps5

/-- Region 5 writes its output array only: an input array ends as entered, every other buffer is untouched. -/
theorem kept12 (h : Kept m c (W11 m ρ c)) : Kept m c (W12 m ρ c) := by
  refine carry h
  all_goals first
    | exact W12_of_ne m ρ c _ (by decide)
    | exact (W12_arr m ρ c 0).trans (((dat5 (V11 m ρ) c).arrAt_in 0 rfl _).trans (A_eq5 (V11 m ρ) c 0))
    | exact (W12_arr m ρ c 1).trans (((dat5 (V11 m ρ) c).arrAt_in 1 rfl _).trans (A_eq5 (V11 m ρ) c 1))

/-- Region 6 writes its output array only: an input array ends as entered, every other buffer is untouched. -/
theorem kept13 (h : Kept m c (W12 m ρ c)) : Kept m c (W13 m ρ c) := by
  refine carry h
  all_goals first
    | exact W13_of_ne m ρ c _ (by decide)
    | exact (W13_arr m ρ c 0).trans (((dat6 (V12 m ρ) c).arrAt_in 0 rfl _).trans (A_eq6 (V12 m ρ) c 0))
    | exact (W13_arr m ρ c 1).trans (((dat6 (V12 m ρ) c).arrAt_in 1 rfl _).trans (A_eq6 (V12 m ρ) c 1))

/-- The host stretch `hostOps7` writes none of the thirteen. -/
theorem kept14 (h : Kept m c (W13 m ρ c)) : Kept m c (W14 m ρ c) := by
  refine carry h <;> kept_host hostOps7

end Cert.KernelIdeal.Carried

end
-- ==== Proof.KernelValue.lean ====
/-
  The idealized kernel program's result as the network of the edge list and the weights.

  The program alternates device regions and host stretches.  A matrix-product region leaves the product of the array it
  reads with a weight matrix; a host stretch gathers that product's rows along the edges, weights them and adds them into
  the target nodes' rows; a pointwise region adds the bias and takes max(·, 0) — in the last layer the row-wise
  log-softmax instead.  Every stage reads its operands from the boundary before it: the edge data and the arguments
  are carried unchanged, the previous stage's array is what that stage left.  Composed, layer by layer, the result
  buffer holds the four-layer network of the arguments.
-/
import proofs.«149639_j46462956208473_1_alg».proof.Proof.Carried

set_option maxRecDepth 16384

noncomputable section

namespace Cert.KernelIdeal.KernelValue

open Cert.KernelIdeal Cert.KernelIdeal.Gen Cert.KernelIdeal.Carried
open Idealize.ShloMosaic Idealize.ShloMosaic.TcCoe Idealize.SL.Sem

variable (m : (ℓ : Loc nD τ sig) → Buf (Elt Ideal) ℓ) (ρ : Dev nD → PrngReg) (c : Dev nD)

/-- The neighbourhood sum of equal operands. -/
theorem aggregate_congr {h h' : FVec Ideal Cert.ReferenceIdeal.S50000x246 .f32} {s s' d d' : IVec Cert.ReferenceIdeal.S370000 32}
    {n n' : FVec Ideal Cert.ReferenceIdeal.S370000 .f32} (eh : h = h') (es : s = s') (ed : d = d') (en : n = n') :
    Cert.Spec.aggregate h s d n = Cert.Spec.aggregate h' s' d' n' := by subst eh es ed en; rfl

/-! ## The hidden features after each of the first three layers, as functions of the arguments -/

/-- After layer 1. -/
def hidden1 : FVec Ideal Cert.ReferenceIdeal.S50000x246 .f32 :=
  Cert.Spec.relu (Cert.Spec.conv (Cert.Spec.dense1 (m ((c : Thread nD τ).loc main_arg0)) (m ((c : Thread nD τ).loc main_arg2))) (m ((c : Thread nD τ).loc main_arg1)) (m ((c : Thread nD τ).loc main_arg3)))
/-- After layer 2. -/
def hidden2 : FVec Ideal Cert.ReferenceIdeal.S50000x246 .f32 :=
  Cert.Spec.relu (Cert.Spec.conv (Cert.Spec.dense (hidden1 m c) (m ((c : Thread nD τ).loc main_arg4))) (m ((c : Thread nD τ).loc main_arg1)) (m ((c : Thread nD τ).loc main_arg5)))
/-- After layer 3. -/
def hidden3 : FVec Ideal Cert.ReferenceIdeal.S50000x246 .f32 :=
  Cert.Spec.relu (Cert.Spec.conv (Cert.Spec.dense (hidden2 m c) (m ((c : Thread nD τ).loc main_arg6))) (m ((c : Thread nD τ).loc main_arg1)) (m ((c : Thread nD τ).loc main_arg7)))

/-- The network is the fourth layer and the log-softmax over the third hidden features. -/
theorem net_eq : Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    = Cert.Spec.logSoftmax (Cert.Spec.conv (Cert.Spec.dense (hidden3 m c) (m ((c : Thread nD τ).loc main_arg8))) (m ((c : Thread nD τ).loc main_arg1)) (m ((c : Thread nD τ).loc main_arg9))) := rfl

/-! ## The four host stretches between the regions: one neighbourhood sum each -/

theorem sum1 : W5 m ρ c (Proc.devRef .tc main_v45)
    = Cert.Spec.aggregate (W4 m ρ c (Proc.devRef .tc main_v32)) (W4 m ρ c (Proc.devRef .tc main_v5))
        (W4 m ρ c (Proc.devRef .tc main_v6)) (W4 m ρ c (Proc.devRef .tc main_v31)) := by
  show StableHlo.after hostOps1 (W4 m ρ c) (Proc.devRef .tc main_v45) = _
  after_results_simp
  rfl

theorem sum2 : W8 m ρ c (Proc.devRef .tc main_v60)
    = Cert.Spec.aggregate (W7 m ρ c (Proc.devRef .tc main_v47)) (W7 m ρ c (Proc.devRef .tc main_v5))
        (W7 m ρ c (Proc.devRef .tc main_v6)) (W7 m ρ c (Proc.devRef .tc main_v31)) := by
  show StableHlo.after hostOps3 (W7 m ρ c) (Proc.devRef .tc main_v60) = _
  after_results_simp
  rfl

theorem sum3 : W11 m ρ c (Proc.devRef .tc main_v75)
    = Cert.Spec.aggregate (W10 m ρ c (Proc.devRef .tc main_v62)) (W10 m ρ c (Proc.devRef .tc main_v5))
        (W10 m ρ c (Proc.devRef .tc main_v6)) (W10 m ρ c (Proc.devRef .tc main_v31)) := by
  show StableHlo.after hostOps5 (W10 m ρ c) (Proc.devRef .tc main_v75) = _
  after_results_simp
  rfl

theorem sum4 : W14 m ρ c (Proc.devRef .tc main_v90)
    = Cert.Spec.aggregate (W13 m ρ c (Proc.devRef .tc main_v77)) (W13 m ρ c (Proc.devRef .tc main_v5))
        (W13 m ρ c (Proc.devRef .tc main_v6)) (W13 m ρ c (Proc.devRef .tc main_v31)) := by
  show StableHlo.after hostOps7 (W13 m ρ c) (Proc.devRef .tc main_v90) = _
  after_results_simp
  rfl

/-! ## Layer by layer

Each layer theorem takes what its regions leave in their output arrays, as functions of the arrays they read. -/

set_option maxHeartbeats 1600000 in
/-- Layer 1: the product region, the neighbourhood sum, the bias / max(·, 0) region. -/
theorem layer1
    (D0 : ∀ (V : (c : Dev nD) → (b : Ref sig .tc) → Buf (Elt Ideal) ((c : Thread nD τ).loc b)) (c : Dev nD), (dat0 (F := Ideal) V c).arrAt 2 cfg0.N = Cert.Spec.dense1 (V c main_arg0) (V c main_arg2))
    (R1 : ∀ (V : (c : Dev nD) → (b : Ref sig .tc) → Buf (Elt Ideal) ((c : Thread nD τ).loc b)) (c : Dev nD), (dat1 (F := Ideal) V c).arrAt 2 cfg1.N = Cert.Spec.relu (Cert.Spec.biased (V c main_v45) (V c main_arg3)))
    (k3 : Kept m c (W3 m ρ c)) (k4 : Kept m c (W4 m ρ c)) (k5 : Kept m c (W5 m ρ c)) :
    W6 m ρ c (Proc.devRef .tc main_v46) = hidden1 m c := by
  have e32 : W4 m ρ c (Proc.devRef .tc main_v32) = Cert.Spec.dense1 (m ((c : Thread nD τ).loc main_arg0)) (m ((c : Thread nD τ).loc main_arg2)) :=
    (W4_arr m ρ c 2).trans ((D0 (V3 m ρ) c).trans (congrArg₂ Cert.Spec.dense1 k3.a0 k3.a2))
  have e45 := (sum1 m ρ c).trans (aggregate_congr e32 k4.s k4.d k4.n)
  exact (W6_arr m ρ c 2).trans ((R1 (V5 m ρ) c).trans (congrArg Cert.Spec.relu (congrArg₂ Cert.Spec.biased e45 k5.a3)))

set_option maxHeartbeats 1600000 in
/-- Layer 2, from the first hidden features. -/
theorem layer2
    (D2 : ∀ (V : (c : Dev nD) → (b : Ref sig .tc) → Buf (Elt Ideal) ((c : Thread nD τ).loc b)) (c : Dev nD), (dat2 (F := Ideal) V c).arrAt 2 cfg2.N = Cert.Spec.dense (V c main_v46) (V c main_arg4))
    (R3 : ∀ (V : (c : Dev nD) → (b : Ref sig .tc) → Buf (Elt Ideal) ((c : Thread nD τ).loc b)) (c : Dev nD), (dat3 (F := Ideal) V c).arrAt 2 cfg3.N = Cert.Spec.relu (Cert.Spec.biased (V c main_v60) (V c main_arg5)))
    (k6 : Kept m c (W6 m ρ c)) (k7 : Kept m c (W7 m ρ c)) (k8 : Kept m c (W8 m ρ c))
    (e46 : W6 m ρ c (Proc.devRef .tc main_v46) = hidden1 m c) :
    W9 m ρ c (Proc.devRef .tc main_v61) = hidden2 m c := by
  have e47 : W7 m ρ c (Proc.devRef .tc main_v47) = Cert.Spec.dense (hidden1 m c) (m ((c : Thread nD τ).loc main_arg4)) :=
    (W7_arr m ρ c 2).trans ((D2 (V6 m ρ) c).trans (congrArg₂ Cert.Spec.dense e46 k6.a4))
  have e60 := (sum2 m ρ c).trans (aggregate_congr e47 k7.s k7.d k7.n)
  exact (W9_arr m ρ c 2).trans ((R3 (V8 m ρ) c).trans (congrArg Cert.Spec.relu (congrArg₂ Cert.Spec.biased e60 k8.a5)))

set_option maxHeartbeats 1600000 in
/-- Layer 3, from the second hidden features. -/
theorem layer3
    (D4 : ∀ (V : (c : Dev nD) → (b : Ref sig .tc) → Buf (Elt Ideal) ((c : Thread nD τ).loc b)) (c : Dev nD), (dat4 (F := Ideal) V c).arrAt 2 cfg4.N = Cert.Spec.dense (V c main_v61) (V c main_arg6))
    (R5 : ∀ (V : (c : Dev nD) → (b : Ref sig .tc) → Buf (Elt Ideal) ((c : Thread nD τ).loc b)) (c : Dev nD), (dat5 (F := Ideal) V c).arrAt 2 cfg5.N = Cert.Spec.relu (Cert.Spec.biased (V c main_v75) (V c main_arg7)))
    (k9 : Kept m c (W9 m ρ c)) (k10 : Kept m c (W10 m ρ c)) (k11 : Kept m c (W11 m ρ c))
    (e61 : W9 m ρ c (Proc.devRef .tc main_v61) = hidden2 m c) :
    W12 m ρ c (Proc.devRef .tc main_v76) = hidden3 m c := by
  have e62 : W10 m ρ c (Proc.devRef .tc main_v62) = Cert.Spec.dense (hidden2 m c) (m ((c : Thread nD τ).loc main_arg6)) :=
    (W10_arr m ρ c 2).trans ((D4 (V9 m ρ) c).trans (congrArg₂ Cert.Spec.dense e61 k9.a6))
  have e75 := (sum3 m ρ c).trans (aggregate_congr e62 k10.s k10.d k10.n)
  exact (W12_arr m ρ c 2).trans ((R5 (V11 m ρ) c).trans (congrArg Cert.Spec.relu (congrArg₂ Cert.Spec.biased e75 k11.a7)))

set_option maxHeartbeats 1600000 in
/-- Layer 4 and the row-wise log-softmax, from the third hidden features. -/
theorem layer4
    (D6 : ∀ (V : (c : Dev nD) → (b : Ref sig .tc) → Buf (Elt Ideal) ((c : Thread nD τ).loc b)) (c : Dev nD), (dat6 (F := Ideal) V c).arrAt 2 cfg6.N = Cert.Spec.dense (V c main_v76) (V c main_arg8))
    (L7 : ∀ (V : (c : Dev nD) → (b : Ref sig .tc) → Buf (Elt Ideal) ((c : Thread nD τ).loc b)) (c : Dev nD), (dat7 (F := Ideal) V c).arrAt 2 cfg7.N = Cert.Spec.logSoftmax (Cert.Spec.biased (V c main_v90) (V c main_arg9)))
    (k12 : Kept m c (W12 m ρ c)) (k13 : Kept m c (W13 m ρ c)) (k14 : Kept m c (W14 m ρ c))
    (e76 : W12 m ρ c (Proc.devRef .tc main_v76) = hidden3 m c) :
    W15 m ρ c (Proc.devRef .tc main_v91)
      = Cert.Spec.logSoftmax (Cert.Spec.conv (Cert.Spec.dense (hidden3 m c) (m ((c : Thread nD τ).loc main_arg8))) (m ((c : Thread nD τ).loc main_arg1)) (m ((c : Thread nD τ).loc main_arg9))) := by
  have e77 : W13 m ρ c (Proc.devRef .tc main_v77) = Cert.Spec.dense (hidden3 m c) (m ((c : Thread nD τ).loc main_arg8)) :=
    (W13_arr m ρ c 2).trans ((D6 (V12 m ρ) c).trans (congrArg₂ Cert.Spec.dense e76 k12.a8))
  have e90 := (sum4 m ρ c).trans (aggregate_congr e77 k13.s k13.d k13.n)
  exact (W15_arr m ρ c 2).trans ((L7 (V14 m ρ) c).trans (congrArg Cert.Spec.logSoftmax (congrArg₂ Cert.Spec.biased e90 k14.a9)))

/-! ## The composition -/

/-- Given what each of the eight regions leaves in its output array as a function of the arrays it reads, the result
    buffer after the last region holds the network of the arguments. -/
theorem result
    (D0 : ∀ (V : (c : Dev nD) → (b : Ref sig .tc) → Buf (Elt Ideal) ((c : Thread nD τ).loc b)) (c : Dev nD), (dat0 (F := Ideal) V c).arrAt 2 cfg0.N = Cert.Spec.dense1 (V c main_arg0) (V c main_arg2))
    (R1 : ∀ (V : (c : Dev nD) → (b : Ref sig .tc) → Buf (Elt Ideal) ((c : Thread nD τ).loc b)) (c : Dev nD), (dat1 (F := Ideal) V c).arrAt 2 cfg1.N = Cert.Spec.relu (Cert.Spec.biased (V c main_v45) (V c main_arg3)))
    (D2 : ∀ (V : (c : Dev nD) → (b : Ref sig .tc) → Buf (Elt Ideal) ((c : Thread nD τ).loc b)) (c : Dev nD), (dat2 (F := Ideal) V c).arrAt 2 cfg2.N = Cert.Spec.dense (V c main_v46) (V c main_arg4))
    (R3 : ∀ (V : (c : Dev nD) → (b : Ref sig .tc) → Buf (Elt Ideal) ((c : Thread nD τ).loc b)) (c : Dev nD), (dat3 (F := Ideal) V c).arrAt 2 cfg3.N = Cert.Spec.relu (Cert.Spec.biased (V c main_v60) (V c main_arg5)))
    (D4 : ∀ (V : (c : Dev nD) → (b : Ref sig .tc) → Buf (Elt Ideal) ((c : Thread nD τ).loc b)) (c : Dev nD), (dat4 (F := Ideal) V c).arrAt 2 cfg4.N = Cert.Spec.dense (V c main_v61) (V c main_arg6))
    (R5 : ∀ (V : (c : Dev nD) → (b : Ref sig .tc) → Buf (Elt Ideal) ((c : Thread nD τ).loc b)) (c : Dev nD), (dat5 (F := Ideal) V c).arrAt 2 cfg5.N = Cert.Spec.relu (Cert.Spec.biased (V c main_v75) (V c main_arg7)))
    (D6 : ∀ (V : (c : Dev nD) → (b : Ref sig .tc) → Buf (Elt Ideal) ((c : Thread nD τ).loc b)) (c : Dev nD), (dat6 (F := Ideal) V c).arrAt 2 cfg6.N = Cert.Spec.dense (V c main_v76) (V c main_arg8))
    (L7 : ∀ (V : (c : Dev nD) → (b : Ref sig .tc) → Buf (Elt Ideal) ((c : Thread nD τ).loc b)) (c : Dev nD), (dat7 (F := Ideal) V c).arrAt 2 cfg7.N = Cert.Spec.logSoftmax (Cert.Spec.biased (V c main_v90) (V c main_arg9))) :
    W15 m ρ c (Proc.devRef .tc main_v91) = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have k3 := kept3 m ρ c
  have k4 := kept4 m ρ c k3
  have k5 := kept5 m ρ c k4
  have k6 := kept6 m ρ c k5
  have k7 := kept7 m ρ c k6
  have k8 := kept8 m ρ c k7
  have k9 := kept9 m ρ c k8
  have k10 := kept10 m ρ c k9
  have k11 := kept11 m ρ c k10
  have k12 := kept12 m ρ c k11
  have k13 := kept13 m ρ c k12
  have k14 := kept14 m ρ c k13
  have e46 := layer1 m ρ c D0 R1 k3 k4 k5
  have e61 := layer2 m ρ c D2 R3 k6 k7 k8 e46
  have e76 := layer3 m ρ c D4 R5 k9 k10 k11 e61
  exact (layer4 m ρ c D6 L7 k12 k13 k14 e76).trans (net_eq m c).symm

end Cert.KernelIdeal.KernelValue

end
-- ==== Proof.RefEdge.lean ====
/-
  The reference program's first 43 host operations: the edge data.

  From the [2, 320000] edge list the operations compute, in this order: the source and the target node of every edge
  with one self-loop per node appended; every node's degree; where it is positive; its inverse square root; that
  quantity kept where the degree is positive and zero elsewhere; and every edge's weight, the product of that quantity
  at the edge's two end nodes.  The operations are read in four stretches; each stretch is read once, over whatever
  contents it is entered with, as the function of the buffers it reads; the stretches are then put in a row.  No
  operation among the 43 writes an argument's buffer.
-/
import proofs.«149639_j46462956208473_1_alg».proof.Proof.RefOps
import proofs.«149639_j46462956208473_1_alg».proof.Proof.Graph
import proofs.«149639_j46462956208473_1_alg».proof.Proof.LibTypedRef
import Idealize.ShloMosaic.Lib.StableHlo.Run
import Idealize.ShloMosaic.Lib.Pipeline.Frame

noncomputable section

namespace Cert.ReferenceIdeal.RefValue

open Cert.ReferenceIdeal Cert.ReferenceIdeal.Facts₀ Cert.ReferenceIdeal.Facts Cert.ReferenceIdeal.ValueP
open Idealize.ShloMosaic Idealize.ShloMosaic.TcCoe Idealize.ShloMosaic.StableHlo

/-- The first seven operations: the two rows of the edge list, each followed by the node numbers themselves. -/
abbrev edgeA : List (HloOp τ sig (Elt Ideal)) := List.take 7 (ops (F := Ideal))
/-- Operations 8 to 20: the degrees, where they are positive, and their inverse square roots. -/
abbrev edgeM : List (HloOp τ sig (Elt Ideal)) := List.take 13 (List.drop 7 (ops (F := Ideal)))
/-- Operations 21 to 24: the inverse square root kept where the degree is positive, zero elsewhere. -/
abbrev edgeE : List (HloOp τ sig (Elt Ideal)) := List.take 4 (List.drop 20 (ops (F := Ideal)))
/-- Operations 25 to 43: every edge's weight. -/
abbrev edgeF : List (HloOp τ sig (Elt Ideal)) := List.take 19 (List.drop 24 (ops (F := Ideal)))

/-- The first 43 operations are those four stretches in a row. -/
theorem edge_split : List.take 43 (ops (F := Ideal)) = edgeA ++ (edgeM ++ (edgeE ++ edgeF)) := rfl

/-- After the first stretch the buffer of the sources holds them, read off the edge list the stretch finds. -/
theorem edgeA_srcs (U : Valuation τ sig (Elt Ideal)) :
    StableHlo.after edgeA U (Proc.devRef .tc main_v5) = Cert.Spec.srcs (U (Proc.devRef .tc main_arg1)) := by
  simp only [edgeA, ops, List.take_succ_cons, List.take_zero]
  after_results_simp
  rfl

/-- And the buffer of the targets holds them. -/
theorem edgeA_dsts (U : Valuation τ sig (Elt Ideal)) :
    StableHlo.after edgeA U (Proc.devRef .tc main_v6) = Cert.Spec.dsts (U (Proc.devRef .tc main_arg1)) := by
  simp only [edgeA, ops, List.take_succ_cons, List.take_zero]
  after_results_simp
  rfl

/-- The second stretch, entered with the targets in their buffer, leaves where the degrees are positive … -/
theorem edgeM_positive (U : Valuation τ sig (Elt Ideal)) (e : IVec S2x320000 32)
    (h6 : U (Proc.devRef .tc main_v6) = Cert.Spec.dsts e) :
    StableHlo.after edgeM U (Proc.devRef .tc main_v12) = Cert.Spec.positive e := by
  simp only [edgeM, ops, List.take_succ_cons, List.take_zero, List.drop_succ_cons, List.drop_zero]
  after_results_simp
  rw [h6]; rfl

/-- … and the inverse square roots of the degrees (of 1 where the degree is smaller). -/
theorem edgeM_invSqrt (U : Valuation τ sig (Elt Ideal)) (e : IVec S2x320000 32)
    (h6 : U (Proc.devRef .tc main_v6) = Cert.Spec.dsts e) :
    StableHlo.after edgeM U (Proc.devRef .tc main_v15) = Cert.Spec.invSqrt e := by
  simp only [edgeM, ops, List.take_succ_cons, List.take_zero, List.drop_succ_cons, List.drop_zero]
  after_results_simp
  rw [h6]; rfl

/-- The third stretch chooses, node by node, between what it finds in the second buffer and zero, by the bit in the
    first. -/
theorem edgeE_select (U : Valuation τ sig (Elt Ideal)) (p : IVec S50000 1) (q : FVec Ideal S50000 .f32)
    (h12 : U (Proc.devRef .tc main_v12) = p) (h15 : U (Proc.devRef .tc main_v15) = q) :
    StableHlo.after edgeE U (Proc.devRef .tc main_v16)
      = select p q (broadcastInDim S50000 ![] bcast_S_S50000 (id (constant (F := Ideal) S_ .f32 0x00000000#32))) := by
  simp only [edgeE, ops, List.take_succ_cons, List.take_zero, List.drop_succ_cons, List.drop_zero]
  after_results_simp
  simp only [Cert.TypedRef.ofBuf_toBuf]
  rw [h12, h15]; rfl

/-- The fourth stretch, entered with the sources, the targets and the nodes' factors in their buffers, leaves every
    edge's weight. -/
theorem edgeF_wts (U : Valuation τ sig (Elt Ideal)) (e : IVec S2x320000 32)
    (h5 : U (Proc.devRef .tc main_v5) = Cert.Spec.srcs e) (h6 : U (Proc.devRef .tc main_v6) = Cert.Spec.dsts e)
    (h16 : U (Proc.devRef .tc main_v16) = Cert.Spec.invSqrtDegree e) :
    StableHlo.after edgeF U (Proc.devRef .tc main_v31) = Cert.Spec.wts e := by
  simp only [edgeF, ops, List.take_succ_cons, List.take_zero, List.drop_succ_cons, List.drop_zero]
  after_results_simp
  rw [h5, h6, h16]; rfl

/-! A buffer that no operation of a stretch writes holds after the stretch what it held before: the sources' and the
    targets' buffers through the second, third and fourth stretch, and the ten argument buffers through all 43
    operations. -/

theorem edgeM_keeps5 (U : Valuation τ sig (Elt Ideal)) :
    StableHlo.after edgeM U (Proc.devRef .tc main_v5) = U (Proc.devRef .tc main_v5) := by
  refine StableHlo.after_of_forall_not_mem _ _ (List.forall_iff_forall_mem.mp ?_)
  simp only [edgeM, ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edgeM_keeps6 (U : Valuation τ sig (Elt Ideal)) :
    StableHlo.after edgeM U (Proc.devRef .tc main_v6) = U (Proc.devRef .tc main_v6) := by
  refine StableHlo.after_of_forall_not_mem _ _ (List.forall_iff_forall_mem.mp ?_)
  simp only [edgeM, ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edgeE_keeps5 (U : Valuation τ sig (Elt Ideal)) :
    StableHlo.after edgeE U (Proc.devRef .tc main_v5) = U (Proc.devRef .tc main_v5) := by
  refine StableHlo.after_of_forall_not_mem _ _ (List.forall_iff_forall_mem.mp ?_)
  simp only [edgeE, ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edgeE_keeps6 (U : Valuation τ sig (Elt Ideal)) :
    StableHlo.after edgeE U (Proc.devRef .tc main_v6) = U (Proc.devRef .tc main_v6) := by
  refine StableHlo.after_of_forall_not_mem _ _ (List.forall_iff_forall_mem.mp ?_)
  simp only [edgeE, ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edgeF_keeps5 (U : Valuation τ sig (Elt Ideal)) :
    StableHlo.after edgeF U (Proc.devRef .tc main_v5) = U (Proc.devRef .tc main_v5) := by
  refine StableHlo.after_of_forall_not_mem _ _ (List.forall_iff_forall_mem.mp ?_)
  simp only [edgeF, ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edgeF_keeps6 (U : Valuation τ sig (Elt Ideal)) :
    StableHlo.after edgeF U (Proc.devRef .tc main_v6) = U (Proc.devRef .tc main_v6) := by
  refine StableHlo.after_of_forall_not_mem _ _ (List.forall_iff_forall_mem.mp ?_)
  simp only [edgeF, ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg0 (U : Valuation τ sig (Elt Ideal)) :
    StableHlo.after (List.take 43 (ops (F := Ideal))) U (Proc.devRef .tc main_arg0) = U (Proc.devRef .tc main_arg0) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg1 (U : Valuation τ sig (Elt Ideal)) :
    StableHlo.after (List.take 43 (ops (F := Ideal))) U (Proc.devRef .tc main_arg1) = U (Proc.devRef .tc main_arg1) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg2 (U : Valuation τ sig (Elt Ideal)) :
    StableHlo.after (List.take 43 (ops (F := Ideal))) U (Proc.devRef .tc main_arg2) = U (Proc.devRef .tc main_arg2) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg3 (U : Valuation τ sig (Elt Ideal)) :
    StableHlo.after (List.take 43 (ops (F := Ideal))) U (Proc.devRef .tc main_arg3) = U (Proc.devRef .tc main_arg3) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg4 (U : Valuation τ sig (Elt Ideal)) :
    StableHlo.after (List.take 43 (ops (F := Ideal))) U (Proc.devRef .tc main_arg4) = U (Proc.devRef .tc main_arg4) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg5 (U : Valuation τ sig (Elt Ideal)) :
    StableHlo.after (List.take 43 (ops (F := Ideal))) U (Proc.devRef .tc main_arg5) = U (Proc.devRef .tc main_arg5) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg6 (U : Valuation τ sig (Elt Ideal)) :
    StableHlo.after (List.take 43 (ops (F := Ideal))) U (Proc.devRef .tc main_arg6) = U (Proc.devRef .tc main_arg6) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg7 (U : Valuation τ sig (Elt Ideal)) :
    StableHlo.after (List.take 43 (ops (F := Ideal))) U (Proc.devRef .tc main_arg7) = U (Proc.devRef .tc main_arg7) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg8 (U : Valuation τ sig (Elt Ideal)) :
    StableHlo.after (List.take 43 (ops (F := Ideal))) U (Proc.devRef .tc main_arg8) = U (Proc.devRef .tc main_arg8) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem edge_keeps_arg9 (U : Valuation τ sig (Elt Ideal)) :
    StableHlo.after (List.take 43 (ops (F := Ideal))) U (Proc.devRef .tc main_arg9) = U (Proc.devRef .tc main_arg9) := by
  refine StableHlo.after_of_forall_not_mem _ _ (List.forall_iff_forall_mem.mp ?_)
  simp only [ops, List.take_succ_cons, List.take_zero, List.drop_succ_cons, List.drop_zero, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)

/-- After the first 43 operations: the sources, the targets and the weights of the edges, as functions of the edge list
    the program was launched with, and the ten arguments as launched. -/
theorem edge_stage (m : (ℓ : Loc nD τ sig) → Buf (Elt Ideal) ℓ) (c : Dev nD) :
    let U := StableHlo.after (List.take 43 (Cert.ReferenceIdeal.ValueP.ops (F := Ideal))) (StableHlo.launchContents m c)
    U (Proc.devRef .tc main_v5) = Cert.Spec.srcs (m ((c.tc : Thread nD τ).loc main_arg1))
    ∧ U (Proc.devRef .tc main_v6) = Cert.Spec.dsts (m ((c.tc : Thread nD τ).loc main_arg1))
    ∧ U (Proc.devRef .tc main_v31) = Cert.Spec.wts (m ((c.tc : Thread nD τ).loc main_arg1))
    ∧ U (Proc.devRef .tc main_arg0) = m ((c.tc : Thread nD τ).loc main_arg0)
    ∧ U (Proc.devRef .tc main_arg1) = m ((c.tc : Thread nD τ).loc main_arg1)
    ∧ U (Proc.devRef .tc main_arg2) = m ((c.tc : Thread nD τ).loc main_arg2)
    ∧ U (Proc.devRef .tc main_arg3) = m ((c.tc : Thread nD τ).loc main_arg3)
    ∧ U (Proc.devRef .tc main_arg4) = m ((c.tc : Thread nD τ).loc main_arg4)
    ∧ U (Proc.devRef .tc main_arg5) = m ((c.tc : Thread nD τ).loc main_arg5)
    ∧ U (Proc.devRef .tc main_arg6) = m ((c.tc : Thread nD τ).loc main_arg6)
    ∧ U (Proc.devRef .tc main_arg7) = m ((c.tc : Thread nD τ).loc main_arg7)
    ∧ U (Proc.devRef .tc main_arg8) = m ((c.tc : Thread nD τ).loc main_arg8)
    ∧ U (Proc.devRef .tc main_arg9) = m ((c.tc : Thread nD τ).loc main_arg9) := by
  intro U
  have hU : U = StableHlo.after edgeF (StableHlo.after edgeE (StableHlo.after edgeM (StableHlo.after edgeA (StableHlo.launchContents m c)))) := by
    show StableHlo.after (List.take 43 (ops (F := Ideal))) _ = _
    rw [edge_split, StableHlo.after_append, StableHlo.after_append, StableHlo.after_append]
  have a5 := edgeA_srcs (StableHlo.launchContents m c)
  have a6 := edgeA_dsts (StableHlo.launchContents m c)
  have m12 := edgeM_positive _ _ a6
  have m15 := edgeM_invSqrt _ _ a6
  have k5 := ((edgeE_keeps5 _).trans (edgeM_keeps5 _)).trans a5
  have k6 := ((edgeE_keeps6 _).trans (edgeM_keeps6 _)).trans a6
  have e16 := edgeE_select _ _ _ m12 m15
  refine ⟨?_, ?_, ?_, edge_keeps_arg0 _, edge_keeps_arg1 _, edge_keeps_arg2 _, edge_keeps_arg3 _, edge_keeps_arg4 _, edge_keeps_arg5 _, edge_keeps_arg6 _, edge_keeps_arg7 _, edge_keeps_arg8 _, edge_keeps_arg9 _⟩
  · rw [hU]; exact (edgeF_keeps5 _).trans k5
  · rw [hU]; exact (edgeF_keeps6 _).trans k6
  · rw [hU]; exact edgeF_wts _ _ k5 k6 e16

end Cert.ReferenceIdeal.RefValue

end
-- ==== Proof.RefLayers.lean ====
/-
  The reference's four layers and its log-softmax: operations 44 to 147 of its host program.

  The 104 operations are read in eight stretches: for each of the first three layers the matrix product, the
  neighbourhood sum and the bias (20 operations), then max(·, 0) (3 operations of an outlined function); for the fourth
  layer the same 20 operations; and last the row-wise log-softmax (15 operations of an outlined function).  Each stretch
  is read over an arbitrary valuation of the buffers, with a hypothesis naming the value of every buffer it reads, and
  leaves in its result buffer the corresponding formula of those values.  A stretch leaves every buffer it does not
  write as it was, so the edge data and the later layers' parameters pass through the earlier stretches unchanged.
  Composed in order, the stretches leave the whole network's formula of the arguments in the result buffer.
-/
import proofs.«149639_j46462956208473_1_alg».proof.Proof.RefOps
import proofs.«149639_j46462956208473_1_alg».proof.Proof.Graph
import proofs.«149639_j46462956208473_1_alg».proof.Proof.LibTypedRef
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The stretches -/

section Stretches
variable {F : FTy → Type} [FloatOps F]

/-- Layer 1 before its max(·, 0): the matrix product, the neighbourhood sum and the bias (20 operations). -/
abbrev conv1 : List (HloOp τ sig (Elt F)) :=
  [ binary main_arg0 main_arg2 main_v32 ((fun l r => Host.dotGeneral dot_S50000x256_S256x246_S50000x246_1_0_0_1_n_n none l r) : (⟨S50000x256, .f32⟩ : BufTy).Contents (Elt F) → (⟨S256x246, .f32⟩ : BufTy).Contents (Elt F) → (⟨S50000x246, .f32⟩ : BufTy).Contents (Elt F)),
    nullary main_c_7 (constantI S_ 32 0#32),
    unary main_c_7 main_v33 (broadcastInDim S370000 ![] bcast_S_S370000 : (⟨S_, .i32⟩ : BufTy).Contents (Elt F) → (⟨S370000, .i32⟩ : BufTy).Contents (Elt F)),
    binary main_v5 main_v33 main_v34 (cmpi .slt : (⟨S370000, .i32⟩ : BufTy).Contents (Elt F) → (⟨S370000, .i32⟩ : BufTy).Contents (Elt F) → (⟨S370000, .i1⟩ : BufTy).Contents (Elt F)),
    nullary main_c_8 (constantI S_ 32 50000#32),
    unary main_c_8 main_v35 (broadcastInDim S370000 ![] bcast_S_S370000 : (⟨S_, .i32⟩ : BufTy).Contents (Elt F) → (⟨S370000, .i32⟩ : BufTy).Contents (Elt F)),
    binary main_v5 main_v35 main_v36 (addi : (⟨S370000, .i32⟩ : BufTy).Contents (Elt F) → (⟨S370000, .i32⟩ : BufTy).Contents (Elt F) → (⟨S370000, .i32⟩ : BufTy).Contents (Elt F)),
    ternary main_v34 main_v36 main_v5 main_v37 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v37 main_v38 (broadcastInDim S370000x1 ![0] bcast_S370000_S370000x1_0 : (⟨S370000, .i32⟩ : BufTy).Contents (Elt F) → (⟨S370000x1, .i32⟩ : BufTy).Contents (Elt F)),
    binary main_v32 main_v38 main_v39 ((fun x i => Host.gather gather_S50000x246_S370000x1_S370000x246_1_0_n_n_0_1_1246 x i) : (⟨S50000x246, .f32⟩ : BufTy).Contents (Elt F) → (⟨S370000x1, .i32⟩ : BufTy).Contents (Elt F) → (⟨S370000x246, .f32⟩ : BufTy).Contents (Elt F)),
    unary main_v31 main_v40 (broadcastInDim S370000x1 ![0] bcast_S370000_S370000x1_0 : (⟨S370000, .f32⟩ : BufTy).Contents (Elt F) → (⟨S370000x1, .f32⟩ : BufTy).Contents (Elt F)),
    unary main_v40 main_v41 (broadcastInDim S370000x246 ![0, 1] bcast_S370000x1_S370000x246_0_1 : (⟨S370000x1, .f32⟩ : BufTy).Contents (Elt F) → (⟨S370000x246, .f32⟩ : BufTy).Contents (Elt F)),
    binary main_v39 main_v41 main_v42 (mulf : (⟨S370000x246, .f32⟩ : BufTy).Contents (Elt F) → (⟨S370000x246, .f32⟩ : BufTy).Contents (Elt F) → (⟨S370000x246, .f32⟩ : BufTy).Contents (Elt F)),
    nullary main_cst_9 (constant S_ .f32 0x00000000#32),
    unary main_cst_9 main_v43 (broadcastInDim S50000x246 ![] bcast_S_S50000x246 : (⟨S_, .f32⟩ : BufTy).Contents (Elt F) → (⟨S50000x246, .f32⟩ : BufTy).Contents (Elt F)),
    unary main_v6 main_v44 (broadcastInDim S370000x1 ![0] bcast_S370000_S370000x1_0 : (⟨S370000, .i32⟩ : BufTy).Contents (Elt F) → (⟨S370000x1, .i32⟩ : BufTy).Contents (Elt F)),
    ternary main_v43 main_v44 main_v42 main_v45 ((fun x i u => Host.scatterAdd scatter_S50000x246_S370000x1_S370000x246_1_0_0_1 x i u) : (⟨S50000x246, .f32⟩ : BufTy).Contents (Elt F) → (⟨S370000x1, .i32⟩ : BufTy).Contents (Elt F) → (⟨S370000x246, .f32⟩ : BufTy).Contents (Elt F) → (⟨S50000x246, .f32⟩ : BufTy).Contents (Elt F)),
    unary main_arg3 main_v46 (broadcastInDim S1x246 ![1] bcast_S246_S1x246_1 : (⟨S246, .f32⟩ : BufTy).Contents (Elt F) → (⟨S1x246, .f32⟩ : BufTy).Contents (Elt F)),
    unary main_v46 main_v47 (broadcastInDim S50000x246 ![0, 1] bcast_S1x246_S50000x246_0_1 : (⟨S1x246, .f32⟩ : BufTy).Contents (Elt F) → (⟨S50000x246, .f32⟩ : BufTy).Contents (Elt F)),
    binary main_v45 main_v47 main_v48 (addf : (⟨S50000x246, .f32⟩ : BufTy).Contents (Elt F) → (⟨S50000x246, .f32⟩ : BufTy).Contents (Elt F) → (⟨S50000x246, .f32⟩ : BufTy).Contents (Elt F)) ]

/-- The buffers these operations write. -/
abbrev conv1_W : List (Ref sig .tc) := [main_v32, main_c_7, main_v33, main_v34, main_c_8, main_v35, main_v36, main_v37, main_v38, main_v39, main_v40, main_v41, main_v42, main_cst_9, main_v43, main_v44, main_v45, main_v46, main_v47, main_v48]
theorem conv1_writes : (conv1 : List (HloOp τ sig (Elt F))).Forall fun op =>
    op.writes ⊆ (conv1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem conv1_keep (V : Valuation τ sig (Elt F)) (r : Ref sig .tc) (h : r ∉ conv1_W) :
    after (conv1 (F := F)) V (Proc.devRef .tc r) = V (Proc.devRef .tc r) :=
  after_of_writes_sub conv1 _ conv1_writes h

/-- Layer 1's max(·, 0) (the three operations of the outlined function). -/
abbrev relu1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x246, .f32⟩) main_call1_v0) (broadcastInDim S50000x246 ![] bcast_S_S50000x246),
    TRef.binary (TRef.of (T := ⟨S50000x246, .f32⟩) main_v48) (TRef.of (T := ⟨S50000x246, .f32⟩) main_call1_v0) (TRef.of (T := ⟨S50000x246, .f32⟩) main_v49) maximumf ]

/-- The buffers these operations write. -/
abbrev relu1_W : List (Ref sig .tc) := [main_call1_cst, main_call1_v0, main_v49]
theorem relu1_writes : (relu1 : List (HloOp τ sig (Elt F))).Forall fun op =>
    op.writes ⊆ (relu1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem relu1_keep (V : Valuation τ sig (Elt F)) (r : Ref sig .tc) (h : r ∉ relu1_W) :
    after (relu1 (F := F)) V (Proc.devRef .tc r) = V (Proc.devRef .tc r) :=
  after_of_writes_sub relu1 _ relu1_writes h

/-- Layer 2 before its max(·, 0). -/
abbrev conv2 : List (HloOp τ sig (Elt F)) :=
  [ binary main_v49 main_arg4 main_v50 ((fun l r => Host.dotGeneral dot_S50000x246_S246x246_S50000x246_1_0_0_1_n_n none l r) : (⟨S50000x246, .f32⟩ : BufTy).Contents (Elt F) → (⟨S246x246, .f32⟩ : BufTy).Contents (Elt F) → (⟨S50000x246, .f32⟩ : BufTy).Contents (Elt F)),
    nullary main_c_10 (constantI S_ 32 0#32),
    unary main_c_10 main_v51 (broadcastInDim S370000 ![] bcast_S_S370000 : (⟨S_, .i32⟩ : BufTy).Contents (Elt F) → (⟨S370000, .i32⟩ : BufTy).Contents (Elt F)),
    binary main_v5 main_v51 main_v52 (cmpi .slt : (⟨S370000, .i32⟩ : BufTy).Contents (Elt F) → (⟨S370000, .i32⟩ : BufTy).Contents (Elt F) → (⟨S370000, .i1⟩ : BufTy).Contents (Elt F)),
    nullary main_c_11 (constantI S_ 32 50000#32),
    unary main_c_11 main_v53 (broadcastInDim S370000 ![] bcast_S_S370000 : (⟨S_, .i32⟩ : BufTy).Contents (Elt F) → (⟨S370000, .i32⟩ : BufTy).Contents (Elt F)),
    binary main_v5 main_v53 main_v54 (addi : (⟨S370000, .i32⟩ : BufTy).Contents (Elt F) → (⟨S370000, .i32⟩ : BufTy).Contents (Elt F) → (⟨S370000, .i32⟩ : BufTy).Contents (Elt F)),
    ternary main_v52 main_v54 main_v5 main_v55 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v55 main_v56 (broadcastInDim S370000x1 ![0] bcast_S370000_S370000x1_0 : (⟨S370000, .i32⟩ : BufTy).Contents (Elt F) → (⟨S370000x1, .i32⟩ : BufTy).Contents (Elt F)),
    binary main_v50 main_v56 main_v57 ((fun x i => Host.gather gather_S50000x246_S370000x1_S370000x246_1_0_n_n_0_1_1246 x i) : (⟨S50000x246, .f32⟩ : BufTy).Contents (Elt F) → (⟨S370000x1, .i32⟩ : BufTy).Contents (Elt F) → (⟨S370000x246, .f32⟩ : BufTy).Contents (Elt F)),
    unary main_v31 main_v58 (broadcastInDim S370000x1 ![0] bcast_S370000_S370000x1_0 : (⟨S370000, .f32⟩ : BufTy).Contents (Elt F) → (⟨S370000x1, .f32⟩ : BufTy).Contents (Elt F)),
    unary main_v58 main_v59 (broadcastInDim S370000x246 ![0, 1] bcast_S370000x1_S370000x246_0_1 : (⟨S370000x1, .f32⟩ : BufTy).Contents (Elt F) → (⟨S370000x246, .f32⟩ : BufTy).Contents (Elt F)),
    binary main_v57 main_v59 main_v60 (mulf : (⟨S370000x246, .f32⟩ : BufTy).Contents (Elt F) → (⟨S370000x246, .f32⟩ : BufTy).Contents (Elt F) → (⟨S370000x246, .f32⟩ : BufTy).Contents (Elt F)),
    nullary main_cst_12 (constant S_ .f32 0x00000000#32),
    unary main_cst_12 main_v61 (broadcastInDim S50000x246 ![] bcast_S_S50000x246 : (⟨S_, .f32⟩ : BufTy).Contents (Elt F) → (⟨S50000x246, .f32⟩ : BufTy).Contents (Elt F)),
    unary main_v6 main_v62 (broadcastInDim S370000x1 ![0] bcast_S370000_S370000x1_0 : (⟨S370000, .i32⟩ : BufTy).Contents (Elt F) → (⟨S370000x1, .i32⟩ : BufTy).Contents (Elt F)),
    ternary main_v61 main_v62 main_v60 main_v63 ((fun x i u => Host.scatterAdd scatter_S50000x246_S370000x1_S370000x246_1_0_0_1 x i u) : (⟨S50000x246, .f32⟩ : BufTy).Contents (Elt F) → (⟨S370000x1, .i32⟩ : BufTy).Contents (Elt F) → (⟨S370000x246, .f32⟩ : BufTy).Contents (Elt F) → (⟨S50000x246, .f32⟩ : BufTy).Contents (Elt F)),
    unary main_arg5 main_v64 (broadcastInDim S1x246 ![1] bcast_S246_S1x246_1 : (⟨S246, .f32⟩ : BufTy).Contents (Elt F) → (⟨S1x246, .f32⟩ : BufTy).Contents (Elt F)),
    unary main_v64 main_v65 (broadcastInDim S50000x246 ![0, 1] bcast_S1x246_S50000x246_0_1 : (⟨S1x246, .f32⟩ : BufTy).Contents (Elt F) → (⟨S50000x246, .f32⟩ : BufTy).Contents (Elt F)),
    binary main_v63 main_v65 main_v66 (addf : (⟨S50000x246, .f32⟩ : BufTy).Contents (Elt F) → (⟨S50000x246, .f32⟩ : BufTy).Contents (Elt F) → (⟨S50000x246, .f32⟩ : BufTy).Contents (Elt F)) ]

/-- The buffers these operations write. -/
abbrev conv2_W : List (Ref sig .tc) := [main_v50, main_c_10, main_v51, main_v52, main_c_11, main_v53, main_v54, main_v55, main_v56, main_v57, main_v58, main_v59, main_v60, main_cst_12, main_v61, main_v62, main_v63, main_v64, main_v65, main_v66]
theorem conv2_writes : (conv2 : List (HloOp τ sig (Elt F))).Forall fun op =>
    op.writes ⊆ (conv2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem conv2_keep (V : Valuation τ sig (Elt F)) (r : Ref sig .tc) (h : r ∉ conv2_W) :
    after (conv2 (F := F)) V (Proc.devRef .tc r) = V (Proc.devRef .tc r) :=
  after_of_writes_sub conv2 _ conv2_writes h

/-- Layer 2's max(·, 0). -/
abbrev relu2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x246, .f32⟩) main_call2_v0) (broadcastInDim S50000x246 ![] bcast_S_S50000x246),
    TRef.binary (TRef.of (T := ⟨S50000x246, .f32⟩) main_v66) (TRef.of (T := ⟨S50000x246, .f32⟩) main_call2_v0) (TRef.of (T := ⟨S50000x246, .f32⟩) main_v67) maximumf ]

/-- The buffers these operations write. -/
abbrev relu2_W : List (Ref sig .tc) := [main_call2_cst, main_call2_v0, main_v67]
theorem relu2_writes : (relu2 : List (HloOp τ sig (Elt F))).Forall fun op =>
    op.writes ⊆ (relu2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem relu2_keep (V : Valuation τ sig (Elt F)) (r : Ref sig .tc) (h : r ∉ relu2_W) :
    after (relu2 (F := F)) V (Proc.devRef .tc r) = V (Proc.devRef .tc r) :=
  after_of_writes_sub relu2 _ relu2_writes h

/-- Layer 3 before its max(·, 0). -/
abbrev conv3 : List (HloOp τ sig (Elt F)) :=
  [ binary main_v67 main_arg6 main_v68 ((fun l r => Host.dotGeneral dot_S50000x246_S246x246_S50000x246_1_0_0_1_n_n none l r) : (⟨S50000x246, .f32⟩ : BufTy).Contents (Elt F) → (⟨S246x246, .f32⟩ : BufTy).Contents (Elt F) → (⟨S50000x246, .f32⟩ : BufTy).Contents (Elt F)),
    nullary main_c_13 (constantI S_ 32 0#32),
    unary main_c_13 main_v69 (broadcastInDim S370000 ![] bcast_S_S370000 : (⟨S_, .i32⟩ : BufTy).Contents (Elt F) → (⟨S370000, .i32⟩ : BufTy).Contents (Elt F)),
    binary main_v5 main_v69 main_v70 (cmpi .slt : (⟨S370000, .i32⟩ : BufTy).Contents (Elt F) → (⟨S370000, .i32⟩ : BufTy).Contents (Elt F) → (⟨S370000, .i1⟩ : BufTy).Contents (Elt F)),
    nullary main_c_14 (constantI S_ 32 50000#32),
    unary main_c_14 main_v71 (broadcastInDim S370000 ![] bcast_S_S370000 : (⟨S_, .i32⟩ : BufTy).Contents (Elt F) → (⟨S370000, .i32⟩ : BufTy).Contents (Elt F)),
    binary main_v5 main_v71 main_v72 (addi : (⟨S370000, .i32⟩ : BufTy).Contents (Elt F) → (⟨S370000, .i32⟩ : BufTy).Contents (Elt F) → (⟨S370000, .i32⟩ : BufTy).Contents (Elt F)),
    ternary main_v70 main_v72 main_v5 main_v73 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v73 main_v74 (broadcastInDim S370000x1 ![0] bcast_S370000_S370000x1_0 : (⟨S370000, .i32⟩ : BufTy).Contents (Elt F) → (⟨S370000x1, .i32⟩ : BufTy).Contents (Elt F)),
    binary main_v68 main_v74 main_v75 ((fun x i => Host.gather gather_S50000x246_S370000x1_S370000x246_1_0_n_n_0_1_1246 x i) : (⟨S50000x246, .f32⟩ : BufTy).Contents (Elt F) → (⟨S370000x1, .i32⟩ : BufTy).Contents (Elt F) → (⟨S370000x246, .f32⟩ : BufTy).Contents (Elt F)),
    unary main_v31 main_v76 (broadcastInDim S370000x1 ![0] bcast_S370000_S370000x1_0 : (⟨S370000, .f32⟩ : BufTy).Contents (Elt F) → (⟨S370000x1, .f32⟩ : BufTy).Contents (Elt F)),
    unary main_v76 main_v77 (broadcastInDim S370000x246 ![0, 1] bcast_S370000x1_S370000x246_0_1 : (⟨S370000x1, .f32⟩ : BufTy).Contents (Elt F) → (⟨S370000x246, .f32⟩ : BufTy).Contents (Elt F)),
    binary main_v75 main_v77 main_v78 (mulf : (⟨S370000x246, .f32⟩ : BufTy).Contents (Elt F) → (⟨S370000x246, .f32⟩ : BufTy).Contents (Elt F) → (⟨S370000x246, .f32⟩ : BufTy).Contents (Elt F)),
    nullary main_cst_15 (constant S_ .f32 0x00000000#32),
    unary main_cst_15 main_v79 (broadcastInDim S50000x246 ![] bcast_S_S50000x246 : (⟨S_, .f32⟩ : BufTy).Contents (Elt F) → (⟨S50000x246, .f32⟩ : BufTy).Contents (Elt F)),
    unary main_v6 main_v80 (broadcastInDim S370000x1 ![0] bcast_S370000_S370000x1_0 : (⟨S370000, .i32⟩ : BufTy).Contents (Elt F) → (⟨S370000x1, .i32⟩ : BufTy).Contents (Elt F)),
    ternary main_v79 main_v80 main_v78 main_v81 ((fun x i u => Host.scatterAdd scatter_S50000x246_S370000x1_S370000x246_1_0_0_1 x i u) : (⟨S50000x246, .f32⟩ : BufTy).Contents (Elt F) → (⟨S370000x1, .i32⟩ : BufTy).Contents (Elt F) → (⟨S370000x246, .f32⟩ : BufTy).Contents (Elt F) → (⟨S50000x246, .f32⟩ : BufTy).Contents (Elt F)),
    unary main_arg7 main_v82 (broadcastInDim S1x246 ![1] bcast_S246_S1x246_1 : (⟨S246, .f32⟩ : BufTy).Contents (Elt F) → (⟨S1x246, .f32⟩ : BufTy).Contents (Elt F)),
    unary main_v82 main_v83 (broadcastInDim S50000x246 ![0, 1] bcast_S1x246_S50000x246_0_1 : (⟨S1x246, .f32⟩ : BufTy).Contents (Elt F) → (⟨S50000x246, .f32⟩ : BufTy).Contents (Elt F)),
    binary main_v81 main_v83 main_v84 (addf : (⟨S50000x246, .f32⟩ : BufTy).Contents (Elt F) → (⟨S50000x246, .f32⟩ : BufTy).Contents (Elt F) → (⟨S50000x246, .f32⟩ : BufTy).Contents (Elt F)) ]

/-- The buffers these operations write. -/
abbrev conv3_W : List (Ref sig .tc) := [main_v68, main_c_13, main_v69, main_v70, main_c_14, main_v71, main_v72, main_v73, main_v74, main_v75, main_v76, main_v77, main_v78, main_cst_15, main_v79, main_v80, main_v81, main_v82, main_v83, main_v84]
theorem conv3_writes : (conv3 : List (HloOp τ sig (Elt F))).Forall fun op =>
    op.writes ⊆ (conv3_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem conv3_keep (V : Valuation τ sig (Elt F)) (r : Ref sig .tc) (h : r ∉ conv3_W) :
    after (conv3 (F := F)) V (Proc.devRef .tc r) = V (Proc.devRef .tc r) :=
  after_of_writes_sub conv3 _ conv3_writes h

/-- Layer 3's max(·, 0). -/
abbrev relu3 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x246, .f32⟩) main_call3_v0) (broadcastInDim S50000x246 ![] bcast_S_S50000x246),
    TRef.binary (TRef.of (T := ⟨S50000x246, .f32⟩) main_v84) (TRef.of (T := ⟨S50000x246, .f32⟩) main_call3_v0) (TRef.of (T := ⟨S50000x246, .f32⟩) main_v85) maximumf ]

/-- The buffers these operations write. -/
abbrev relu3_W : List (Ref sig .tc) := [main_call3_cst, main_call3_v0, main_v85]
theorem relu3_writes : (relu3 : List (HloOp τ sig (Elt F))).Forall fun op =>
    op.writes ⊆ (relu3_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem relu3_keep (V : Valuation τ sig (Elt F)) (r : Ref sig .tc) (h : r ∉ relu3_W) :
    after (relu3 (F := F)) V (Proc.devRef .tc r) = V (Proc.devRef .tc r) :=
  after_of_writes_sub relu3 _ relu3_writes h

/-- Layer 4: the matrix product, the neighbourhood sum and the bias. -/
abbrev conv4 : List (HloOp τ sig (Elt F)) :=
  [ binary main_v85 main_arg8 main_v86 ((fun l r => Host.dotGeneral dot_S50000x246_S246x246_S50000x246_1_0_0_1_n_n none l r) : (⟨S50000x246, .f32⟩ : BufTy).Contents (Elt F) → (⟨S246x246, .f32⟩ : BufTy).Contents (Elt F) → (⟨S50000x246, .f32⟩ : BufTy).Contents (Elt F)),
    nullary main_c_16 (constantI S_ 32 0#32),
    unary main_c_16 main_v87 (broadcastInDim S370000 ![] bcast_S_S370000 : (⟨S_, .i32⟩ : BufTy).Contents (Elt F) → (⟨S370000, .i32⟩ : BufTy).Contents (Elt F)),
    binary main_v5 main_v87 main_v88 (cmpi .slt : (⟨S370000, .i32⟩ : BufTy).Contents (Elt F) → (⟨S370000, .i32⟩ : BufTy).Contents (Elt F) → (⟨S370000, .i1⟩ : BufTy).Contents (Elt F)),
    nullary main_c_17 (constantI S_ 32 50000#32),
    unary main_c_17 main_v89 (broadcastInDim S370000 ![] bcast_S_S370000 : (⟨S_, .i32⟩ : BufTy).Contents (Elt F) → (⟨S370000, .i32⟩ : BufTy).Contents (Elt F)),
    binary main_v5 main_v89 main_v90 (addi : (⟨S370000, .i32⟩ : BufTy).Contents (Elt F) → (⟨S370000, .i32⟩ : BufTy).Contents (Elt F) → (⟨S370000, .i32⟩ : BufTy).Contents (Elt F)),
    ternary main_v88 main_v90 main_v5 main_v91 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v91 main_v92 (broadcastInDim S370000x1 ![0] bcast_S370000_S370000x1_0 : (⟨S370000, .i32⟩ : BufTy).Contents (Elt F) → (⟨S370000x1, .i32⟩ : BufTy).Contents (Elt F)),
    binary main_v86 main_v92 main_v93 ((fun x i => Host.gather gather_S50000x246_S370000x1_S370000x246_1_0_n_n_0_1_1246 x i) : (⟨S50000x246, .f32⟩ : BufTy).Contents (Elt F) → (⟨S370000x1, .i32⟩ : BufTy).Contents (Elt F) → (⟨S370000x246, .f32⟩ : BufTy).Contents (Elt F)),
    unary main_v31 main_v94 (broadcastInDim S370000x1 ![0] bcast_S370000_S370000x1_0 : (⟨S370000, .f32⟩ : BufTy).Contents (Elt F) → (⟨S370000x1, .f32⟩ : BufTy).Contents (Elt F)),
    unary main_v94 main_v95 (broadcastInDim S370000x246 ![0, 1] bcast_S370000x1_S370000x246_0_1 : (⟨S370000x1, .f32⟩ : BufTy).Contents (Elt F) → (⟨S370000x246, .f32⟩ : BufTy).Contents (Elt F)),
    binary main_v93 main_v95 main_v96 (mulf : (⟨S370000x246, .f32⟩ : BufTy).Contents (Elt F) → (⟨S370000x246, .f32⟩ : BufTy).Contents (Elt F) → (⟨S370000x246, .f32⟩ : BufTy).Contents (Elt F)),
    nullary main_cst_18 (constant S_ .f32 0x00000000#32),
    unary main_cst_18 main_v97 (broadcastInDim S50000x246 ![] bcast_S_S50000x246 : (⟨S_, .f32⟩ : BufTy).Contents (Elt F) → (⟨S50000x246, .f32⟩ : BufTy).Contents (Elt F)),
    unary main_v6 main_v98 (broadcastInDim S370000x1 ![0] bcast_S370000_S370000x1_0 : (⟨S370000, .i32⟩ : BufTy).Contents (Elt F) → (⟨S370000x1, .i32⟩ : BufTy).Contents (Elt F)),
    ternary main_v97 main_v98 main_v96 main_v99 ((fun x i u => Host.scatterAdd scatter_S50000x246_S370000x1_S370000x246_1_0_0_1 x i u) : (⟨S50000x246, .f32⟩ : BufTy).Contents (Elt F) → (⟨S370000x1, .i32⟩ : BufTy).Contents (Elt F) → (⟨S370000x246, .f32⟩ : BufTy).Contents (Elt F) → (⟨S50000x246, .f32⟩ : BufTy).Contents (Elt F)),
    unary main_arg9 main_v100 (broadcastInDim S1x246 ![1] bcast_S246_S1x246_1 : (⟨S246, .f32⟩ : BufTy).Contents (Elt F) → (⟨S1x246, .f32⟩ : BufTy).Contents (Elt F)),
    unary main_v100 main_v101 (broadcastInDim S50000x246 ![0, 1] bcast_S1x246_S50000x246_0_1 : (⟨S1x246, .f32⟩ : BufTy).Contents (Elt F) → (⟨S50000x246, .f32⟩ : BufTy).Contents (Elt F)),
    binary main_v99 main_v101 main_v102 (addf : (⟨S50000x246, .f32⟩ : BufTy).Contents (Elt F) → (⟨S50000x246, .f32⟩ : BufTy).Contents (Elt F) → (⟨S50000x246, .f32⟩ : BufTy).Contents (Elt F)) ]

/-- The buffers these operations write. -/
abbrev conv4_W : List (Ref sig .tc) := [main_v86, main_c_16, main_v87, main_v88, main_c_17, main_v89, main_v90, main_v91, main_v92, main_v93, main_v94, main_v95, main_v96, main_cst_18, main_v97, main_v98, main_v99, main_v100, main_v101, main_v102]
theorem conv4_writes : (conv4 : List (HloOp τ sig (Elt F))).Forall fun op =>
    op.writes ⊆ (conv4_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem conv4_keep (V : Valuation τ sig (Elt F)) (r : Ref sig .tc) (h : r ∉ conv4_W) :
    after (conv4 (F := F)) V (Proc.devRef .tc r) = V (Proc.devRef .tc r) :=
  after_of_writes_sub conv4 _ conv4_writes h

/-- The row-wise log-softmax (the fifteen operations of the outlined function). -/
abbrev lsm : List (HloOp τ sig (Elt F)) :=
  [ TRef.nullary (TRef.of (T := ⟨S_, .f32⟩) main_call4_cst) (constant S_ .f32 0xFF800000#32),
    TRef.binary (TRef.of (T := ⟨S50000x246, .f32⟩) main_v102) (TRef.of (T := ⟨S_, .f32⟩) main_call4_cst) (TRef.of (T := ⟨S50000, .f32⟩) main_call4_v0) (fun x v => Host.reduce FloatOps.maximumf x v reducesTo_S50000x246_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x246, .f32⟩) main_call4_v4) (broadcastInDim S50000x246 ![0, 1] bcast_S50000x1_S50000x246_0_1),
    TRef.binary (TRef.of (T := ⟨S50000x246, .f32⟩) main_v102) (TRef.of (T := ⟨S50000x246, .f32⟩) main_call4_v4) (TRef.of (T := ⟨S50000x246, .f32⟩) main_call4_v5) subf,
    TRef.unary (TRef.of (T := ⟨S50000x246, .f32⟩) main_call4_v5) (TRef.of (T := ⟨S50000x246, .f32⟩) main_call4_v6) Host.exp,
    TRef.nullary (TRef.of (T := ⟨S_, .f32⟩) main_call4_cst_1) (constant S_ .f32 0x00000000#32),
    TRef.binary (TRef.of (T := ⟨S50000x246, .f32⟩) main_call4_v6) (TRef.of (T := ⟨S_, .f32⟩) main_call4_cst_1) (TRef.of (T := ⟨S50000, .f32⟩) main_call4_v7) (fun x v => Host.reduceAdd x v reducesTo_S50000x246_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x246, .f32⟩) main_call4_v10) (broadcastInDim S50000x246 ![0, 1] bcast_S50000x1_S50000x246_0_1),
    TRef.binary (TRef.of (T := ⟨S50000x246, .f32⟩) main_call4_v5) (TRef.of (T := ⟨S50000x246, .f32⟩) main_call4_v10) (TRef.of (T := ⟨S50000x246, .f32⟩) main_v103) subf ]

/-- The buffers these operations write. -/
abbrev lsm_W : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v103]
theorem lsm_writes : (lsm : List (HloOp τ sig (Elt F))).Forall fun op =>
    op.writes ⊆ (lsm_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer they do not write keeps its contents. -/
theorem lsm_keep (V : Valuation τ sig (Elt F)) (r : Ref sig .tc) (h : r ∉ lsm_W) :
    after (lsm (F := F)) V (Proc.devRef .tc r) = V (Proc.devRef .tc r) :=
  after_of_writes_sub lsm _ lsm_writes h

end Stretches

/-! ## Each stretch over what it reads -/

/-- Layer 1 up to its bias, over what it reads: the layer's formula of those values. -/
theorem conv1_stage (U : Valuation τ sig (Elt Ideal)) (h : FVec Ideal S50000x256 .f32) (wt : FVec Ideal S256x246 .f32)
    (b : FVec Ideal S246 .f32) (s d : IVec S370000 32) (w : FVec Ideal S370000 .f32)
    (h5 : U (Proc.devRef .tc main_v5) = s) (h6 : U (Proc.devRef .tc main_v6) = d) (h31 : U (Proc.devRef .tc main_v31) = w)
    (hh : U (Proc.devRef .tc main_arg0) = h) (hw : U (Proc.devRef .tc main_arg2) = wt) (hb : U (Proc.devRef .tc main_arg3) = b) :
    after (conv1 (F := Ideal)) U (Proc.devRef .tc main_v48)
      = Cert.Spec.biased (Cert.Spec.aggregate (Cert.Spec.dense1 h wt) s d w) b := by
  after_results_simp
  rw [h5, h6, h31, hh, hw, hb]
  rfl

/-- Layer 1's max(·, 0), over the value it reads. -/
theorem relu1_stage (U : Valuation τ sig (Elt Ideal)) (y : FVec Ideal S50000x246 .f32)
    (hy : U (Proc.devRef .tc main_v48) = y) :
    after (relu1 (F := Ideal)) U (Proc.devRef .tc main_v49) = Cert.Spec.relu y := by
  after_results_simp
  simp only [Cert.TypedRef.ofBuf_toBuf]
  rw [hy]
  rfl

/-- Layer 2 up to its bias, over what it reads: the layer's formula of those values. -/
theorem conv2_stage (U : Valuation τ sig (Elt Ideal)) (h : FVec Ideal S50000x246 .f32) (wt : FVec Ideal S246x246 .f32)
    (b : FVec Ideal S246 .f32) (s d : IVec S370000 32) (w : FVec Ideal S370000 .f32)
    (h5 : U (Proc.devRef .tc main_v5) = s) (h6 : U (Proc.devRef .tc main_v6) = d) (h31 : U (Proc.devRef .tc main_v31) = w)
    (hh : U (Proc.devRef .tc main_v49) = h) (hw : U (Proc.devRef .tc main_arg4) = wt) (hb : U (Proc.devRef .tc main_arg5) = b) :
    after (conv2 (F := Ideal)) U (Proc.devRef .tc main_v66)
      = Cert.Spec.biased (Cert.Spec.aggregate (Cert.Spec.dense h wt) s d w) b := by
  after_results_simp
  rw [h5, h6, h31, hh, hw, hb]
  rfl

/-- Layer 2's max(·, 0), over the value it reads. -/
theorem relu2_stage (U : Valuation τ sig (Elt Ideal)) (y : FVec Ideal S50000x246 .f32)
    (hy : U (Proc.devRef .tc main_v66) = y) :
    after (relu2 (F := Ideal)) U (Proc.devRef .tc main_v67) = Cert.Spec.relu y := by
  after_results_simp
  simp only [Cert.TypedRef.ofBuf_toBuf]
  rw [hy]
  rfl

/-- Layer 3 up to its bias, over what it reads: the layer's formula of those values. -/
theorem conv3_stage (U : Valuation τ sig (Elt Ideal)) (h : FVec Ideal S50000x246 .f32) (wt : FVec Ideal S246x246 .f32)
    (b : FVec Ideal S246 .f32) (s d : IVec S370000 32) (w : FVec Ideal S370000 .f32)
    (h5 : U (Proc.devRef .tc main_v5) = s) (h6 : U (Proc.devRef .tc main_v6) = d) (h31 : U (Proc.devRef .tc main_v31) = w)
    (hh : U (Proc.devRef .tc main_v67) = h) (hw : U (Proc.devRef .tc main_arg6) = wt) (hb : U (Proc.devRef .tc main_arg7) = b) :
    after (conv3 (F := Ideal)) U (Proc.devRef .tc main_v84)
      = Cert.Spec.biased (Cert.Spec.aggregate (Cert.Spec.dense h wt) s d w) b := by
  after_results_simp
  rw [h5, h6, h31, hh, hw, hb]
  rfl

/-- Layer 3's max(·, 0), over the value it reads. -/
theorem relu3_stage (U : Valuation τ sig (Elt Ideal)) (y : FVec Ideal S50000x246 .f32)
    (hy : U (Proc.devRef .tc main_v84) = y) :
    after (relu3 (F := Ideal)) U (Proc.devRef .tc main_v85) = Cert.Spec.relu y := by
  after_results_simp
  simp only [Cert.TypedRef.ofBuf_toBuf]
  rw [hy]
  rfl

/-- Layer 4 up to its bias, over what it reads: the layer's formula of those values. -/
theorem conv4_stage (U : Valuation τ sig (Elt Ideal)) (h : FVec Ideal S50000x246 .f32) (wt : FVec Ideal S246x246 .f32)
    (b : FVec Ideal S246 .f32) (s d : IVec S370000 32) (w : FVec Ideal S370000 .f32)
    (h5 : U (Proc.devRef .tc main_v5) = s) (h6 : U (Proc.devRef .tc main_v6) = d) (h31 : U (Proc.devRef .tc main_v31) = w)
    (hh : U (Proc.devRef .tc main_v85) = h) (hw : U (Proc.devRef .tc main_arg8) = wt) (hb : U (Proc.devRef .tc main_arg9) = b) :
    after (conv4 (F := Ideal)) U (Proc.devRef .tc main_v102)
      = Cert.Spec.biased (Cert.Spec.aggregate (Cert.Spec.dense h wt) s d w) b := by
  after_results_simp
  rw [h5, h6, h31, hh, hw, hb]
  rfl

/-- The log-softmax, over the value it reads. -/
theorem lsm_stage (U : Valuation τ sig (Elt Ideal)) (y : FVec Ideal S50000x246 .f32)
    (hy : U (Proc.devRef .tc main_v102) = y) :
    after (lsm (F := Ideal)) U (Proc.devRef .tc main_v103) = Cert.Spec.logSoftmax y := by
  after_results_simp
  simp only [Cert.TypedRef.ofBuf_toBuf]
  rw [hy]
  rfl

/-! ## The stretches in order -/

/-- Operations 44 to 147 are the eight stretches one after the other. -/
theorem drop_eq {F : FTy → Type} [FloatOps F] : List.drop 43 (Cert.ReferenceIdeal.ValueP.ops (F := F))
    = conv1 ++ (relu1 ++ (conv2 ++ (relu2 ++ (conv3 ++ (relu3 ++ (conv4 ++ lsm)))))) := rfl

/-- The valuations between the stretches. -/
abbrev V1 (U : Valuation τ sig (Elt Ideal)) : Valuation τ sig (Elt Ideal) := after (relu1 (F := Ideal)) (after (conv1 (F := Ideal)) U)
abbrev V2 (U : Valuation τ sig (Elt Ideal)) : Valuation τ sig (Elt Ideal) := after (relu2 (F := Ideal)) (after (conv2 (F := Ideal)) (V1 U))
abbrev V3 (U : Valuation τ sig (Elt Ideal)) : Valuation τ sig (Elt Ideal) := after (relu3 (F := Ideal)) (after (conv3 (F := Ideal)) (V2 U))

/-- What the first layer leaves untouched. -/
theorem V1_keep (U : Valuation τ sig (Elt Ideal)) (r : Ref sig .tc) (h : r ∉ conv1_W) (h' : r ∉ relu1_W) :
    V1 U (Proc.devRef .tc r) = U (Proc.devRef .tc r) :=
  (relu1_keep _ r h').trans (conv1_keep _ r h)
/-- What the first two layers leave untouched. -/
theorem V2_keep (U : Valuation τ sig (Elt Ideal)) (r : Ref sig .tc) (h1 : r ∉ conv1_W) (h1' : r ∉ relu1_W)
    (h2 : r ∉ conv2_W) (h2' : r ∉ relu2_W) : V2 U (Proc.devRef .tc r) = U (Proc.devRef .tc r) :=
  (relu2_keep _ r h2').trans ((conv2_keep _ r h2).trans (V1_keep U r h1 h1'))
/-- What the first three layers leave untouched. -/
theorem V3_keep (U : Valuation τ sig (Elt Ideal)) (r : Ref sig .tc) (h1 : r ∉ conv1_W) (h1' : r ∉ relu1_W)
    (h2 : r ∉ conv2_W) (h2' : r ∉ relu2_W) (h3 : r ∉ conv3_W) (h3' : r ∉ relu3_W) :
    V3 U (Proc.devRef .tc r) = U (Proc.devRef .tc r) :=
  (relu3_keep _ r h3').trans ((conv3_keep _ r h3).trans (V2_keep U r h1 h1' h2 h2'))

/-- Operations 44 to 147 leave the whole network's formula of the arguments and the edge data in the result buffer. -/
theorem layers_stage (U : Valuation τ sig (Elt Ideal))
    (x : FVec Ideal S50000x256 .f32) (e : IVec S2x320000 32) (w1 : FVec Ideal S256x246 .f32) (b1 : FVec Ideal S246 .f32)
    (w2 : FVec Ideal S246x246 .f32) (b2 : FVec Ideal S246 .f32) (w3 : FVec Ideal S246x246 .f32) (b3 : FVec Ideal S246 .f32)
    (w4 : FVec Ideal S246x246 .f32) (b4 : FVec Ideal S246 .f32)
    (h5 : U (Proc.devRef .tc main_v5) = Cert.Spec.srcs e) (h6 : U (Proc.devRef .tc main_v6) = Cert.Spec.dsts e)
    (h31 : U (Proc.devRef .tc main_v31) = Cert.Spec.wts e)
    (a0 : U (Proc.devRef .tc main_arg0) = x) (a2 : U (Proc.devRef .tc main_arg2) = w1) (a3 : U (Proc.devRef .tc main_arg3) = b1)
    (a4 : U (Proc.devRef .tc main_arg4) = w2) (a5 : U (Proc.devRef .tc main_arg5) = b2) (a6 : U (Proc.devRef .tc main_arg6) = w3)
    (a7 : U (Proc.devRef .tc main_arg7) = b3) (a8 : U (Proc.devRef .tc main_arg8) = w4) (a9 : U (Proc.devRef .tc main_arg9) = b4) :
    StableHlo.after (List.drop 43 (Cert.ReferenceIdeal.ValueP.ops (F := Ideal))) U (Proc.devRef .tc main_v103)
      = Cert.Spec.net x e w1 b1 w2 b2 w3 b3 w4 b4 := by
  rw [drop_eq]
  simp only [StableHlo.after_append]
  have c1 : after (conv1 (F := Ideal)) U (Proc.devRef .tc main_v48) = Cert.Spec.conv (Cert.Spec.dense1 x w1) e b1 :=
    conv1_stage U x w1 b1 _ _ _ h5 h6 h31 a0 a2 a3
  have r1 : V1 U (Proc.devRef .tc main_v49) = Cert.Spec.relu (Cert.Spec.conv (Cert.Spec.dense1 x w1) e b1) :=
    relu1_stage _ _ c1
  have c2 : after (conv2 (F := Ideal)) (V1 U) (Proc.devRef .tc main_v66)
      = Cert.Spec.conv (Cert.Spec.dense (Cert.Spec.relu (Cert.Spec.conv (Cert.Spec.dense1 x w1) e b1)) w2) e b2 :=
    conv2_stage (V1 U) _ w2 b2 _ _ _
      ((V1_keep U main_v5 (by decide) (by decide)).trans h5) ((V1_keep U main_v6 (by decide) (by decide)).trans h6)
      ((V1_keep U main_v31 (by decide) (by decide)).trans h31) r1
      ((V1_keep U main_arg4 (by decide) (by decide)).trans a4) ((V1_keep U main_arg5 (by decide) (by decide)).trans a5)
  have r2 : V2 U (Proc.devRef .tc main_v67)
      = Cert.Spec.relu (Cert.Spec.conv (Cert.Spec.dense (Cert.Spec.relu (Cert.Spec.conv (Cert.Spec.dense1 x w1) e b1)) w2) e b2) :=
    relu2_stage _ _ c2
  have c3 : after (conv3 (F := Ideal)) (V2 U) (Proc.devRef .tc main_v84)
      = Cert.Spec.conv (Cert.Spec.dense (Cert.Spec.relu (Cert.Spec.conv (Cert.Spec.dense (Cert.Spec.relu
          (Cert.Spec.conv (Cert.Spec.dense1 x w1) e b1)) w2) e b2)) w3) e b3 :=
    conv3_stage (V2 U) _ w3 b3 _ _ _
      ((V2_keep U main_v5 (by decide) (by decide) (by decide) (by decide)).trans h5) ((V2_keep U main_v6 (by decide) (by decide) (by decide) (by decide)).trans h6)
      ((V2_keep U main_v31 (by decide) (by decide) (by decide) (by decide)).trans h31) r2
      ((V2_keep U main_arg6 (by decide) (by decide) (by decide) (by decide)).trans a6) ((V2_keep U main_arg7 (by decide) (by decide) (by decide) (by decide)).trans a7)
  have r3 : V3 U (Proc.devRef .tc main_v85)
      = Cert.Spec.relu (Cert.Spec.conv (Cert.Spec.dense (Cert.Spec.relu (Cert.Spec.conv (Cert.Spec.dense (Cert.Spec.relu
          (Cert.Spec.conv (Cert.Spec.dense1 x w1) e b1)) w2) e b2)) w3) e b3) :=
    relu3_stage _ _ c3
  have c4 : after (conv4 (F := Ideal)) (V3 U) (Proc.devRef .tc main_v102)
      = Cert.Spec.conv (Cert.Spec.dense (Cert.Spec.relu (Cert.Spec.conv (Cert.Spec.dense (Cert.Spec.relu (Cert.Spec.conv
          (Cert.Spec.dense (Cert.Spec.relu (Cert.Spec.conv (Cert.Spec.dense1 x w1) e b1)) w2) e b2)) w3) e b3)) w4) e b4 :=
    conv4_stage (V3 U) _ w4 b4 _ _ _
      ((V3_keep U main_v5 (by decide) (by decide) (by decide) (by decide) (by decide) (by decide)).trans h5) ((V3_keep U main_v6 (by decide) (by decide) (by decide) (by decide) (by decide) (by decide)).trans h6)
      ((V3_keep U main_v31 (by decide) (by decide) (by decide) (by decide) (by decide) (by decide)).trans h31) r3
      ((V3_keep U main_arg8 (by decide) (by decide) (by decide) (by decide) (by decide) (by decide)).trans a8) ((V3_keep U main_arg9 (by decide) (by decide) (by decide) (by decide) (by decide) (by decide)).trans a9)
  exact lsm_stage _ _ c4

end Cert.ReferenceIdeal.RefValue

end
-- ==== Proof.RefArgs.lean ====
/-
  The reference's host program writes none of its ten arguments.

  The program's 147 operations are its first 43 (the edge data) followed by the eight stretches of the four layers and the
  log-softmax.  Each stretch leaves every buffer it does not write as it was, and no stretch's list of written buffers
  contains an argument; so each argument's buffer holds, after the whole program, what it was launched with.
-/
import proofs.«149639_j46462956208473_1_alg».proof.Proof.RefOps
import proofs.«149639_j46462956208473_1_alg».proof.Proof.RefEdge
import proofs.«149639_j46462956208473_1_alg».proof.Proof.RefLayers
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The whole program is its first 43 operations, then the rest. -/
theorem after_split (U : Valuation τ sig (Elt Ideal)) (b : DevRef τ sig) :
    after (Cert.ReferenceIdeal.ValueP.ops (F := Ideal)) U b
      = after (List.drop 43 (Cert.ReferenceIdeal.ValueP.ops (F := Ideal))) (after (List.take 43 (Cert.ReferenceIdeal.ValueP.ops (F := Ideal))) U) b := by
  rw [← StableHlo.after_append, List.take_append_drop]

/-- Operations 44 to 147 leave a buffer that none of the eight stretches writes as it was. -/
theorem layers_keep (U : Valuation τ sig (Elt Ideal)) (r : Ref sig .tc) (h1 : r ∉ conv1_W) (h1' : r ∉ relu1_W)
    (h2 : r ∉ conv2_W) (h2' : r ∉ relu2_W) (h3 : r ∉ conv3_W) (h3' : r ∉ relu3_W) (h4 : r ∉ conv4_W) (h5 : r ∉ lsm_W) :
    after (List.drop 43 (Cert.ReferenceIdeal.ValueP.ops (F := Ideal))) U (Proc.devRef .tc r) = U (Proc.devRef .tc r) := by
  rw [drop_eq]
  simp only [StableHlo.after_append]
  exact (lsm_keep _ r h5).trans ((conv4_keep _ r h4).trans (V3_keep U r h1 h1' h2 h2' h3 h3'))

/-- Argument 0 is not written. -/
theorem arg_kept0 (m : (ℓ : Loc nD τ sig) → Buf (Elt Ideal) ℓ) (c : Dev nD) :
    StableHlo.after (Cert.ReferenceIdeal.ValueP.ops (F := Ideal)) (StableHlo.launchContents m c) (Proc.devRef .tc main_arg0)
      = m ((c.tc : Thread nD τ).loc main_arg0) :=
  (after_split _ _).trans ((layers_keep _ main_arg0 (by decide) (by decide) (by decide) (by decide) (by decide) (by decide) (by decide) (by decide)).trans
    ((edge_keeps_arg0 _).trans rfl))

/-- Argument 1 is not written. -/
theorem arg_kept1 (m : (ℓ : Loc nD τ sig) → Buf (Elt Ideal) ℓ) (c : Dev nD) :
    StableHlo.after (Cert.ReferenceIdeal.ValueP.ops (F := Ideal)) (StableHlo.launchContents m c) (Proc.devRef .tc main_arg1)
      = m ((c.tc : Thread nD τ).loc main_arg1) :=
  (after_split _ _).trans ((layers_keep _ main_arg1 (by decide) (by decide) (by decide) (by decide) (by decide) (by decide) (by decide) (by decide)).trans
    ((edge_keeps_arg1 _).trans rfl))

/-- Argument 2 is not written. -/
theorem arg_kept2 (m : (ℓ : Loc nD τ sig) → Buf (Elt Ideal) ℓ) (c : Dev nD) :
    StableHlo.after (Cert.ReferenceIdeal.ValueP.ops (F := Ideal)) (StableHlo.launchContents m c) (Proc.devRef .tc main_arg2)
      = m ((c.tc : Thread nD τ).loc main_arg2) :=
  (after_split _ _).trans ((layers_keep _ main_arg2 (by decide) (by decide) (by decide) (by decide) (by decide) (by decide) (by decide) (by decide)).trans
    ((edge_keeps_arg2 _).trans rfl))

/-- Argument 3 is not written. -/
theorem arg_kept3 (m : (ℓ : Loc nD τ sig) → Buf (Elt Ideal) ℓ) (c : Dev nD) :
    StableHlo.after (Cert.ReferenceIdeal.ValueP.ops (F := Ideal)) (StableHlo.launchContents m c) (Proc.devRef .tc main_arg3)
      = m ((c.tc : Thread nD τ).loc main_arg3) :=
  (after_split _ _).trans ((layers_keep _ main_arg3 (by decide) (by decide) (by decide) (by decide) (by decide) (by decide) (by decide) (by decide)).trans
    ((edge_keeps_arg3 _).trans rfl))

/-- Argument 4 is not written. -/
theorem arg_kept4 (m : (ℓ : Loc nD τ sig) → Buf (Elt Ideal) ℓ) (c : Dev nD) :
    StableHlo.after (Cert.ReferenceIdeal.ValueP.ops (F := Ideal)) (StableHlo.launchContents m c) (Proc.devRef .tc main_arg4)
      = m ((c.tc : Thread nD τ).loc main_arg4) :=
  (after_split _ _).trans ((layers_keep _ main_arg4 (by decide) (by decide) (by decide) (by decide) (by decide) (by decide) (by decide) (by decide)).trans
    ((edge_keeps_arg4 _).trans rfl))

/-- Argument 5 is not written. -/
theorem arg_kept5 (m : (ℓ : Loc nD τ sig) → Buf (Elt Ideal) ℓ) (c : Dev nD) :
    StableHlo.after (Cert.ReferenceIdeal.ValueP.ops (F := Ideal)) (StableHlo.launchContents m c) (Proc.devRef .tc main_arg5)
      = m ((c.tc : Thread nD τ).loc main_arg5) :=
  (after_split _ _).trans ((layers_keep _ main_arg5 (by decide) (by decide) (by decide) (by decide) (by decide) (by decide) (by decide) (by decide)).trans
    ((edge_keeps_arg5 _).trans rfl))

/-- Argument 6 is not written. -/
theorem arg_kept6 (m : (ℓ : Loc nD τ sig) → Buf (Elt Ideal) ℓ) (c : Dev nD) :
    StableHlo.after (Cert.ReferenceIdeal.ValueP.ops (F := Ideal)) (StableHlo.launchContents m c) (Proc.devRef .tc main_arg6)
      = m ((c.tc : Thread nD τ).loc main_arg6) :=
  (after_split _ _).trans ((layers_keep _ main_arg6 (by decide) (by decide) (by decide) (by decide) (by decide) (by decide) (by decide) (by decide)).trans
    ((edge_keeps_arg6 _).trans rfl))

/-- Argument 7 is not written. -/
theorem arg_kept7 (m : (ℓ : Loc nD τ sig) → Buf (Elt Ideal) ℓ) (c : Dev nD) :
    StableHlo.after (Cert.ReferenceIdeal.ValueP.ops (F := Ideal)) (StableHlo.launchContents m c) (Proc.devRef .tc main_arg7)
      = m ((c.tc : Thread nD τ).loc main_arg7) :=
  (after_split _ _).trans ((layers_keep _ main_arg7 (by decide) (by decide) (by decide) (by decide) (by decide) (by decide) (by decide) (by decide)).trans
    ((edge_keeps_arg7 _).trans rfl))

/-- Argument 8 is not written. -/
theorem arg_kept8 (m : (ℓ : Loc nD τ sig) → Buf (Elt Ideal) ℓ) (c : Dev nD) :
    StableHlo.after (Cert.ReferenceIdeal.ValueP.ops (F := Ideal)) (StableHlo.launchContents m c) (Proc.devRef .tc main_arg8)
      = m ((c.tc : Thread nD τ).loc main_arg8) :=
  (after_split _ _).trans ((layers_keep _ main_arg8 (by decide) (by decide) (by decide) (by decide) (by decide) (by decide) (by decide) (by decide)).trans
    ((edge_keeps_arg8 _).trans rfl))

/-- Argument 9 is not written. -/
theorem arg_kept9 (m : (ℓ : Loc nD τ sig) → Buf (Elt Ideal) ℓ) (c : Dev nD) :
    StableHlo.after (Cert.ReferenceIdeal.ValueP.ops (F := Ideal)) (StableHlo.launchContents m c) (Proc.devRef .tc main_arg9)
      = m ((c.tc : Thread nD τ).loc main_arg9) :=
  (after_split _ _).trans ((layers_keep _ main_arg9 (by decide) (by decide) (by decide) (by decide) (by decide) (by decide) (by decide) (by decide)).trans
    ((edge_keeps_arg9 _).trans rfl))

end Cert.ReferenceIdeal.RefValue

end
-- ==== Proof.RefValue.lean ====
/-
  The idealized reference's run, with its result named as the network of its arguments.

  The reference is one straight line of 147 host operations.  Its first 43 compute the edge data from the edge list; the
  remaining 104 are the four graph-convolution layers over those data and the closing row-wise log-softmax.  Every weakly
  fair execution ends with each buffer at the fold of the operations over the launch memory; read at the result buffer,
  stage by stage, that fold is the network of the arguments; read at an argument it is the argument, which no operation
  writes.
-/
import proofs.«149639_j46462956208473_1_alg».proof.Proof.RefOps
import proofs.«149639_j46462956208473_1_alg».proof.Proof.RefEdge
import proofs.«149639_j46462956208473_1_alg».proof.Proof.RefLayers
import proofs.«149639_j46462956208473_1_alg».proof.Proof.RefArgs
import proofs.«149639_j46462956208473_1_alg».proof.Proof.Graph
import Idealize.ShloMosaic.Lib.Pipeline.Frame

set_option maxRecDepth 16384

noncomputable section

namespace Cert.ReferenceIdeal.RefValue

open Cert.ReferenceIdeal Cert.ReferenceIdeal.ValueP
open Idealize.ShloMosaic Idealize.ShloMosaic.TcCoe Idealize.SL.Sem Idealize.ShloMosaic.StableHlo

/-- A buffer that no operation of the reference's line writes keeps its launch contents. -/
macro "kept_all" : tactic => `(tactic| (
  refine Idealize.ShloMosaic.StableHlo.after_of_forall_not_mem _ _ (List.forall_iff_forall_mem.mp ?_)
  simp only [Cert.ReferenceIdeal.ValueP.ops, List.Forall,
    Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes,
    Idealize.ShloMosaic.StableHlo.binaryIndexed_writes, Finset.mem_singleton]
  repeat' apply And.intro
  all_goals exact Idealize.ShloMosaic.StableHlo.devRef_ne_of_ne (by decide)))

variable (m : (ℓ : Loc nD τ sig) → Buf (Elt Ideal) ℓ) (c : Dev nD)

set_option maxHeartbeats 1600000 in
/-- The result buffer after the whole line: the edge data of the first 43 operations fed to the 104 that follow. -/
theorem value :
    StableHlo.after (ops (F := Ideal)) (launchContents m c) (Proc.devRef .tc main_v103)
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have hsplit := StableHlo.after_append (List.take 43 (ops (F := Ideal))) (List.drop 43 (ops (F := Ideal))) (launchContents m c)
  rw [List.take_append_drop] at hsplit
  rw [hsplit]
  obtain ⟨h5, h6, h31, a0, a1, a2, a3, a4, a5, a6, a7, a8, a9⟩ := edge_stage m c
  exact layers_stage _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) h5 h6 h31 a0 a2 a3 a4 a5 a6 a7 a8 a9

/-- Every weakly fair execution of the reference ends, nothing faulting, with the network of the arguments in the
    result buffer and the ten arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v103)
          = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v103).trans (value m c),
      (h c main_arg0).trans (arg_kept0 m c),
      (h c main_arg1).trans (arg_kept1 m c),
      (h c main_arg2).trans (arg_kept2 m c),
      (h c main_arg3).trans (arg_kept3 m c),
      (h c main_arg4).trans (arg_kept4 m c),
      (h c main_arg5).trans (arg_kept5 m c),
      (h c main_arg6).trans (arg_kept6 m c),
      (h c main_arg7).trans (arg_kept7 m c),
      (h c main_arg8).trans (arg_kept8 m c),
      (h c main_arg9).trans (arg_kept9 m c)⟩)
    (run_seq scopedRefs_eq scopedSems_eq defs main (fun _ => ops) main_eq (fun _ => ops_sub) m ρ)

end Cert.ReferenceIdeal.RefValue

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.Dense0.lean ====
/-
  Region 0: the node features [50000, 256] times the first weight matrix [256, 246], computed 2000 rows at a time.

  Each of the 25 grid points multiplies one block of 2000 rows of the features by the whole weight matrix and writes the
  2000 rows of the product.  At the ideal values an entry of a block's product is the sum over the shared axis of the
  products of entries, which is the entry of the whole arrays' product in the same row; the 25 blocks of rows cover the
  output array, so the array ends holding the whole product.
-/
import proofs.«149639_j46462956208473_1_alg».proof.Proof.Gen.KernelIdeal.Frame
import proofs.«149639_j46462956208473_1_alg».proof.Proof.Spec
import proofs.«149639_j46462956208473_1_alg».proof.Proof.LibPlainProduct
import proofs.«149639_j46462956208473_1_alg».proof.Proof.LibHostProduct
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The zero offsets of a whole-block access, as a constant function. -/
theorem dense0_zero : (![0, 0] : Fin 2 → Nat) = fun _ => 0 := funext fun a => by fin_cases a <;> rfl

/-- The body's value at row `p`, column `q` of its block: rounding to the narrow format is the identity at the ideal
    values and the accumulator is zero, so it is the plain sum of products along the shared axis. -/
theorem dense0_body (x : FVec Ideal S2000x256 .f32) (w : FVec Ideal S256x246 .f32) (p : Fin 2000) (q : Fin 246) :
    k0_pay1 (F := Ideal) x w (ix2 p q) = ∑ c : Fin 256, x (ix2 p c) * w (ix2 c q) := by
  unfold k0_pay1
  show FloatOps.matmul (⟨[1], [0], [0], [1], [], [], dot_S2000x256_S256x246_S2000x246_1_0_0_1_n_n_wf⟩ : DotDims _ _ _) none
      (truncf (F := Ideal) .bf16 x bitsLt_bf16_f32) (truncf (F := Ideal) .bf16 w bitsLt_bf16_f32) (constant (F := Ideal) _ .f32 0x00000000#32) (ix2 p q) = _
  rw [Cert.PlainProduct.matmul_nn_apply]
  rfl

/-- The host's product of the whole arrays at row `r`, column `q`: the same sum along the shared axis. -/
theorem dense0_host (X : FVec Ideal Cert.ReferenceIdeal.S50000x256 .f32)
    (W : FVec Ideal Cert.ReferenceIdeal.S256x246 .f32) (r : Fin 50000) (q : Fin 246) :
    Cert.Spec.dense1 X W (ix2 r q) = ∑ c : Fin 256, X (ix2 r c) * W (ix2 c q) := by
  unfold Cert.Spec.dense1
  show Host.dotGeneral (F := Ideal) (φ₁ := .f32) (φ₂ := .f32) (⟨[1], [0], [0], [1], [], [], Cert.ReferenceIdeal.Facts₀.dot_S50000x256_S256x246_S50000x246_1_0_0_1_n_n_wf⟩ : DotDims _ _ _) none X W (ix2 r q) = _
  rw [Cert.HostProduct.dotGeneral_nn_apply]

/-- One entry of one block: when the left block `x` is rows `2000·k …` of `X` and the right block is all of `W`, the
    body's entry `(p, q)` is the host product's entry `(2000·k + p, q)`. -/
theorem dense0_point (X : FVec Ideal Cert.ReferenceIdeal.S50000x256 .f32)
    (W : FVec Ideal Cert.ReferenceIdeal.S256x246 .f32)
    (x : FVec Ideal S2000x256 .f32) (w : FVec Ideal S256x246 .f32) (k : ℕ)
    (hx : ∀ (p : Fin 2000) (c : Fin 256) (r : Fin 50000), r.val = k * 2000 + p.val → x (ix2 p c) = X (ix2 r c))
    (hw : ∀ (a : Fin 256) (b : Fin 246), w (ix2 a b) = W (ix2 a b))
    (p : Fin 2000) (q : Fin 246) (r : Fin 50000) (hr : r.val = k * 2000 + p.val) :
    k0_pay1 (F := Ideal) x w (ix2 p q) = Cert.Spec.dense1 X W (ix2 r q) := by
  rw [dense0_body, dense0_host]
  exact Finset.sum_congr rfl fun c _ => by rw [hx p c r hr, hw]

/-- The printed index maps, decided over the 25 grid points: the left operand's block of rows moves with the
    output's, the weight matrix is one block, and the output's block of rows stays below 25. -/
theorem dense0_idx : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every block of 2000 rows is some point's. -/
theorem dense0_onto : ∀ (b : Fin 25), ∃ t : Fin cfg0.N, win0_2.index t = ![b.val, 0] :=
  (by decide +kernel : ∀ (b : Fin 25), ∃ t : Fin grid0.N, win0_2.index t = ![b.val, 0])

/-- What point `t` writes back is block `t` of the host product of the arrays the region finds. -/
theorem dense0_flushed (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.dense1 (V c main_arg0) (V c main_arg2)) := by
  show (cfg0.win 2).cut (grid0.coords t) ((dat0 V c).after 2 t) = _
  rw [after0_2]
  unfold out0_2
  rw [View.canon_unit_zero dense0_zero]
  simp only [View.ld_unit_zero (S := S2000x256) dense0_zero, View.ld_unit_zero (S := S256x246) dense0_zero]
  obtain ⟨e0, e1, e2, e3, e4, e5⟩ := dense0_idx t
  refine funext fun (j : S2000x246.Idx) => ?_
  obtain ⟨p, q, rfl⟩ : ∃ (p : Fin 2000) (q : Fin 246), j = ix2 p q := ⟨j 0, j 1, eq_ix2 j⟩
  have hp : p.val < 2000 := p.isLt
  have hr : win0_2.index t (0 : Fin 2) * 2000 + p.val < 50000 := by omega
  have hemb : ((cfg0.win 2).blk t).view.emb (ix2 p q)
      = (ix2 (⟨win0_2.index t (0 : Fin 2) * 2000 + p.val, hr⟩ : Fin 50000) q : S50000x246.Idx) := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 246 + 1 * q.val = q.val; omega
  show k0_pay1 (F := Ideal) (iblk0 V c 0 t) (iblk0 V c 1 t) (ix2 p q)
    = Cert.Spec.dense1 (V c main_arg0) (V c main_arg2) (((cfg0.win 2).blk t).view.emb (ix2 p q))
  refine (dense0_point (V c main_arg0) (V c main_arg2) (iblk0 V c 0 t) (iblk0 V c 1 t) (win0_2.index t (0 : Fin 2)) ?_ ?_ p q
    ⟨win0_2.index t (0 : Fin 2) * 2000 + p.val, hr⟩ rfl).trans (congrArg _ hemb.symm)
  · intro p' c' r' hr'
    unfold iblk0
    rw [View.read_apply]
    show V c main_arg0 (((cfg0.win 0).blk t).view.emb (ix2 p' c')) = V c main_arg0 (ix2 r' c')
    congr 1
    funext a; apply Fin.ext
    match a with
    | ⟨0, _⟩ => show win0_0.index t (0 : Fin 2) * 2000 + 1 * p'.val = r'.val; omega
    | ⟨1, _⟩ => show win0_0.index t (1 : Fin 2) * 256 + 1 * c'.val = c'.val; omega
  · intro a' b'
    unfold iblk0
    rw [View.read_apply]
    show V c main_arg2 (((cfg0.win 1).blk t).view.emb (ix2 a' b')) = V c main_arg2 (ix2 a' b')
    congr 1
    funext a; apply Fin.ext
    match a with
    | ⟨0, _⟩ => show win0_1.index t (0 : Fin 2) * 256 + 1 * a'.val = a'.val; omega
    | ⟨1, _⟩ => show win0_1.index t (1 : Fin 2) * 246 + 1 * b'.val = b'.val; omega

/-- An index of the output array is in point `t`'s block iff each coordinate is in the block's range on its axis. -/
theorem dense0_mem (t : Fin cfg0.N) (i : S50000x246.Idx) :
    i ∈ ((cfg0.win 2).blk t).view.set ↔ ∀ a : Fin 2, win0_2.index t a * S2000x246.size a ≤ (i a).val
      ∧ (i a).val < win0_2.index t a * S2000x246.size a + S2000x246.size a := by
  show i ∈ ((View.whole main_v32).slice (win0_2.rect t)).set ↔ _
  rw [View.set_slice_whole, Rect.mem_set_unit]
  exact Iff.rfl

/-- Row `r` of the output array is in the block of point `r / 2000`: the 25 blocks cover the array. -/
theorem dense0_cover (i : S50000x246.Idx) :
    ∃ t : Fin cfg0.N, (cfg0.win 2).flush t = true ∧ i ∈ ((cfg0.win 2).blk t).view.set := by
  have hi0 : (i 0).val < 50000 := (i 0).isLt
  have hi1 : (i 1).val < 246 := (i 1).isLt
  obtain ⟨t, ht⟩ := dense0_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [dense0_mem]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 246 ≤ (i 1).val ∧ (i 1).val < win0_2.index t (1 : Fin 2) * 246 + 246; omega

/-- The output array after the region: the host product of the two arrays the region finds. -/
theorem dense0 (V : (c : Dev nD) → (b : Ref sig .tc) → Buf (Elt Ideal) ((c : Thread nD τ).loc b)) (c : Dev nD) :
    (dat0 (F := Ideal) V c).arrAt 2 cfg0.N = Cert.Spec.dense1 (V c main_arg0) (V c main_arg2) :=
  (dat0 (F := Ideal) V c).arrAt_eq_of_cover 2 (Cert.Spec.dense1 (V c main_arg0) (V c main_arg2))
    (fun t _ => dense0_flushed V c t) dense0_cover

end Cert.KernelIdeal.RegionValue

end
-- ==== Proof.Dense2.lean ====
/-
  Region 2: the hidden features [50000, 246] times the second layer's weight matrix [246, 246], computed 2000 rows at a
  time.

  Each of the 25 grid points multiplies one block of 2000 rows of the features by the whole weight matrix and writes the
  2000 rows of the product.  At the ideal values an entry of a block's product is the sum over the shared axis of the
  products of entries, which is the entry of the whole arrays' product in the same row; the 25 blocks of rows cover the
  output array, so the array ends holding the whole product.
-/
import proofs.«149639_j46462956208473_1_alg».proof.Proof.Gen.KernelIdeal.Frame
import proofs.«149639_j46462956208473_1_alg».proof.Proof.Spec
import proofs.«149639_j46462956208473_1_alg».proof.Proof.LibPlainProduct
import proofs.«149639_j46462956208473_1_alg».proof.Proof.LibHostProduct
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The zero offsets of a whole-block access, as a constant function. -/
theorem dense2_zero : (![0, 0] : Fin 2 → Nat) = fun _ => 0 := funext fun a => by fin_cases a <;> rfl

/-- The body's value at row `p`, column `q` of its block: the reshape to the same shape and the rounding to the narrow
    format are the identity at the ideal values and the accumulator is zero, so it is the plain sum of products along
    the shared axis. -/
theorem dense2_body (x : FVec Ideal S2000x246 .f32) (w : FVec Ideal S246x246 .f32) (p : Fin 2000) (q : Fin 246) :
    k2_pay1 (F := Ideal) x w (ix2 p q) = ∑ c : Fin 246, x (ix2 p c) * w (ix2 c q) := by
  unfold k2_pay1
  simp only [shapeCast_self]
  show FloatOps.matmul (⟨[1], [0], [0], [1], [], [], dot_S2000x246_S246x246_S2000x246_1_0_0_1_n_n_wf⟩ : DotDims _ _ _) none
      (truncf (F := Ideal) .bf16 x bitsLt_bf16_f32) (truncf (F := Ideal) .bf16 w bitsLt_bf16_f32) (constant (F := Ideal) _ .f32 0x00000000#32) (ix2 p q) = _
  rw [Cert.PlainProduct.matmul_nn_apply]
  rfl

/-- The host's product of the whole arrays at row `r`, column `q`: the same sum along the shared axis. -/
theorem dense2_host (X : FVec Ideal Cert.ReferenceIdeal.S50000x246 .f32)
    (W : FVec Ideal Cert.ReferenceIdeal.S246x246 .f32) (r : Fin 50000) (q : Fin 246) :
    Cert.Spec.dense X W (ix2 r q) = ∑ c : Fin 246, X (ix2 r c) * W (ix2 c q) := by
  unfold Cert.Spec.dense
  show Host.dotGeneral (F := Ideal) (φ₁ := .f32) (φ₂ := .f32) (⟨[1], [0], [0], [1], [], [], Cert.ReferenceIdeal.Facts₀.dot_S50000x246_S246x246_S50000x246_1_0_0_1_n_n_wf⟩ : DotDims _ _ _) none X W (ix2 r q) = _
  rw [Cert.HostProduct.dotGeneral_nn_apply]

/-- One entry of one block: when the left block `x` is rows `2000·k …` of `X` and the right block is all of `W`, the
    body's entry `(p, q)` is the host product's entry `(2000·k + p, q)`. -/
theorem dense2_point (X : FVec Ideal Cert.ReferenceIdeal.S50000x246 .f32)
    (W : FVec Ideal Cert.ReferenceIdeal.S246x246 .f32)
    (x : FVec Ideal S2000x246 .f32) (w : FVec Ideal S246x246 .f32) (k : ℕ)
    (hx : ∀ (p : Fin 2000) (c : Fin 246) (r : Fin 50000), r.val = k * 2000 + p.val → x (ix2 p c) = X (ix2 r c))
    (hw : ∀ (a : Fin 246) (b : Fin 246), w (ix2 a b) = W (ix2 a b))
    (p : Fin 2000) (q : Fin 246) (r : Fin 50000) (hr : r.val = k * 2000 + p.val) :
    k2_pay1 (F := Ideal) x w (ix2 p q) = Cert.Spec.dense X W (ix2 r q) := by
  rw [dense2_body, dense2_host]
  exact Finset.sum_congr rfl fun c _ => by rw [hx p c r hr, hw]

/-- The printed index maps, decided over the 25 grid points: the left operand's block of rows moves with the
    output's, the weight matrix is one block, and the output's block of rows stays below 25. -/
theorem dense2_idx : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every block of 2000 rows is some point's. -/
theorem dense2_onto : ∀ (b : Fin 25), ∃ t : Fin cfg2.N, win2_2.index t = ![b.val, 0] :=
  (by decide +kernel : ∀ (b : Fin 25), ∃ t : Fin grid2.N, win2_2.index t = ![b.val, 0])

/-- What point `t` writes back is block `t` of the host product of the arrays the region finds. -/
theorem dense2_flushed (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.dense (V c main_v46) (V c main_arg4)) := by
  show (cfg2.win 2).cut (grid2.coords t) ((dat2 V c).after 2 t) = _
  rw [after2_2]
  unfold out2_2
  rw [View.canon_unit_zero dense2_zero]
  simp only [View.ld_unit_zero (S := S2000x246) dense2_zero, View.ld_unit_zero (S := S246x246) dense2_zero]
  obtain ⟨e0, e1, e2, e3, e4, e5⟩ := dense2_idx t
  refine funext fun (j : S2000x246.Idx) => ?_
  obtain ⟨p, q, rfl⟩ : ∃ (p : Fin 2000) (q : Fin 246), j = ix2 p q := ⟨j 0, j 1, eq_ix2 j⟩
  have hp : p.val < 2000 := p.isLt
  have hr : win2_2.index t (0 : Fin 2) * 2000 + p.val < 50000 := by omega
  have hemb : ((cfg2.win 2).blk t).view.emb (ix2 p q)
      = (ix2 (⟨win2_2.index t (0 : Fin 2) * 2000 + p.val, hr⟩ : Fin 50000) q : S50000x246.Idx) := by
    funext a; apply Fin.ext
    match a with
    | ⟨0, _⟩ => show win2_2.index t (0 : Fin 2) * 2000 + 1 * p.val = win2_2.index t (0 : Fin 2) * 2000 + p.val; omega
    | ⟨1, _⟩ => show win2_2.index t (1 : Fin 2) * 246 + 1 * q.val = q.val; omega
  show k2_pay1 (F := Ideal) (iblk2 V c 0 t) (iblk2 V c 1 t) (ix2 p q)
    = Cert.Spec.dense (V c main_v46) (V c main_arg4) (((cfg2.win 2).blk t).view.emb (ix2 p q))
  refine (dense2_point (V c main_v46) (V c main_arg4) (iblk2 V c 0 t) (iblk2 V c 1 t) (win2_2.index t (0 : Fin 2)) ?_ ?_ p q
    ⟨win2_2.index t (0 : Fin 2) * 2000 + p.val, hr⟩ rfl).trans (congrArg _ hemb.symm)
  · intro p' c' r' hr'
    unfold iblk2
    rw [View.read_apply]
    show V c main_v46 (((cfg2.win 0).blk t).view.emb (ix2 p' c')) = V c main_v46 (ix2 r' c')
    congr 1
    funext a; apply Fin.ext
    match a with
    | ⟨0, _⟩ => show win2_0.index t (0 : Fin 2) * 2000 + 1 * p'.val = r'.val; omega
    | ⟨1, _⟩ => show win2_0.index t (1 : Fin 2) * 246 + 1 * c'.val = c'.val; omega
  · intro a' b'
    unfold iblk2
    rw [View.read_apply]
    show V c main_arg4 (((cfg2.win 1).blk t).view.emb (ix2 a' b')) = V c main_arg4 (ix2 a' b')
    congr 1
    funext a; apply Fin.ext
    match a with
    | ⟨0, _⟩ => show win2_1.index t (0 : Fin 2) * 246 + 1 * a'.val = a'.val; omega
    | ⟨1, _⟩ => show win2_1.index t (1 : Fin 2) * 246 + 1 * b'.val = b'.val; omega

/-- An index of the output array is in point `t`'s block iff each coordinate is in the block's range on its axis. -/
theorem dense2_mem (t : Fin cfg2.N) (i : S50000x246.Idx) :
    i ∈ ((cfg2.win 2).blk t).view.set ↔ ∀ a : Fin 2, win2_2.index t a * S2000x246.size a ≤ (i a).val
      ∧ (i a).val < win2_2.index t a * S2000x246.size a + S2000x246.size a := by
  show i ∈ ((View.whole main_v47).slice (win2_2.rect t)).set ↔ _
  rw [View.set_slice_whole, Rect.mem_set_unit]
  exact Iff.rfl

/-- Row `r` of the output array is in the block of point `r / 2000`: the 25 blocks cover the array. -/
theorem dense2_cover (i : S50000x246.Idx) :
    ∃ t : Fin cfg2.N, (cfg2.win 2).flush t = true ∧ i ∈ ((cfg2.win 2).blk t).view.set := by
  have hi0 : (i 0).val < 50000 := (i 0).isLt
  have hi1 : (i 1).val < 246 := (i 1).isLt
  obtain ⟨t, ht⟩ := dense2_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [dense2_mem]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 246 ≤ (i 1).val ∧ (i 1).val < win2_2.index t (1 : Fin 2) * 246 + 246; omega

/-- The output array after the region: the host product of the two arrays the region finds. -/
theorem dense2 (V : (c : Dev nD) → (b : Ref sig .tc) → Buf (Elt Ideal) ((c : Thread nD τ).loc b)) (c : Dev nD) :
    (dat2 (F := Ideal) V c).arrAt 2 cfg2.N = Cert.Spec.dense (V c main_v46) (V c main_arg4) :=
  (dat2 (F := Ideal) V c).arrAt_eq_of_cover 2 (Cert.Spec.dense (V c main_v46) (V c main_arg4))
    (fun t _ => dense2_flushed V c t) dense2_cover

end Cert.KernelIdeal.RegionValue

end
-- ==== Proof.Dense4.lean ====
/-
  Region 4: the hidden features [50000, 246] times the third layer's weight matrix [246, 246], computed 2000 rows at a
  time.

  Each of the 25 grid points multiplies one block of 2000 rows of the features by the whole weight matrix and writes the
  2000 rows of the product.  At the ideal values an entry of a block's product is the sum over the shared axis of the
  products of entries, which is the entry of the whole arrays' product in the same row; the 25 blocks of rows cover the
  output array, so the array ends holding the whole product.
-/
import proofs.«149639_j46462956208473_1_alg».proof.Proof.Gen.KernelIdeal.Frame
import proofs.«149639_j46462956208473_1_alg».proof.Proof.Spec
import proofs.«149639_j46462956208473_1_alg».proof.Proof.LibPlainProduct
import proofs.«149639_j46462956208473_1_alg».proof.Proof.LibHostProduct
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The zero offsets of a whole-block access, as a constant function. -/
theorem dense4_zero : (![0, 0] : Fin 2 → Nat) = fun _ => 0 := funext fun a => by fin_cases a <;> rfl

/-- The body's value at row `p`, column `q` of its block: the reshape to the same shape and the rounding to the narrow
    format are the identity at the ideal values and the accumulator is zero, so it is the plain sum of products along
    the shared axis. -/
theorem dense4_body (x : FVec Ideal S2000x246 .f32) (w : FVec Ideal S246x246 .f32) (p : Fin 2000) (q : Fin 246) :
    k4_pay1 (F := Ideal) x w (ix2 p q) = ∑ c : Fin 246, x (ix2 p c) * w (ix2 c q) := by
  unfold k4_pay1
  simp only [shapeCast_self]
  show FloatOps.matmul (⟨[1], [0], [0], [1], [], [], dot_S2000x246_S246x246_S2000x246_1_0_0_1_n_n_wf⟩ : DotDims _ _ _) none
      (truncf (F := Ideal) .bf16 x bitsLt_bf16_f32) (truncf (F := Ideal) .bf16 w bitsLt_bf16_f32) (constant (F := Ideal) _ .f32 0x00000000#32) (ix2 p q) = _
  rw [Cert.PlainProduct.matmul_nn_apply]
  rfl

/-- The host's product of the whole arrays at row `r`, column `q`: the same sum along the shared axis. -/
theorem dense4_host (X : FVec Ideal Cert.ReferenceIdeal.S50000x246 .f32)
    (W : FVec Ideal Cert.ReferenceIdeal.S246x246 .f32) (r : Fin 50000) (q : Fin 246) :
    Cert.Spec.dense X W (ix2 r q) = ∑ c : Fin 246, X (ix2 r c) * W (ix2 c q) := by
  unfold Cert.Spec.dense
  show Host.dotGeneral (F := Ideal) (φ₁ := .f32) (φ₂ := .f32) (⟨[1], [0], [0], [1], [], [], Cert.ReferenceIdeal.Facts₀.dot_S50000x246_S246x246_S50000x246_1_0_0_1_n_n_wf⟩ : DotDims _ _ _) none X W (ix2 r q) = _
  rw [Cert.HostProduct.dotGeneral_nn_apply]

/-- One entry of one block: when the left block `x` is rows `2000·k …` of `X` and the right block is all of `W`, the
    body's entry `(p, q)` is the host product's entry `(2000·k + p, q)`. -/
theorem dense4_point (X : FVec Ideal Cert.ReferenceIdeal.S50000x246 .f32)
    (W : FVec Ideal Cert.ReferenceIdeal.S246x246 .f32)
    (x : FVec Ideal S2000x246 .f32) (w : FVec Ideal S246x246 .f32) (k : ℕ)
    (hx : ∀ (p : Fin 2000) (c : Fin 246) (r : Fin 50000), r.val = k * 2000 + p.val → x (ix2 p c) = X (ix2 r c))
    (hw : ∀ (a : Fin 246) (b : Fin 246), w (ix2 a b) = W (ix2 a b))
    (p : Fin 2000) (q : Fin 246) (r : Fin 50000) (hr : r.val = k * 2000 + p.val) :
    k4_pay1 (F := Ideal) x w (ix2 p q) = Cert.Spec.dense X W (ix2 r q) := by
  rw [dense4_body, dense4_host]
  exact Finset.sum_congr rfl fun c _ => by rw [hx p c r hr, hw]

/-- The printed index maps, decided over the 25 grid points: the left operand's block of rows moves with the
    output's, the weight matrix is one block, and the output's block of rows stays below 25. -/
theorem dense4_idx : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 24 :=
  (by decide +kernel : ∀ t : Fin grid4.N, _)

/-- Every block of 2000 rows is some point's. -/
theorem dense4_onto : ∀ (b : Fin 25), ∃ t : Fin cfg4.N, win4_2.index t = ![b.val, 0] :=
  (by decide +kernel : ∀ (b : Fin 25), ∃ t : Fin grid4.N, win4_2.index t = ![b.val, 0])

/-- What point `t` writes back is block `t` of the host product of the arrays the region finds. -/
theorem dense4_flushed (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (Cert.Spec.dense (V c main_v61) (V c main_arg6)) := by
  show (cfg4.win 2).cut (grid4.coords t) ((dat4 V c).after 2 t) = _
  rw [after4_2]
  unfold out4_2
  rw [View.canon_unit_zero dense4_zero]
  simp only [View.ld_unit_zero (S := S2000x246) dense4_zero, View.ld_unit_zero (S := S246x246) dense4_zero]
  obtain ⟨e0, e1, e2, e3, e4, e5⟩ := dense4_idx t
  refine funext fun (j : S2000x246.Idx) => ?_
  obtain ⟨p, q, rfl⟩ : ∃ (p : Fin 2000) (q : Fin 246), j = ix2 p q := ⟨j 0, j 1, eq_ix2 j⟩
  have hp : p.val < 2000 := p.isLt
  have hr : win4_2.index t (0 : Fin 2) * 2000 + p.val < 50000 := by omega
  have hemb : ((cfg4.win 2).blk t).view.emb (ix2 p q)
      = (ix2 (⟨win4_2.index t (0 : Fin 2) * 2000 + p.val, hr⟩ : Fin 50000) q : S50000x246.Idx) := by
    funext a; apply Fin.ext
    match a with
    | ⟨0, _⟩ => show win4_2.index t (0 : Fin 2) * 2000 + 1 * p.val = win4_2.index t (0 : Fin 2) * 2000 + p.val; omega
    | ⟨1, _⟩ => show win4_2.index t (1 : Fin 2) * 246 + 1 * q.val = q.val; omega
  show k4_pay1 (F := Ideal) (iblk4 V c 0 t) (iblk4 V c 1 t) (ix2 p q)
    = Cert.Spec.dense (V c main_v61) (V c main_arg6) (((cfg4.win 2).blk t).view.emb (ix2 p q))
  refine (dense4_point (V c main_v61) (V c main_arg6) (iblk4 V c 0 t) (iblk4 V c 1 t) (win4_2.index t (0 : Fin 2)) ?_ ?_ p q
    ⟨win4_2.index t (0 : Fin 2) * 2000 + p.val, hr⟩ rfl).trans (congrArg _ hemb.symm)
  · intro p' c' r' hr'
    unfold iblk4
    rw [View.read_apply]
    show V c main_v61 (((cfg4.win 0).blk t).view.emb (ix2 p' c')) = V c main_v61 (ix2 r' c')
    congr 1
    funext a; apply Fin.ext
    match a with
    | ⟨0, _⟩ => show win4_0.index t (0 : Fin 2) * 2000 + 1 * p'.val = r'.val; omega
    | ⟨1, _⟩ => show win4_0.index t (1 : Fin 2) * 246 + 1 * c'.val = c'.val; omega
  · intro a' b'
    unfold iblk4
    rw [View.read_apply]
    show V c main_arg6 (((cfg4.win 1).blk t).view.emb (ix2 a' b')) = V c main_arg6 (ix2 a' b')
    congr 1
    funext a; apply Fin.ext
    match a with
    | ⟨0, _⟩ => show win4_1.index t (0 : Fin 2) * 246 + 1 * a'.val = a'.val; omega
    | ⟨1, _⟩ => show win4_1.index t (1 : Fin 2) * 246 + 1 * b'.val = b'.val; omega

/-- An index of the output array is in point `t`'s block iff each coordinate is in the block's range on its axis. -/
theorem dense4_mem (t : Fin cfg4.N) (i : S50000x246.Idx) :
    i ∈ ((cfg4.win 2).blk t).view.set ↔ ∀ a : Fin 2, win4_2.index t a * S2000x246.size a ≤ (i a).val
      ∧ (i a).val < win4_2.index t a * S2000x246.size a + S2000x246.size a := by
  show i ∈ ((View.whole main_v62).slice (win4_2.rect t)).set ↔ _
  rw [View.set_slice_whole, Rect.mem_set_unit]
  exact Iff.rfl

/-- Row `r` of the output array is in the block of point `r / 2000`: the 25 blocks cover the array. -/
theorem dense4_cover (i : S50000x246.Idx) :
    ∃ t : Fin cfg4.N, (cfg4.win 2).flush t = true ∧ i ∈ ((cfg4.win 2).blk t).view.set := by
  have hi0 : (i 0).val < 50000 := (i 0).isLt
  have hi1 : (i 1).val < 246 := (i 1).isLt
  obtain ⟨t, ht⟩ := dense4_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [dense4_mem]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 246 ≤ (i 1).val ∧ (i 1).val < win4_2.index t (1 : Fin 2) * 246 + 246; omega

/-- The output array after the region: the host product of the two arrays the region finds. -/
theorem dense4 (V : (c : Dev nD) → (b : Ref sig .tc) → Buf (Elt Ideal) ((c : Thread nD τ).loc b)) (c : Dev nD) :
    (dat4 (F := Ideal) V c).arrAt 2 cfg4.N = Cert.Spec.dense (V c main_v61) (V c main_arg6) :=
  (dat4 (F := Ideal) V c).arrAt_eq_of_cover 2 (Cert.Spec.dense (V c main_v61) (V c main_arg6))
    (fun t _ => dense4_flushed V c t) dense4_cover

end Cert.KernelIdeal.RegionValue

end
-- ==== Proof.Dense6.lean ====
/-
  Region 6: the hidden features [50000, 246] times the fourth layer's weight matrix [246, 246], computed 2000 rows at a
  time.

  Each of the 25 grid points multiplies one block of 2000 rows of the features by the whole weight matrix and writes the
  2000 rows of the product.  At the ideal values an entry of a block's product is the sum over the shared axis of the
  products of entries, which is the entry of the whole arrays' product in the same row; the 25 blocks of rows cover the
  output array, so the array ends holding the whole product.
-/
import proofs.«149639_j46462956208473_1_alg».proof.Proof.Gen.KernelIdeal.Frame
import proofs.«149639_j46462956208473_1_alg».proof.Proof.Spec
import proofs.«149639_j46462956208473_1_alg».proof.Proof.LibPlainProduct
import proofs.«149639_j46462956208473_1_alg».proof.Proof.LibHostProduct
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The zero offsets of a whole-block access, as a constant function. -/
theorem dense6_zero : (![0, 0] : Fin 2 → Nat) = fun _ => 0 := funext fun a => by fin_cases a <;> rfl

/-- The body's value at row `p`, column `q` of its block: the reshape to the same shape and the rounding to the narrow
    format are the identity at the ideal values and the accumulator is zero, so it is the plain sum of products along
    the shared axis. -/
theorem dense6_body (x : FVec Ideal S2000x246 .f32) (w : FVec Ideal S246x246 .f32) (p : Fin 2000) (q : Fin 246) :
    k6_pay1 (F := Ideal) x w (ix2 p q) = ∑ c : Fin 246, x (ix2 p c) * w (ix2 c q) := by
  unfold k6_pay1
  simp only [shapeCast_self]
  show FloatOps.matmul (⟨[1], [0], [0], [1], [], [], dot_S2000x246_S246x246_S2000x246_1_0_0_1_n_n_wf⟩ : DotDims _ _ _) none
      (truncf (F := Ideal) .bf16 x bitsLt_bf16_f32) (truncf (F := Ideal) .bf16 w bitsLt_bf16_f32) (constant (F := Ideal) _ .f32 0x00000000#32) (ix2 p q) = _
  rw [Cert.PlainProduct.matmul_nn_apply]
  rfl

/-- The host's product of the whole arrays at row `r`, column `q`: the same sum along the shared axis. -/
theorem dense6_host (X : FVec Ideal Cert.ReferenceIdeal.S50000x246 .f32)
    (W : FVec Ideal Cert.ReferenceIdeal.S246x246 .f32) (r : Fin 50000) (q : Fin 246) :
    Cert.Spec.dense X W (ix2 r q) = ∑ c : Fin 246, X (ix2 r c) * W (ix2 c q) := by
  unfold Cert.Spec.dense
  show Host.dotGeneral (F := Ideal) (φ₁ := .f32) (φ₂ := .f32) (⟨[1], [0], [0], [1], [], [], Cert.ReferenceIdeal.Facts₀.dot_S50000x246_S246x246_S50000x246_1_0_0_1_n_n_wf⟩ : DotDims _ _ _) none X W (ix2 r q) = _
  rw [Cert.HostProduct.dotGeneral_nn_apply]

/-- One entry of one block: when the left block `x` is rows `2000·k …` of `X` and the right block is all of `W`, the
    body's entry `(p, q)` is the host product's entry `(2000·k + p, q)`. -/
theorem dense6_point (X : FVec Ideal Cert.ReferenceIdeal.S50000x246 .f32)
    (W : FVec Ideal Cert.ReferenceIdeal.S246x246 .f32)
    (x : FVec Ideal S2000x246 .f32) (w : FVec Ideal S246x246 .f32) (k : ℕ)
    (hx : ∀ (p : Fin 2000) (c : Fin 246) (r : Fin 50000), r.val = k * 2000 + p.val → x (ix2 p c) = X (ix2 r c))
    (hw : ∀ (a : Fin 246) (b : Fin 246), w (ix2 a b) = W (ix2 a b))
    (p : Fin 2000) (q : Fin 246) (r : Fin 50000) (hr : r.val = k * 2000 + p.val) :
    k6_pay1 (F := Ideal) x w (ix2 p q) = Cert.Spec.dense X W (ix2 r q) := by
  rw [dense6_body, dense6_host]
  exact Finset.sum_congr rfl fun c _ => by rw [hx p c r hr, hw]

/-- The printed index maps, decided over the 25 grid points: the left operand's block of rows moves with the
    output's, the weight matrix is one block, and the output's block of rows stays below 25. -/
theorem dense6_idx : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 24 :=
  (by decide +kernel : ∀ t : Fin grid6.N, _)

/-- Every block of 2000 rows is some point's. -/
theorem dense6_onto : ∀ (b : Fin 25), ∃ t : Fin cfg6.N, win6_2.index t = ![b.val, 0] :=
  (by decide +kernel : ∀ (b : Fin 25), ∃ t : Fin grid6.N, win6_2.index t = ![b.val, 0])

/-- What point `t` writes back is block `t` of the host product of the arrays the region finds. -/
theorem dense6_flushed (V : (c : Dev nD) → (b : Ref sig .tc) → Buf (Elt Ideal) ((c : Thread nD τ).loc b)) (c : Dev nD) (t : Fin cfg6.N) :
    (dat6 (F := Ideal) V c).flushed 2 t
      = ((cfg6.win 2).blk t).view.read (Elt Ideal) (Cert.Spec.dense (V c main_v76) (V c main_arg8)) := by
  show (cfg6.win 2).cut (grid6.coords t) ((dat6 V c).after 2 t) = _
  rw [after6_2]
  unfold out6_2
  rw [View.canon_unit_zero dense6_zero]
  simp only [View.ld_unit_zero (S := S2000x246) dense6_zero, View.ld_unit_zero (S := S246x246) dense6_zero]
  obtain ⟨e0, e1, e2, e3, e4, e5⟩ := dense6_idx t
  refine funext fun (j : S2000x246.Idx) => ?_
  obtain ⟨p, q, rfl⟩ : ∃ (p : Fin 2000) (q : Fin 246), j = ix2 p q := ⟨j 0, j 1, eq_ix2 j⟩
  have hp : p.val < 2000 := p.isLt
  have hr : win6_2.index t (0 : Fin 2) * 2000 + p.val < 50000 := by omega
  have hemb : ((cfg6.win 2).blk t).view.emb (ix2 p q)
      = (ix2 (⟨win6_2.index t (0 : Fin 2) * 2000 + p.val, hr⟩ : Fin 50000) q : S50000x246.Idx) := by
    funext a; apply Fin.ext
    match a with
    | ⟨0, _⟩ => show win6_2.index t (0 : Fin 2) * 2000 + 1 * p.val = win6_2.index t (0 : Fin 2) * 2000 + p.val; omega
    | ⟨1, _⟩ => show win6_2.index t (1 : Fin 2) * 246 + 1 * q.val = q.val; omega
  show k6_pay1 (F := Ideal) (iblk6 V c 0 t) (iblk6 V c 1 t) (ix2 p q)
    = Cert.Spec.dense (V c main_v76) (V c main_arg8) (((cfg6.win 2).blk t).view.emb (ix2 p q))
  refine (dense6_point (V c main_v76) (V c main_arg8) (iblk6 V c 0 t) (iblk6 V c 1 t) (win6_2.index t (0 : Fin 2)) ?_ ?_ p q
    ⟨win6_2.index t (0 : Fin 2) * 2000 + p.val, hr⟩ rfl).trans (congrArg _ hemb.symm)
  · intro p' c' r' hr'
    unfold iblk6
    rw [View.read_apply]
    show V c main_v76 (((cfg6.win 0).blk t).view.emb (ix2 p' c')) = V c main_v76 (ix2 r' c')
    congr 1
    funext a; apply Fin.ext
    match a with
    | ⟨0, _⟩ => show win6_0.index t (0 : Fin 2) * 2000 + 1 * p'.val = r'.val; omega
    | ⟨1, _⟩ => show win6_0.index t (1 : Fin 2) * 246 + 1 * c'.val = c'.val; omega
  · intro a' b'
    unfold iblk6
    rw [View.read_apply]
    show V c main_arg8 (((cfg6.win 1).blk t).view.emb (ix2 a' b')) = V c main_arg8 (ix2 a' b')
    congr 1
    funext a; apply Fin.ext
    match a with
    | ⟨0, _⟩ => show win6_1.index t (0 : Fin 2) * 246 + 1 * a'.val = a'.val; omega
    | ⟨1, _⟩ => show win6_1.index t (1 : Fin 2) * 246 + 1 * b'.val = b'.val; omega

/-- An index of the output array is in point `t`'s block iff each coordinate is in the block's range on its axis. -/
theorem dense6_mem (t : Fin cfg6.N) (i : S50000x246.Idx) :
    i ∈ ((cfg6.win 2).blk t).view.set ↔ ∀ a : Fin 2, win6_2.index t a * S2000x246.size a ≤ (i a).val
      ∧ (i a).val < win6_2.index t a * S2000x246.size a + S2000x246.size a := by
  show i ∈ ((View.whole main_v77).slice (win6_2.rect t)).set ↔ _
  rw [View.set_slice_whole, Rect.mem_set_unit]
  exact Iff.rfl

/-- Row `r` of the output array is in the block of point `r / 2000`: the 25 blocks cover the array. -/
theorem dense6_cover (i : S50000x246.Idx) :
    ∃ t : Fin cfg6.N, (cfg6.win 2).flush t = true ∧ i ∈ ((cfg6.win 2).blk t).view.set := by
  have hi0 : (i 0).val < 50000 := (i 0).isLt
  have hi1 : (i 1).val < 246 := (i 1).isLt
  obtain ⟨t, ht⟩ := dense6_onto ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [dense6_mem]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 246 ≤ (i 1).val ∧ (i 1).val < win6_2.index t (1 : Fin 2) * 246 + 246; omega

/-- The output array after the region: the host product of the two arrays the region finds. -/
theorem dense6 (V : (c : Dev nD) → (b : Ref sig .tc) → Buf (Elt Ideal) ((c : Thread nD τ).loc b)) (c : Dev nD) :
    (dat6 (F := Ideal) V c).arrAt 2 cfg6.N = Cert.Spec.dense (V c main_v76) (V c main_arg8) :=
  (dat6 (F := Ideal) V c).arrAt_eq_of_cover 2 (Cert.Spec.dense (V c main_v76) (V c main_arg8))
    (fun t _ => dense6_flushed V c t) dense6_cover

end Cert.KernelIdeal.RegionValue

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.Relu1.lean ====
/-
  Region 1: a bias added to every row, then max(·, 0).

  The region's grid has 25 points; point t reads rows 2000·t … 2000·t + 1999 of the [50000, 246] input and the whole
  bias vector, and writes the same rows of the output.  Entry (p, q) of a written block is max (x (p, q) + b q, 0),
  so the output array is, entry by entry, max (A (i, q) + b q, 0): the reference's formula.
-/
import proofs.«149639_j46462956208473_1_alg».proof.Proof.Gen.KernelIdeal.Frame
import proofs.«149639_j46462956208473_1_alg».proof.Proof.Spec
import proofs.«149639_j46462956208473_1_alg».proof.Proof.LibHostBroadcast
import proofs.«149639_j46462956208473_1_alg».proof.Proof.LibRowsProduct
import proofs.«149639_j46462956208473_1_alg».proof.Proof.LibBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.TcCoe

namespace Relu1

/-- The zero offsets of a whole block, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- The body's payload at entry (p, q) of a block: the entry plus the bias's entry q, against zero. -/
theorem pay_apply (x0 : Vec Ideal S2000x246 .f32) (x1 : Vec Ideal S246 .f32) (p : Fin 2000) (q : Fin 246) :
    k1_pay1 (F := Ideal) x0 x1 (ix2 p q) = max (x0 (ix2 p q) + x1 (ix1 q)) (Ideal.ofBits .f32 0x00000000#32) := by
  unfold k1_pay1
  show max (shapeCast S2000x246 x0 shapeCasts_S2000x246_S2000x246 (ix2 p q)
      + broadcastTo S2000x246 (shapeCast S1x246 x1 shapeCasts_S246_S1x246) broadcasts_S1x246_S2000x246 (ix2 p q)) _ = _
  rw [shapeCast_self, Cert.RowsProduct.broadcastTo_1n_an_apply, Cert.Layout.shapeCast_row_apply]
  rfl

/-- The reference's formula at entry (i, q): the same function of the entry and the bias. -/
theorem spec_apply (A : FVec Ideal Cert.ReferenceIdeal.S50000x246 .f32)
    (b : FVec Ideal Cert.ReferenceIdeal.S246 .f32) (i : Fin 50000) (q : Fin 246) :
    Cert.Spec.relu (Cert.Spec.biased A b) (ix2 i q) = max (A (ix2 i q) + b (ix1 q)) (Ideal.ofBits .f32 0x00000000#32) := by
  unfold Cert.Spec.relu Cert.Spec.biased
  rw [maximumf_apply, addf_apply, Cert.HostBroadcast.row_apply, Cert.HostBroadcast.scalar_apply]
  rfl

/-- An entry of a written block against the reference's formula: where the block's entry is the array's entry (r, q) and the
    bias block is the bias, the payload at (p, q) is the formula at (r, q). -/
theorem block_entry (A : FVec Ideal Cert.ReferenceIdeal.S50000x246 .f32) (b : FVec Ideal Cert.ReferenceIdeal.S246 .f32)
    (x0 : Vec Ideal S2000x246 .f32) (x1 : Vec Ideal S246 .f32) (p : Fin 2000) (q : Fin 246) (r : Fin 50000)
    (h0 : x0 (ix2 p q) = A (ix2 r q)) (h1 : x1 (ix1 q) = b (ix1 q)) :
    k1_pay1 (F := Ideal) x0 x1 (ix2 p q) = Cert.Spec.relu (Cert.Spec.biased A b) (ix2 r q) := by
  rw [pay_apply, spec_apply, h0, h1]

/-- The printed index maps, decided over the grid: the row blocks move with the point, the bias is one block. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the reference's formula of the arrays the region finds. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.relu (Cert.Spec.biased (V c main_v45) (V c main_arg3))) := by
  show (cfg1.win 2).cut (grid1.coords t) ((dat1 (F := Ideal) V c).after 2 t) = _
  rw [after1_2]
  unfold out1_2
  rw [View.canon_unit_zero hz2]
  simp only [View.ld_unit_zero (S := S2000x246) hz2, View.ld_unit_zero (S := S246) hz1]
  obtain ⟨e0, e1, e2, e3, e4⟩ := idx_facts t
  have hN : t.val < 25 := lt_of_lt_of_eq t.isLt N_1
  funext j
  obtain ⟨p, q, rfl⟩ : ∃ (p : Fin 2000) (q : Fin 246), j = ix2 p q := ⟨j 0, j 1, eq_ix2 j⟩
  have hp : p.val < 2000 := p.isLt
  have hrow : t.val * 2000 + p.val < 50000 := by omega
  have h2 : ((cfg1.win 2).blk t).view.emb (ix2 p q) = ix2 (⟨t.val * 2000 + p.val, hrow⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 246 + 1 * q.val = q.val; omega
  have h0 : ((cfg1.win 0).blk t).view.emb (ix2 p q) = ix2 (⟨t.val * 2000 + p.val, hrow⟩ : Fin 50000) q := by
    funext a; apply Fin.ext
    match a with
    | ⟨0, _⟩ => show win1_0.index t (0 : Fin 2) * 2000 + 1 * p.val = t.val * 2000 + p.val; omega
    | ⟨1, _⟩ => show win1_0.index t (1 : Fin 2) * 246 + 1 * q.val = q.val; omega
  have h1 : ((cfg1.win 1).blk t).view.emb (ix1 q) = ix1 q := by
    funext a; apply Fin.ext
    match a with
    | ⟨0, _⟩ => show win1_1.index t (0 : Fin 1) * 246 + 1 * q.val = q.val; omega
  refine (block_entry (V c main_v45) (V c main_arg3) (iblk1 V c 0 t) (iblk1 V c 1 t) p q ⟨t.val * 2000 + p.val, hrow⟩
    (congrArg (V c main_v45) h0) (congrArg (V c main_arg3) h1)).trans ?_
  exact (congrArg (Cert.Spec.relu (Cert.Spec.biased (V c main_v45) (V c main_arg3))) h2).symm

/-- An index of the array is in point t's block iff each coordinate is in the block's range on its axis. -/
theorem mem_blk (t : Fin cfg1.N) (i : S50000x246.Idx) :
    i ∈ ((cfg1.win 2).blk t).view.set ↔ ∀ a : Fin 2, win1_2.index t a * S2000x246.size a ≤ (i a).val
      ∧ (i a).val < win1_2.index t a * S2000x246.size a + S2000x246.size a := by
  show i ∈ ((View.whole main_v46).slice (win1_2.rect t)).set ↔ _
  rw [View.set_slice_whole, Rect.mem_set_unit]
  exact Iff.rfl

/-- Every row is in some point's block: row r in point r / 2000's. -/
theorem cover (i : S50000x246.Idx) :
    ∃ t : Fin cfg1.N, (cfg1.win 2).flush t = true ∧ i ∈ ((cfg1.win 2).blk t).view.set := by
  have hi0 : (i 0).val < 50000 := (i 0).isLt
  have hi1 : (i 1).val < 246 := (i 1).isLt
  have hlt : (i 0).val / 2000 < cfg1.N := by rw [show cfg1.N = 25 from N_1]; omega
  obtain ⟨e0, e1, e2, e3, e4⟩ := idx_facts ⟨(i 0).val / 2000, hlt⟩
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    rw [e3]; show (i 0).val / 2000 * 2000 ≤ (i 0).val ∧ (i 0).val < (i 0).val / 2000 * 2000 + 2000; omega
  | ⟨1, _⟩ =>
    show win1_2.index ⟨(i 0).val / 2000, hlt⟩ (1 : Fin 2) * 246 ≤ (i 1).val
      ∧ (i 1).val < win1_2.index ⟨(i 0).val / 2000, hlt⟩ (1 : Fin 2) * 246 + 246
    rw [e4]; omega

end Relu1

/-- The output array of region 1 after its 25 points: max (A + bias row, 0) of the arrays the region is entered with. -/
theorem relu1 (V : (c : Dev nD) → (b : Ref sig .tc) → Buf (Elt Ideal) ((c : Thread nD τ).loc b)) (c : Dev nD) :
    (dat1 (F := Ideal) V c).arrAt 2 cfg1.N = Cert.Spec.relu (Cert.Spec.biased (V c main_v45) (V c main_arg3)) :=
  (dat1 (F := Ideal) V c).arrAt_eq_of_cover 2 _ (fun t _ => Relu1.flushed_eq V c t) Relu1.cover

end Cert.KernelIdeal.RegionValue

end
-- ==== Proof.Relu3.lean ====
/-
  Region 3: a bias added to every row, then max(·, 0).

  The region's grid has 25 points; point t reads rows 2000·t … 2000·t + 1999 of the [50000, 246] input and the whole
  bias vector, and writes the same rows of the output.  Entry (p, q) of a written block is max (x (p, q) + b q, 0),
  so the output array is, entry by entry, max (A (i, q) + b q, 0): the reference's formula.
-/
import proofs.«149639_j46462956208473_1_alg».proof.Proof.Gen.KernelIdeal.Frame
import proofs.«149639_j46462956208473_1_alg».proof.Proof.Spec
import proofs.«149639_j46462956208473_1_alg».proof.Proof.LibHostBroadcast
import proofs.«149639_j46462956208473_1_alg».proof.Proof.LibRowsProduct
import proofs.«149639_j46462956208473_1_alg».proof.Proof.LibBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.TcCoe

namespace Relu3

/-- The zero offsets of a whole block, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- The body's payload at entry (p, q) of a block: the entry plus the bias's entry q, against zero. -/
theorem pay_apply (x0 : Vec Ideal S2000x246 .f32) (x1 : Vec Ideal S246 .f32) (p : Fin 2000) (q : Fin 246) :
    k3_pay1 (F := Ideal) x0 x1 (ix2 p q) = max (x0 (ix2 p q) + x1 (ix1 q)) (Ideal.ofBits .f32 0x00000000#32) := by
  unfold k3_pay1
  show max (shapeCast S2000x246 x0 shapeCasts_S2000x246_S2000x246 (ix2 p q)
      + broadcastTo S2000x246 (shapeCast S1x246 x1 shapeCasts_S246_S1x246) broadcasts_S1x246_S2000x246 (ix2 p q)) _ = _
  rw [shapeCast_self, Cert.RowsProduct.broadcastTo_1n_an_apply, Cert.Layout.shapeCast_row_apply]
  rfl

/-- The reference's formula at entry (i, q): the same function of the entry and the bias. -/
theorem spec_apply (A : FVec Ideal Cert.ReferenceIdeal.S50000x246 .f32)
    (b : FVec Ideal Cert.ReferenceIdeal.S246 .f32) (i : Fin 50000) (q : Fin 246) :
    Cert.Spec.relu (Cert.Spec.biased A b) (ix2 i q) = max (A (ix2 i q) + b (ix1 q)) (Ideal.ofBits .f32 0x00000000#32) := by
  unfold Cert.Spec.relu Cert.Spec.biased
  rw [maximumf_apply, addf_apply, Cert.HostBroadcast.row_apply, Cert.HostBroadcast.scalar_apply]
  rfl

/-- An entry of a written block against the reference's formula: where the block's entry is the array's entry (r, q) and the
    bias block is the bias, the payload at (p, q) is the formula at (r, q). -/
theorem block_entry (A : FVec Ideal Cert.ReferenceIdeal.S50000x246 .f32) (b : FVec Ideal Cert.ReferenceIdeal.S246 .f32)
    (x0 : Vec Ideal S2000x246 .f32) (x1 : Vec Ideal S246 .f32) (p : Fin 2000) (q : Fin 246) (r : Fin 50000)
    (h0 : x0 (ix2 p q) = A (ix2 r q)) (h1 : x1 (ix1 q) = b (ix1 q)) :
    k3_pay1 (F := Ideal) x0 x1 (ix2 p q) = Cert.Spec.relu (Cert.Spec.biased A b) (ix2 r q) := by
  rw [pay_apply, spec_apply, h0, h1]

/-- The printed index maps, decided over the grid: the row blocks move with the point, the bias is one block. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the reference's formula of the arrays the region finds. -/
theorem flushed_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Spec.relu (Cert.Spec.biased (V c main_v60) (V c main_arg5))) := by
  show (cfg3.win 2).cut (grid3.coords t) ((dat3 (F := Ideal) V c).after 2 t) = _
  rw [after3_2]
  unfold out3_2
  rw [View.canon_unit_zero hz2]
  simp only [View.ld_unit_zero (S := S2000x246) hz2, View.ld_unit_zero (S := S246) hz1]
  obtain ⟨e0, e1, e2, e3, e4⟩ := idx_facts t
  have hN : t.val < 25 := lt_of_lt_of_eq t.isLt N_3
  funext j
  obtain ⟨p, q, rfl⟩ : ∃ (p : Fin 2000) (q : Fin 246), j = ix2 p q := ⟨j 0, j 1, eq_ix2 j⟩
  have hp : p.val < 2000 := p.isLt
  have hrow : t.val * 2000 + p.val < 50000 := by omega
  have h2 : ((cfg3.win 2).blk t).view.emb (ix2 p q) = ix2 (⟨t.val * 2000 + p.val, hrow⟩ : Fin 50000) q := by
    funext a; apply Fin.ext
    match a with
    | ⟨0, _⟩ => show win3_2.index t (0 : Fin 2) * 2000 + 1 * p.val = t.val * 2000 + p.val; omega
    | ⟨1, _⟩ => show win3_2.index t (1 : Fin 2) * 246 + 1 * q.val = q.val; omega
  have h0 : ((cfg3.win 0).blk t).view.emb (ix2 p q) = ix2 (⟨t.val * 2000 + p.val, hrow⟩ : Fin 50000) q := by
    funext a; apply Fin.ext
    match a with
    | ⟨0, _⟩ => show win3_0.index t (0 : Fin 2) * 2000 + 1 * p.val = t.val * 2000 + p.val; omega
    | ⟨1, _⟩ => show win3_0.index t (1 : Fin 2) * 246 + 1 * q.val = q.val; omega
  have h1 : ((cfg3.win 1).blk t).view.emb (ix1 q) = ix1 q := by
    funext a; apply Fin.ext
    match a with
    | ⟨0, _⟩ => show win3_1.index t (0 : Fin 1) * 246 + 1 * q.val = q.val; omega
  refine (block_entry (V c main_v60) (V c main_arg5) (iblk3 V c 0 t) (iblk3 V c 1 t) p q ⟨t.val * 2000 + p.val, hrow⟩
    (congrArg (V c main_v60) h0) (congrArg (V c main_arg5) h1)).trans ?_
  exact (congrArg (Cert.Spec.relu (Cert.Spec.biased (V c main_v60) (V c main_arg5))) h2).symm

/-- An index of the array is in point t's block iff each coordinate is in the block's range on its axis. -/
theorem mem_blk (t : Fin cfg3.N) (i : S50000x246.Idx) :
    i ∈ ((cfg3.win 2).blk t).view.set ↔ ∀ a : Fin 2, win3_2.index t a * S2000x246.size a ≤ (i a).val
      ∧ (i a).val < win3_2.index t a * S2000x246.size a + S2000x246.size a := by
  show i ∈ ((View.whole main_v61).slice (win3_2.rect t)).set ↔ _
  rw [View.set_slice_whole, Rect.mem_set_unit]
  exact Iff.rfl

/-- Every row is in some point's block: row r in point r / 2000's. -/
theorem cover (i : S50000x246.Idx) :
    ∃ t : Fin cfg3.N, (cfg3.win 2).flush t = true ∧ i ∈ ((cfg3.win 2).blk t).view.set := by
  have hi0 : (i 0).val < 50000 := (i 0).isLt
  have hi1 : (i 1).val < 246 := (i 1).isLt
  have hlt : (i 0).val / 2000 < cfg3.N := by rw [show cfg3.N = 25 from N_3]; omega
  obtain ⟨e0, e1, e2, e3, e4⟩ := idx_facts ⟨(i 0).val / 2000, hlt⟩
  refine ⟨⟨(i 0).val / 2000, hlt⟩, flush3_2 _, ?_⟩
  rw [mem_blk]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    rw [e3]; show (i 0).val / 2000 * 2000 ≤ (i 0).val ∧ (i 0).val < (i 0).val / 2000 * 2000 + 2000; omega
  | ⟨1, _⟩ =>
    show win3_2.index ⟨(i 0).val / 2000, hlt⟩ (1 : Fin 2) * 246 ≤ (i 1).val
      ∧ (i 1).val < win3_2.index ⟨(i 0).val / 2000, hlt⟩ (1 : Fin 2) * 246 + 246
    rw [e4]; omega

end Relu3

/-- The output array of region 3 after its 25 points: max (A + bias row, 0) of the arrays the region is entered with. -/
theorem relu3 (V : (c : Dev nD) → (b : Ref sig .tc) → Buf (Elt Ideal) ((c : Thread nD τ).loc b)) (c : Dev nD) :
    (dat3 (F := Ideal) V c).arrAt 2 cfg3.N = Cert.Spec.relu (Cert.Spec.biased (V c main_v60) (V c main_arg5)) :=
  (dat3 (F := Ideal) V c).arrAt_eq_of_cover 2 _ (fun t _ => Relu3.flushed_eq V c t) Relu3.cover

end Cert.KernelIdeal.RegionValue

end
-- ==== Proof.Relu5.lean ====
/-
  Region 5: a bias added to every row, then max(·, 0).

  The region's grid has 25 points; point t reads rows 2000·t … 2000·t + 1999 of the [50000, 246] input and the whole
  bias vector, and writes the same rows of the output.  Entry (p, q) of a written block is max (x (p, q) + b q, 0),
  so the output array is, entry by entry, max (A (i, q) + b q, 0): the reference's formula.
-/
import proofs.«149639_j46462956208473_1_alg».proof.Proof.Gen.KernelIdeal.Frame
import proofs.«149639_j46462956208473_1_alg».proof.Proof.Spec
import proofs.«149639_j46462956208473_1_alg».proof.Proof.LibHostBroadcast
import proofs.«149639_j46462956208473_1_alg».proof.Proof.LibRowsProduct
import proofs.«149639_j46462956208473_1_alg».proof.Proof.LibBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.TcCoe

namespace Relu5

/-- The zero offsets of a whole block, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- The body's payload at entry (p, q) of a block: the entry plus the bias's entry q, against zero. -/
theorem pay_apply (x0 : Vec Ideal S2000x246 .f32) (x1 : Vec Ideal S246 .f32) (p : Fin 2000) (q : Fin 246) :
    k5_pay1 (F := Ideal) x0 x1 (ix2 p q) = max (x0 (ix2 p q) + x1 (ix1 q)) (Ideal.ofBits .f32 0x00000000#32) := by
  unfold k5_pay1
  show max (shapeCast S2000x246 x0 shapeCasts_S2000x246_S2000x246 (ix2 p q)
      + broadcastTo S2000x246 (shapeCast S1x246 x1 shapeCasts_S246_S1x246) broadcasts_S1x246_S2000x246 (ix2 p q)) _ = _
  rw [shapeCast_self, Cert.RowsProduct.broadcastTo_1n_an_apply, Cert.Layout.shapeCast_row_apply]
  rfl

/-- The reference's formula at entry (i, q): the same function of the entry and the bias. -/
theorem spec_apply (A : FVec Ideal Cert.ReferenceIdeal.S50000x246 .f32)
    (b : FVec Ideal Cert.ReferenceIdeal.S246 .f32) (i : Fin 50000) (q : Fin 246) :
    Cert.Spec.relu (Cert.Spec.biased A b) (ix2 i q) = max (A (ix2 i q) + b (ix1 q)) (Ideal.ofBits .f32 0x00000000#32) := by
  unfold Cert.Spec.relu Cert.Spec.biased
  rw [maximumf_apply, addf_apply, Cert.HostBroadcast.row_apply, Cert.HostBroadcast.scalar_apply]
  rfl

/-- An entry of a written block against the reference's formula: where the block's entry is the array's entry (r, q) and the
    bias block is the bias, the payload at (p, q) is the formula at (r, q). -/
theorem block_entry (A : FVec Ideal Cert.ReferenceIdeal.S50000x246 .f32) (b : FVec Ideal Cert.ReferenceIdeal.S246 .f32)
    (x0 : Vec Ideal S2000x246 .f32) (x1 : Vec Ideal S246 .f32) (p : Fin 2000) (q : Fin 246) (r : Fin 50000)
    (h0 : x0 (ix2 p q) = A (ix2 r q)) (h1 : x1 (ix1 q) = b (ix1 q)) :
    k5_pay1 (F := Ideal) x0 x1 (ix2 p q) = Cert.Spec.relu (Cert.Spec.biased A b) (ix2 r q) := by
  rw [pay_apply, spec_apply, h0, h1]

/-- The printed index maps, decided over the grid: the row blocks move with the point, the bias is one block. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point t writes back is block t of the reference's formula of the arrays the region finds. -/
theorem flushed_eq (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (Cert.Spec.relu (Cert.Spec.biased (V c main_v75) (V c main_arg7))) := by
  show (cfg5.win 2).cut (grid5.coords t) ((dat5 (F := Ideal) V c).after 2 t) = _
  rw [after5_2]
  unfold out5_2
  rw [View.canon_unit_zero hz2]
  simp only [View.ld_unit_zero (S := S2000x246) hz2, View.ld_unit_zero (S := S246) hz1]
  obtain ⟨e0, e1, e2, e3, e4⟩ := idx_facts t
  have hN : t.val < 25 := lt_of_lt_of_eq t.isLt N_5
  funext j
  obtain ⟨p, q, rfl⟩ : ∃ (p : Fin 2000) (q : Fin 246), j = ix2 p q := ⟨j 0, j 1, eq_ix2 j⟩
  have hp : p.val < 2000 := p.isLt
  have hrow : t.val * 2000 + p.val < 50000 := by omega
  have h2 : ((cfg5.win 2).blk t).view.emb (ix2 p q) = ix2 (⟨t.val * 2000 + p.val, hrow⟩ : Fin 50000) q := by
    funext a; apply Fin.ext
    match a with
    | ⟨0, _⟩ => show win5_2.index t (0 : Fin 2) * 2000 + 1 * p.val = t.val * 2000 + p.val; omega
    | ⟨1, _⟩ => show win5_2.index t (1 : Fin 2) * 246 + 1 * q.val = q.val; omega
  have h0 : ((cfg5.win 0).blk t).view.emb (ix2 p q) = ix2 (⟨t.val * 2000 + p.val, hrow⟩ : Fin 50000) q := by
    funext a; apply Fin.ext
    match a with
    | ⟨0, _⟩ => show win5_0.index t (0 : Fin 2) * 2000 + 1 * p.val = t.val * 2000 + p.val; omega
    | ⟨1, _⟩ => show win5_0.index t (1 : Fin 2) * 246 + 1 * q.val = q.val; omega
  have h1 : ((cfg5.win 1).blk t).view.emb (ix1 q) = ix1 q := by
    funext a; apply Fin.ext
    match a with
    | ⟨0, _⟩ => show win5_1.index t (0 : Fin 1) * 246 + 1 * q.val = q.val; omega
  refine (block_entry (V c main_v75) (V c main_arg7) (iblk5 V c 0 t) (iblk5 V c 1 t) p q ⟨t.val * 2000 + p.val, hrow⟩
    (congrArg (V c main_v75) h0) (congrArg (V c main_arg7) h1)).trans ?_
  exact (congrArg (Cert.Spec.relu (Cert.Spec.biased (V c main_v75) (V c main_arg7))) h2).symm

/-- An index of the array is in point t's block iff each coordinate is in the block's range on its axis. -/
theorem mem_blk (t : Fin cfg5.N) (i : S50000x246.Idx) :
    i ∈ ((cfg5.win 2).blk t).view.set ↔ ∀ a : Fin 2, win5_2.index t a * S2000x246.size a ≤ (i a).val
      ∧ (i a).val < win5_2.index t a * S2000x246.size a + S2000x246.size a := by
  show i ∈ ((View.whole main_v76).slice (win5_2.rect t)).set ↔ _
  rw [View.set_slice_whole, Rect.mem_set_unit]
  exact Iff.rfl

/-- Every row is in some point's block: row r in point r / 2000's. -/
theorem cover (i : S50000x246.Idx) :
    ∃ t : Fin cfg5.N, (cfg5.win 2).flush t = true ∧ i ∈ ((cfg5.win 2).blk t).view.set := by
  have hi0 : (i 0).val < 50000 := (i 0).isLt
  have hi1 : (i 1).val < 246 := (i 1).isLt
  have hlt : (i 0).val / 2000 < cfg5.N := by rw [show cfg5.N = 25 from N_5]; omega
  obtain ⟨e0, e1, e2, e3, e4⟩ := idx_facts ⟨(i 0).val / 2000, hlt⟩
  refine ⟨⟨(i 0).val / 2000, hlt⟩, flush5_2 _, ?_⟩
  rw [mem_blk]
  intro a
  match a with
  | ⟨0, _⟩ =>
    show win5_2.index ⟨(i 0).val / 2000, hlt⟩ (0 : Fin 2) * 2000 ≤ (i 0).val
      ∧ (i 0).val < win5_2.index ⟨(i 0).val / 2000, hlt⟩ (0 : Fin 2) * 2000 + 2000
    rw [e3]; show (i 0).val / 2000 * 2000 ≤ (i 0).val ∧ (i 0).val < (i 0).val / 2000 * 2000 + 2000; omega
  | ⟨1, _⟩ =>
    show win5_2.index ⟨(i 0).val / 2000, hlt⟩ (1 : Fin 2) * 246 ≤ (i 1).val
      ∧ (i 1).val < win5_2.index ⟨(i 0).val / 2000, hlt⟩ (1 : Fin 2) * 246 + 246
    rw [e4]; omega

end Relu5

/-- The output array of region 5 after its 25 points: max (A + bias row, 0) of the arrays the region is entered with. -/
theorem relu5 (V : (c : Dev nD) → (b : Ref sig .tc) → Buf (Elt Ideal) ((c : Thread nD τ).loc b)) (c : Dev nD) :
    (dat5 (F := Ideal) V c).arrAt 2 cfg5.N = Cert.Spec.relu (Cert.Spec.biased (V c main_v75) (V c main_arg7)) :=
  (dat5 (F := Ideal) V c).arrAt_eq_of_cover 2 _ (fun t _ => Relu5.flushed_eq V c t) Relu5.cover

end Cert.KernelIdeal.RegionValue

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.LogSoftmax7.lean ====
/-
  Region 7: a bias added to every row, then the row-wise log-softmax.

  The region's grid has 25 points; point t reads rows 2000·t … 2000·t + 1999 of the [50000, 246] input and the whole
  bias vector, and writes the same rows of the output.  A block holds whole rows, so both of the body's lane reductions
  (the maximum from −∞ and the sum of the exponentials) run over all 246 entries of a row: with y the biased row and
  M its maximum, entry q of the written row is (y q − M) − log ∑ₖ exp (y k − M).  The reference computes the same
  function of the row: its maximum is once more compared with −∞, which changes nothing, and its sum starts from 0.
-/
import proofs.«149639_j46462956208473_1_alg».proof.Proof.Gen.KernelIdeal.Frame
import proofs.«149639_j46462956208473_1_alg».proof.Proof.Spec
import proofs.«149639_j46462956208473_1_alg».proof.Proof.LibHostBroadcast
import proofs.«149639_j46462956208473_1_alg».proof.Proof.LibRowsProduct
import proofs.«149639_j46462956208473_1_alg».proof.Proof.LibBroadcast
import proofs.«149639_j46462956208473_1_alg».proof.Proof.LibRowFolds
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.TcCoe

namespace LogSoftmax7

/-- The zero offsets of a whole block, rank 2 and rank 1. -/
theorem zeroOffsets2 : (![0, 0] : Fin 2 → Nat) = fun _ => 0 := funext fun a => by fin_cases a <;> rfl
theorem zeroOffsets1 : (![0] : Fin 1 → Nat) = fun _ => 0 := funext fun a => by fin_cases a; rfl

/-! ## One row -/

/-- The maximum of a row, folded from the value of the word of −∞. -/
def rowMax (y : Fin 246 → EReal) : EReal :=
  (Finset.univ : Finset (Fin 246)).fold max (Ideal.ofBits .f32 0xFF800000#32) y

/-- The log-softmax of a row at entry q. -/
def rowLogSoftmax (y : Fin 246 → EReal) (q : Fin 246) : EReal :=
  (y q - rowMax y) - Ideal.log (∑ k : Fin 246, Ideal.exp (y k - rowMax y))

/-- The word of −∞ is the least extended real, so comparing with it changes nothing. -/
theorem max_negInf (x : EReal) : max (Ideal.ofBits .f32 0xFF800000#32) x = x := by
  simp [Ideal.ofBits, Ideal.ieee]

/-! ## The body's payload at an entry -/

/-- The lane maxima of a block, re-laid as a column and spread along the rows. -/
def spreadMax (v : FVec Ideal S2000x246 .f32) : FVec Ideal S2000x246 .f32 :=
  broadcastTo S2000x246
    (shapeCast S2000x1 (multiReduction .maximumf [1] S2000 v 0xFF800000#32 reduces_S2000x246_S2000 (.inl rfl) rfl)
      shapeCasts_S2000_S2000x1) broadcasts_S2000x1_S2000x246

/-- The logarithms of the lane sums of a block, as a column spread along the rows. -/
def spreadLogSum (w : FVec Ideal S2000x246 .f32) : FVec Ideal S2000x246 .f32 :=
  broadcastTo S2000x246
    (log (shapeCast S2000x1 (multiReduction .add [1] S2000 w 0x00000000#32 reduces_S2000x246_S2000 (.inl rfl) rfl)
      shapeCasts_S2000_S2000x1)) broadcasts_S2000x1_S2000x246

theorem spreadMax_apply (v : FVec Ideal S2000x246 .f32) (p : Fin 2000) (q : Fin 246) :
    spreadMax v (ix2 p q) = rowMax (fun k => v (ix2 p k)) := by
  unfold spreadMax rowMax
  refine (Cert.Layout.broadcastTo_a1_ab_apply _ _ p q).trans ?_
  refine (Cert.Layout.shapeCast_col_apply _ _ p).trans ?_
  exact Cert.RowFolds.laneMax_apply v _ _ _ _ p

theorem spreadLogSum_apply (w : FVec Ideal S2000x246 .f32) (p : Fin 2000) (q : Fin 246) :
    spreadLogSum w (ix2 p q) = Ideal.log (∑ k : Fin 246, w (ix2 p k)) := by
  unfold spreadLogSum
  refine (Cert.Layout.broadcastTo_a1_ab_apply _ _ p q).trans ?_
  show Ideal.log (shapeCast S2000x1 _ shapeCasts_S2000_S2000x1 (ix2 p (0 : Fin 1))) = _
  refine congrArg Ideal.log ?_
  refine (Cert.Layout.shapeCast_col_apply _ _ p).trans ?_
  exact Cert.RowFolds.laneSum_apply w _ _ _ _ p

/-- The payload after the bias is added: the row-wise log-softmax of the biased block. -/
theorem tail_apply (v : FVec Ideal S2000x246 .f32) (p : Fin 2000) (q : Fin 246) :
    subf (subf v (spreadMax v)) (spreadLogSum (exp (subf v (spreadMax v)))) (ix2 p q)
      = rowLogSoftmax (fun k => v (ix2 p k)) q := by
  unfold rowLogSoftmax
  show (v (ix2 p q) - spreadMax v (ix2 p q)) - spreadLogSum (exp (subf v (spreadMax v))) (ix2 p q) = _
  rw [spreadMax_apply, spreadLogSum_apply]
  refine congrArg (fun s => (v (ix2 p q) - rowMax (fun k => v (ix2 p k))) - Ideal.log s) ?_
  refine Finset.sum_congr rfl fun k _ => ?_
  show Ideal.exp (v (ix2 p k) - spreadMax v (ix2 p k)) = _
  rw [spreadMax_apply]

/-- The biased block at an entry. -/
theorem biased_apply (x0 : Vec Ideal S2000x246 .f32) (x1 : Vec Ideal S246 .f32) (p : Fin 2000) (q : Fin 246) :
    (addf (F := Ideal) (φ := .f32) (shapeCast S2000x246 x0 shapeCasts_S2000x246_S2000x246)
      (broadcastTo S2000x246 (shapeCast S1x246 x1 shapeCasts_S246_S1x246) broadcasts_S1x246_S2000x246) : FVec Ideal S2000x246 .f32) (ix2 p q)
      = x0 (ix2 p q) + x1 (ix1 q) := by
  show shapeCast S2000x246 x0 shapeCasts_S2000x246_S2000x246 (ix2 p q)
      + broadcastTo S2000x246 (shapeCast S1x246 x1 shapeCasts_S246_S1x246) broadcasts_S1x246_S2000x246 (ix2 p q) = _
  rw [shapeCast_self, Cert.RowsProduct.broadcastTo_1n_an_apply, Cert.Layout.shapeCast_row_apply]

/-- The body's payload at entry (p, q) of a block: the log-softmax of the biased row p at q. -/
theorem pay_apply (x0 : Vec Ideal S2000x246 .f32) (x1 : Vec Ideal S246 .f32) (p : Fin 2000) (q : Fin 246) :
    k7_pay1 (F := Ideal) x0 x1 (ix2 p q) = rowLogSoftmax (fun k => x0 (ix2 p k) + x1 (ix1 k)) q := by
  unfold k7_pay1
  exact (tail_apply _ p q).trans (congrArg (rowLogSoftmax · q) (funext fun k => biased_apply x0 x1 p k))

/-! ## The reference's formula at an entry -/

/-- The host's logarithm and exponential at an entry are the extended reals'. -/
theorem hostLog_apply {s : Shape} (x : FVec Ideal s .f32) (j : s.Idx) : Host.log x j = Ideal.log (x j) := rfl
theorem hostExp_apply {s : Shape} (x : FVec Ideal s .f32) (j : s.Idx) : Host.exp x j = Ideal.exp (x j) := rfl

/-- The host's sum over the second axis from the zero word, at row i: the sum of the row. -/
theorem hostRowSum_apply (x : FVec Ideal ⟨2, ![50000, 246]⟩ .f32)
    (h' : Shape.ReducesTo ⟨2, ![50000, 246]⟩ [1] ⟨1, ![50000]⟩) (hu : 0 < (⟨0, ![]⟩ : Shape).numel) (i : Fin 50000) :
    Host.reduceAdd (F := Ideal) x (constant (F := Ideal) ⟨0, ![]⟩ .f32 0x00000000#32) h' hu (ix1 i) = ∑ k : Fin 246, x (ix2 i k) := by
  have hr : Shape.Reduces ⟨2, ![50000, 246]⟩ [1] ⟨1, ![50000]⟩ := by decide
  show Ideal.hostReduceAdd h' x (Ideal.ofBits .f32 0x00000000#32) (ix1 i) = _
  rw [Ideal.hostReduceAdd_single h' hr, Ideal.ofBits_zero_f32, zero_add]
  exact Finset.sum_congr rfl fun k _ => congrArg x (Cert.RowFolds.lift_row hr i k)

/-- The biased array at an entry. -/
theorem specBiased_apply (A : FVec Ideal Cert.ReferenceIdeal.S50000x246 .f32)
    (b : FVec Ideal Cert.ReferenceIdeal.S246 .f32) (i : Fin 50000) (q : Fin 246) :
    Cert.Spec.biased A b (ix2 i q) = A (ix2 i q) + b (ix1 q) := by
  unfold Cert.Spec.biased
  rw [addf_apply, Cert.HostBroadcast.row_apply]

/-- The shifted array at an entry: the entry minus its row's maximum. -/
theorem shifted_apply (Y : FVec Ideal Cert.ReferenceIdeal.S50000x246 .f32) (i : Fin 50000) (q : Fin 246) :
    Cert.Spec.shifted Y (ix2 i q) = Y (ix2 i q) - rowMax (fun k => Y (ix2 i k)) := by
  have hr : Shape.Reduces ⟨2, ![50000, 246]⟩ [1] ⟨1, ![50000]⟩ := by decide
  unfold Cert.Spec.shifted
  rw [subf_apply]
  refine congrArg (fun s => Y (ix2 i q) - s) ?_
  refine (Cert.HostBroadcast.col_apply _ _ _ i q).trans ?_
  rw [maximumf_apply, Cert.HostBroadcast.scalar_apply]
  refine (congrArg (max _) (Cert.RowFolds.hostFold_apply FloatOps.maximumf Y _ _ hr _ i)).trans ?_
  exact max_negInf _

/-- The reference's log-softmax at an entry: the same function of the row. -/
theorem specLogSoftmax_apply (Y : FVec Ideal Cert.ReferenceIdeal.S50000x246 .f32) (i : Fin 50000) (q : Fin 246) :
    Cert.Spec.logSoftmax Y (ix2 i q) = rowLogSoftmax (fun k => Y (ix2 i k)) q := by
  unfold Cert.Spec.logSoftmax rowLogSoftmax
  rw [subf_apply, shifted_apply]
  refine congrArg (fun s => (Y (ix2 i q) - rowMax (fun k => Y (ix2 i k))) - s) ?_
  refine (Cert.HostBroadcast.col_spread_apply _ _ i q).trans ?_
  refine (hostLog_apply _ _).trans (congrArg Ideal.log ?_)
  refine (Cert.HostBroadcast.col_one_apply _ _ i).trans ?_
  refine (hostRowSum_apply _ _ _ i).trans ?_
  refine Finset.sum_congr rfl fun k _ => ?_
  rw [hostExp_apply, shifted_apply]

theorem spec_apply (A : FVec Ideal Cert.ReferenceIdeal.S50000x246 .f32)
    (b : FVec Ideal Cert.ReferenceIdeal.S246 .f32) (i : Fin 50000) (q : Fin 246) :
    Cert.Spec.logSoftmax (Cert.Spec.biased A b) (ix2 i q) = rowLogSoftmax (fun k => A (ix2 i k) + b (ix1 k)) q :=
  (specLogSoftmax_apply _ i q).trans (congrArg (rowLogSoftmax · q) (funext fun k => specBiased_apply A b i k))

/-- An entry of a written block against the reference's formula: where row p of the block is row r of the array and the
    bias block is the bias, the payload at (p, q) is the formula at (r, q). -/
theorem block_entry (A : FVec Ideal Cert.ReferenceIdeal.S50000x246 .f32) (b : FVec Ideal Cert.ReferenceIdeal.S246 .f32)
    (x0 : Vec Ideal S2000x246 .f32) (x1 : Vec Ideal S246 .f32) (p : Fin 2000) (q : Fin 246) (r : Fin 50000)
    (h0 : ∀ k : Fin 246, x0 (ix2 p k) = A (ix2 r k)) (h1 : ∀ k : Fin 246, x1 (ix1 k) = b (ix1 k)) :
    k7_pay1 (F := Ideal) x0 x1 (ix2 p q) = Cert.Spec.logSoftmax (Cert.Spec.biased A b) (ix2 r q) := by
  rw [pay_apply, spec_apply]
  exact congrArg (rowLogSoftmax · q) (funext fun k => by rw [h0 k, h1 k])

/-! ## From blocks to the array -/

/-- The printed index maps, decided over the grid: the row blocks move with the point, the bias is one block. -/
theorem blockIndex_facts : ∀ t : Fin cfg7.N, win7_0.index t (0 : Fin 2) = t.val ∧ win7_0.index t (1 : Fin 2) = 0
    ∧ win7_1.index t (0 : Fin 1) = 0
    ∧ win7_2.index t (0 : Fin 2) = t.val ∧ win7_2.index t (1 : Fin 2) = 0 :=
  (by decide +kernel : ∀ t : Fin grid7.N, _)

/-- What point t writes back is block t of the reference's formula of the arrays the region finds. -/
theorem writtenBlock_eq (V : (c : Dev nD) → (b : Ref sig .tc) → Buf (Elt Ideal) ((c : Thread nD τ).loc b)) (c : Dev nD) (t : Fin cfg7.N) :
    (dat7 (F := Ideal) V c).flushed 2 t
      = ((cfg7.win 2).blk t).view.read (Elt Ideal) (Cert.Spec.logSoftmax (Cert.Spec.biased (V c main_v90) (V c main_arg9))) := by
  show (cfg7.win 2).cut (grid7.coords t) ((dat7 (F := Ideal) V c).after 2 t) = _
  rw [after7_2]
  unfold out7_2
  rw [View.canon_unit_zero zeroOffsets2]
  simp only [View.ld_unit_zero (S := S2000x246) zeroOffsets2, View.ld_unit_zero (S := S246) zeroOffsets1]
  obtain ⟨e0, e1, e2, e3, e4⟩ := blockIndex_facts t
  have hN : t.val < 25 := lt_of_lt_of_eq t.isLt N_7
  funext j
  obtain ⟨p, q, rfl⟩ : ∃ (p : Fin 2000) (q : Fin 246), j = ix2 p q := ⟨j 0, j 1, eq_ix2 j⟩
  have hp : p.val < 2000 := p.isLt
  have hrow : t.val * 2000 + p.val < 50000 := by omega
  have h2 : ((cfg7.win 2).blk t).view.emb (ix2 p q) = ix2 (⟨t.val * 2000 + p.val, hrow⟩ : Fin 50000) q := by
    funext a; apply Fin.ext
    match a with
    | ⟨0, _⟩ => show win7_2.index t (0 : Fin 2) * 2000 + 1 * p.val = t.val * 2000 + p.val; omega
    | ⟨1, _⟩ => show win7_2.index t (1 : Fin 2) * 246 + 1 * q.val = q.val; omega
  have h0 : ∀ k : Fin 246, ((cfg7.win 0).blk t).view.emb (ix2 p k) = ix2 (⟨t.val * 2000 + p.val, hrow⟩ : Fin 50000) k := fun k => by
    funext a; apply Fin.ext
    match a with
    | ⟨0, _⟩ => show win7_0.index t (0 : Fin 2) * 2000 + 1 * p.val = t.val * 2000 + p.val; omega
    | ⟨1, _⟩ => show win7_0.index t (1 : Fin 2) * 246 + 1 * k.val = k.val; omega
  have h1 : ∀ k : Fin 246, ((cfg7.win 1).blk t).view.emb (ix1 k) = ix1 k := fun k => by
    funext a; apply Fin.ext
    match a with
    | ⟨0, _⟩ => show win7_1.index t (0 : Fin 1) * 246 + 1 * k.val = k.val; omega
  refine (block_entry (V c main_v90) (V c main_arg9) (iblk7 V c 0 t) (iblk7 V c 1 t) p q ⟨t.val * 2000 + p.val, hrow⟩
    (fun k => congrArg (V c main_v90) (h0 k)) (fun k => congrArg (V c main_arg9) (h1 k))).trans ?_
  exact (congrArg (Cert.Spec.logSoftmax (Cert.Spec.biased (V c main_v90) (V c main_arg9))) h2).symm

/-- An index of the array is in point t's block iff each coordinate is in the block's range on its axis. -/
theorem mem_block (t : Fin cfg7.N) (i : S50000x246.Idx) :
    i ∈ ((cfg7.win 2).blk t).view.set ↔ ∀ a : Fin 2, win7_2.index t a * S2000x246.size a ≤ (i a).val
      ∧ (i a).val < win7_2.index t a * S2000x246.size a + S2000x246.size a := by
  show i ∈ ((View.whole main_v91).slice (win7_2.rect t)).set ↔ _
  rw [View.set_slice_whole, Rect.mem_set_unit]
  exact Iff.rfl

/-- Every row is in some point's block: row r in point r / 2000's. -/
theorem rows_covered (i : S50000x246.Idx) :
    ∃ t : Fin cfg7.N, (cfg7.win 2).flush t = true ∧ i ∈ ((cfg7.win 2).blk t).view.set := by
  have hi0 : (i 0).val < 50000 := (i 0).isLt
  have hi1 : (i 1).val < 246 := (i 1).isLt
  have hlt : (i 0).val / 2000 < cfg7.N := by rw [show cfg7.N = 25 from N_7]; omega
  obtain ⟨e0, e1, e2, e3, e4⟩ := blockIndex_facts ⟨(i 0).val / 2000, hlt⟩
  refine ⟨⟨(i 0).val / 2000, hlt⟩, flush7_2 _, ?_⟩
  rw [mem_block]
  intro a
  match a with
  | ⟨0, _⟩ =>
    show win7_2.index ⟨(i 0).val / 2000, hlt⟩ (0 : Fin 2) * 2000 ≤ (i 0).val
      ∧ (i 0).val < win7_2.index ⟨(i 0).val / 2000, hlt⟩ (0 : Fin 2) * 2000 + 2000
    rw [e3]; show (i 0).val / 2000 * 2000 ≤ (i 0).val ∧ (i 0).val < (i 0).val / 2000 * 2000 + 2000; omega
  | ⟨1, _⟩ =>
    show win7_2.index ⟨(i 0).val / 2000, hlt⟩ (1 : Fin 2) * 246 ≤ (i 1).val
      ∧ (i 1).val < win7_2.index ⟨(i 0).val / 2000, hlt⟩ (1 : Fin 2) * 246 + 246
    rw [e4]; omega

end LogSoftmax7

/-- The output array of region 7 after its 25 points: the row-wise log-softmax of A + bias row, of the arrays the region is
    entered with. -/
theorem logSoftmax7 (V : (c : Dev nD) → (b : Ref sig .tc) → Buf (Elt Ideal) ((c : Thread nD τ).loc b)) (c : Dev nD) :
    (dat7 (F := Ideal) V c).arrAt 2 cfg7.N = Cert.Spec.logSoftmax (Cert.Spec.biased (V c main_v90) (V c main_arg9)) :=
  (dat7 (F := Ideal) V c).arrAt_eq_of_cover 2 _ (fun t _ => LogSoftmax7.writtenBlock_eq V c t) LogSoftmax7.rows_covered

end Cert.KernelIdeal.RegionValue

end
-- ==== Proof.lean ====
/-
  The certificate: a four-layer graph-convolution network computed by eight device regions among host lines, against
  the same network written as one line of host operations.

  Both programs compute, from the node features x, the edge list e and four weight matrices and bias vectors,
      log-softmax (conv (relu (conv (relu (conv (relu (conv (x·W₁)) ·W₂)) ·W₃)) ·W₄))
  where conv adds, into every node's row, the rows of its in-neighbours (self-loops included) weighted by the inverse
  square roots of the two end nodes' degrees, and then the bias.  The kernel program computes each matrix product and
  each bias / max(·,0) / log-softmax stage on the device, 2000 rows at a time; at the ideal values a product is an exact
  sum, a change of float format is the identity, and a stage computed block by block over whole rows is the stage of the
  whole array — so each region leaves exactly what the reference's corresponding host operations compute, and the host
  lines between the regions are the reference's own.  No law of the extended reals beyond max (−∞) x = x and
  0 + s = s is used, so the finiteness precondition is never opened.
  The frames of the two kernel programs are the generated ones; the reference's frame is its run with the result dropped;
  the idealization rewrote nothing, so there is nothing to preserve.
-/
import proofs.«149639_j46462956208473_1_alg».proof.Defs
import proofs.«149639_j46462956208473_1_alg».proof.Proof.Gen.Kernel
import proofs.«149639_j46462956208473_1_alg».proof.Proof.Gen.Kernel.Skeleton
import proofs.«149639_j46462956208473_1_alg».proof.Proof.Gen.Kernel.Launch
import proofs.«149639_j46462956208473_1_alg».proof.Proof.Gen.Kernel.Points
import proofs.«149639_j46462956208473_1_alg».proof.Proof.Gen.Kernel.Frame
import proofs.«149639_j46462956208473_1_alg».proof.Proof.Gen.KernelIdeal
import proofs.«149639_j46462956208473_1_alg».proof.Proof.Gen.KernelIdeal.Skeleton
import proofs.«149639_j46462956208473_1_alg».proof.Proof.Gen.KernelIdeal.Launch
import proofs.«149639_j46462956208473_1_alg».proof.Proof.Gen.KernelIdeal.Points
import proofs.«149639_j46462956208473_1_alg».proof.Proof.Gen.KernelIdeal.Frame
import proofs.«149639_j46462956208473_1_alg».proof.Proof.Gen.ReferenceIdeal
import proofs.«149639_j46462956208473_1_alg».proof.Proof.Gen.Pre_finite_inputs
import proofs.«149639_j46462956208473_1_alg».proof.Proof.KernelRun
import proofs.«149639_j46462956208473_1_alg».proof.Proof.KernelValue
import proofs.«149639_j46462956208473_1_alg».proof.Proof.RefOps
import proofs.«149639_j46462956208473_1_alg».proof.Proof.RefValue
import proofs.«149639_j46462956208473_1_alg».proof.Proof.Dense0
import proofs.«149639_j46462956208473_1_alg».proof.Proof.Dense2
import proofs.«149639_j46462956208473_1_alg».proof.Proof.Dense4
import proofs.«149639_j46462956208473_1_alg».proof.Proof.Dense6
import proofs.«149639_j46462956208473_1_alg».proof.Proof.Relu1
import proofs.«149639_j46462956208473_1_alg».proof.Proof.Relu3
import proofs.«149639_j46462956208473_1_alg».proof.Proof.Relu5
import proofs.«149639_j46462956208473_1_alg».proof.Proof.LogSoftmax7
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result m ρ c
          Cert.KernelIdeal.RegionValue.dense0 Cert.KernelIdeal.RegionValue.relu1 Cert.KernelIdeal.RegionValue.dense2
          Cert.KernelIdeal.RegionValue.relu3 Cert.KernelIdeal.RegionValue.dense4 Cert.KernelIdeal.RegionValue.relu5
          Cert.KernelIdeal.RegionValue.dense6 Cert.KernelIdeal.RegionValue.logSoftmax7), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RefValue.run m' ρ')
    obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
